-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S250000x128 : Shape := ⟨2, ![250000, 128]⟩
abbrev S50000x128 : Shape := ⟨2, ![50000, 128]⟩
abbrev S250000 : Shape := ⟨1, ![250000]⟩
abbrev S2x1000000 : Shape := ⟨2, ![2, 1000000]⟩
abbrev S1000000 : Shape := ⟨1, ![1000000]⟩
abbrev S2x500000 : Shape := ⟨2, ![2, 500000]⟩
abbrev S128x128 : Shape := ⟨2, ![128, 128]⟩
abbrev S128 : Shape := ⟨1, ![128]⟩
abbrev S_ : Shape := ⟨0, ![]⟩

class Facts : Prop where
  bcast_S_S250000x128 : S_.BroadcastsInDim S250000x128 (![] : Fin 0 → Fin S250000x128.rank)
  reducesTo_S250000x128_S_d0_1 : S250000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg8 : FVec F S128x128 .f32) (main_arg9 : FVec F S128 .f32) (main_arg10 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg8
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg9
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg10
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S250000x128 .f32) (main_arg1 : FVec F S50000x128 .f32) (main_arg2 : IVec S250000 32) (main_arg3 : IVec S2x1000000 32) (main_arg4 : IVec S1000000 32) (main_arg5 : IVec S2x500000 32) (main_arg6 : FVec F S128x128 .f32) (main_arg7 : FVec F S128x128 .f32) (main_arg8 : FVec F S128x128 .f32) (main_arg9 : FVec F S128 .f32) (main_arg10 : FVec F S128 .f32) : IVec S_ 1 :=
  let main_v0 : FVec F S250000x128 .f32 := Host.absf main_arg0
  let main_cst : FVec F S_ .f32 := constant S_ .f32 0x7F800000#32
  let main_v1 : FVec F S250000x128 .f32 := broadcastInDim S250000x128 ![] bcast_S_S250000x128 main_cst
  let main_v2 : IVec S250000x128 1 := cmpf .olt main_v0 main_v1
  let main_c : IVec S_ 1 := constantI S_ 1 1#1
  let main_v3 : IVec S_ 1 := (fun x v => Host.reduce IntOp.andi x v reducesTo_S250000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg6
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg7
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg8 main_arg9 main_arg10 main_v13 main_v16
-- ==== Kernel.lean ====
abbrev S250000x128 : Shape := ⟨2, ![250000, 128]⟩
abbrev S50000x128 : Shape := ⟨2, ![50000, 128]⟩
abbrev S250000 : Shape := ⟨1, ![250000]⟩
abbrev S2x1000000 : Shape := ⟨2, ![2, 1000000]⟩
abbrev S1000000 : Shape := ⟨1, ![1000000]⟩
abbrev S2x500000 : Shape := ⟨2, ![2, 500000]⟩
abbrev S128x128 : Shape := ⟨2, ![128, 128]⟩
abbrev S128 : Shape := ⟨1, ![128]⟩
abbrev S_ : Shape := ⟨0, ![]⟩
abbrev S250000x1 : Shape := ⟨2, ![250000, 1]⟩
abbrev S1x1000000 : Shape := ⟨2, ![1, 1000000]⟩
abbrev S1000000x1 : Shape := ⟨2, ![1000000, 1]⟩
abbrev S1000000x128 : Shape := ⟨2, ![1000000, 128]⟩
abbrev S500000x128 : Shape := ⟨2, ![500000, 128]⟩
abbrev S1x500000 : Shape := ⟨2, ![1, 500000]⟩
abbrev S500000 : Shape := ⟨1, ![500000]⟩
abbrev S500000x1 : Shape := ⟨2, ![500000, 1]⟩
abbrev S16x128 : Shape := ⟨2, ![16, 128]⟩
abbrev S2000x128 : Shape := ⟨2, ![2000, 128]⟩
abbrev S8x128 : Shape := ⟨2, ![8, 128]⟩
abbrev S1x128 : Shape := ⟨2, ![1, 128]⟩
abbrev S10000x128 : Shape := ⟨2, ![10000, 128]⟩

abbrev nBuf : Space → Nat
  | .hbm => 88
  | .vmem => 23
  | .smem => 0
  | _ => 0

abbrev bufTy : (tb : Table) → Fin (tcTables nBuf tb) → BufTy
  | .hbm, ⟨0, _⟩ => ⟨S250000x128, .f32⟩
  | .hbm, ⟨1, _⟩ => ⟨S50000x128, .f32⟩
  | .hbm, ⟨2, _⟩ => ⟨S250000, .i32⟩
  | .hbm, ⟨3, _⟩ => ⟨S2x1000000, .i32⟩
  | .hbm, ⟨4, _⟩ => ⟨S1000000, .i32⟩
  | .hbm, ⟨5, _⟩ => ⟨S2x500000, .i32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S_, .f32⟩
  | .hbm, ⟨12, _⟩ => ⟨S50000x128, .f32⟩
  | .hbm, ⟨13, _⟩ => ⟨S250000x1, .i32⟩
  | .hbm, ⟨14, _⟩ => ⟨S50000x128, .f32⟩
  | .hbm, ⟨15, _⟩ => ⟨S1x1000000, .i32⟩
  | .hbm, ⟨16, _⟩ => ⟨S1000000, .i32⟩
  | .hbm, ⟨17, _⟩ => ⟨S_, .i32⟩
  | .hbm, ⟨18, _⟩ => ⟨S1000000, .i32⟩
  | .hbm, ⟨19, _⟩ => ⟨S1000000, .i1⟩
  | .hbm, ⟨20, _⟩ => ⟨S_, .i32⟩
  | .hbm, ⟨21, _⟩ => ⟨S1000000, .i32⟩
  | .hbm, ⟨22, _⟩ => ⟨S1000000, .i32⟩
  | .hbm, ⟨23, _⟩ => ⟨S1000000, .i32⟩
  | .hbm, ⟨24, _⟩ => ⟨S1000000x1, .i32⟩
  | .hbm, ⟨25, _⟩ => ⟨S1000000x128, .f32⟩
  | .hbm, ⟨26, _⟩ => ⟨S_, .f32⟩
  | .hbm, ⟨27, _⟩ => ⟨S500000x128, .f32⟩
  | .hbm, ⟨28, _⟩ => ⟨S1000000x1, .i32⟩
  | .hbm, ⟨29, _⟩ => ⟨S500000x128, .f32⟩
  | .hbm, ⟨30, _⟩ => ⟨S50000x128, .bf16⟩
  | .hbm, ⟨31, _⟩ => ⟨S1x500000, .i32⟩
  | .hbm, ⟨32, _⟩ => ⟨S500000, .i32⟩
  | .hbm, ⟨33, _⟩ => ⟨S_, .i32⟩
  | .hbm, ⟨34, _⟩ => ⟨S500000, .i32⟩
  | .hbm, ⟨35, _⟩ => ⟨S500000, .i1⟩
  | .hbm, ⟨36, _⟩ => ⟨S_, .i32⟩
  | .hbm, ⟨37, _⟩ => ⟨S500000, .i32⟩
  | .hbm, ⟨38, _⟩ => ⟨S500000, .i32⟩
  | .hbm, ⟨39, _⟩ => ⟨S500000, .i32⟩
  | .hbm, ⟨40, _⟩ => ⟨S500000x1, .i32⟩
  | .hbm, ⟨41, _⟩ => ⟨S500000x128, .bf16⟩
  | .hbm, ⟨42, _⟩ => ⟨S500000x128, .bf16⟩
  | .hbm, ⟨43, _⟩ => ⟨S50000x128, .bf16⟩
  | .hbm, ⟨44, _⟩ => ⟨S1x500000, .i32⟩
  | .hbm, ⟨45, _⟩ => ⟨S500000, .i32⟩
  | .hbm, ⟨46, _⟩ => ⟨S_, .i32⟩
  | .hbm, ⟨47, _⟩ => ⟨S500000, .i32⟩
  | .hbm, ⟨48, _⟩ => ⟨S500000, .i1⟩
  | .hbm, ⟨49, _⟩ => ⟨S_, .i32⟩
  | .hbm, ⟨50, _⟩ => ⟨S500000, .i32⟩
  | .hbm, ⟨51, _⟩ => ⟨S500000, .i32⟩
  | .hbm, ⟨52, _⟩ => ⟨S500000, .i32⟩
  | .hbm, ⟨53, _⟩ => ⟨S500000x1, .i32⟩
  | .hbm, ⟨54, _⟩ => ⟨S500000x128, .bf16⟩
  | .hbm, ⟨55, _⟩ => ⟨S500000x128, .f32⟩
  | .hbm, ⟨56, _⟩ => ⟨S16x128, .f32⟩
  | .hbm, ⟨57, _⟩ => ⟨S16x128, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S1x128, .f32⟩
  | .hbm, ⟨64, _⟩ => ⟨S_, .f32⟩
  | .hbm, ⟨65, _⟩ => ⟨S1x128, .f32⟩
  | .hbm, ⟨66, _⟩ => ⟨S1x128, .f32⟩
  | .hbm, ⟨67, _⟩ => ⟨S_, .f32⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S1x128, .f32⟩
  | .hbm, ⟨72, _⟩ => ⟨S_, .f32⟩
  | .hbm, ⟨73, _⟩ => ⟨S1x128, .f32⟩
  | .hbm, ⟨74, _⟩ => ⟨S1x128, .f32⟩
  | .hbm, ⟨75, _⟩ => ⟨S_, .f32⟩
  | .hbm, ⟨76, _⟩ => ⟨S1x128, .f32⟩
  | .hbm, ⟨77, _⟩ => ⟨S1x128, .f32⟩
  | .hbm, ⟨78, _⟩ => ⟨S1x128, .f32⟩
  | .hbm, ⟨79, _⟩ => ⟨S1x128, .f32⟩
  | .hbm, ⟨80, _⟩ => ⟨S1x128, .f32⟩
  | .hbm, ⟨81, _⟩ => ⟨S500000x128, .f32⟩
  | .hbm, ⟨82, _⟩ => ⟨S1x500000, .i32⟩
  | .hbm, ⟨83, _⟩ => ⟨S500000, .i32⟩
  | .hbm, ⟨84, _⟩ => ⟨S_, .f32⟩
  | .hbm, ⟨85, _⟩ => ⟨S50000x128, .f32⟩
  | .hbm, ⟨86, _⟩ => ⟨S500000x1, .i32⟩
  | .hbm, ⟨87, _⟩ => ⟨S50000x128, .f32⟩
  | .local _ .vmem, ⟨0, _⟩ => ⟨S2000x128, .bf16⟩
  | .local _ .vmem, ⟨1, _⟩ => ⟨S2000x128, .bf16⟩
  | .local _ .vmem, ⟨2, _⟩ => ⟨S2000x128, .bf16⟩
  | .local _ .vmem, ⟨3, _⟩ => ⟨S2000x128, .bf16⟩
  | .local _ .vmem, ⟨4, _⟩ => ⟨S2000x128, .bf16⟩
  | .local _ .vmem, ⟨5, _⟩ => ⟨S2000x128, .bf16⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S2000x128, .f32⟩
  | .local _ .vmem, ⟨10, _⟩ => ⟨S2000x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | .local _ .vmem, ⟨14, _⟩ => ⟨S8x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S10000x128, .f32⟩
  | .local _ .vmem, ⟨22, _⟩ => ⟨S10000x128, .f32⟩
  | _, _ => ⟨S250000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_4 : Ref sig .tc := ⟨.hbm, 46, rfl⟩
abbrev main_v29 : Ref sig .tc := ⟨.hbm, 47, rfl⟩
abbrev main_v30 : Ref sig .tc := ⟨.hbm, 48, rfl⟩
abbrev main_c_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36_0 : Ref sig .tc := ⟨.hbm, 55, rfl⟩
abbrev main_v36_1 : Ref sig .tc := ⟨.hbm, 56, rfl⟩
abbrev main_v36_2 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_6 : Ref sig .tc := ⟨.hbm, 64, rfl⟩
abbrev main_v43 : Ref sig .tc := ⟨.hbm, 65, rfl⟩
abbrev main_v44 : Ref sig .tc := ⟨.hbm, 66, rfl⟩
abbrev main_cst_7 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_8 : Ref sig .tc := ⟨.hbm, 72, rfl⟩
abbrev main_v49 : Ref sig .tc := ⟨.hbm, 73, rfl⟩
abbrev main_v50 : Ref sig .tc := ⟨.hbm, 74, rfl⟩
abbrev main_cst_9 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_10 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg5_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem5_1 : DmaSem sig := 22

abbrev nD : Nat := 1
abbrev τ : Topo := Topo.v7x

variable {F : FTy → Type} [FloatOps F]

abbrev grid0 : Pipeline.Grid := ⟨2, ![2, 125], ![false, false]⟩

def cc0_transform_0 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S50000x128 : S_.BroadcastsInDim S50000x128 (![] : Fin 0 → Fin S50000x128.rank)
  bcast_S250000_S250000x1_0 : S250000.BroadcastsInDim S250000x1 (![0] : Fin 1 → Fin S250000x1.rank)
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S500000x128 : S_.BroadcastsInDim S500000x128 (![] : Fin 0 → Fin S500000x128.rank)
  bitsLt_bf16_f32 : FTy.bits .bf16 < FTy.bits .f32
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  inb_S8x128_S8x128_0_0 : ∀ a, (![0, 0] : Fin 2 → Nat) a + S8x128.size a ≤ S8x128.size a
  h_S8x128 : 0 < S8x128.numel
  inb_S128x128_S128x128_0_0 : ∀ a, (![0, 0] : Fin 2 → Nat) a + S128x128.size a ≤ S128x128.size a
  h_S128x128 : 0 < S128x128.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  transposes_S128x128_p1_0_S128x128 : S128x128.Transposes [1, 0] S128x128
  inb_S8x128_S1x128_0_0 : ∀ a, (![0, 0] : Fin 2 → Nat) a + S1x128.size a ≤ S8x128.size a
  h_S1x128 : 0 < S1x128.numel
  shapeCasts_S1x128_S1x128 : S1x128.ShapeCasts S1x128
  reduces_S2000x128_S128 : S2000x128.Reduces [0] S128
  shapeCasts_S128_S1x128 : S128.ShapeCasts S1x128
  slices_S16x128_S1x128_0_0 : S16x128.Slices ![0, 0] S1x128
  slices_S16x128_S1x128_8_0 : S16x128.Slices ![8, 0] S1x128
  bcast_S_S1x128 : S_.BroadcastsInDim S1x128 (![] : Fin 0 → Fin S1x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1x128_S1x128_0_0 : ∀ a, (![0, 0] : Fin 2 → Nat) a + S1x128.size a ≤ S1x128.size a
  broadcasts_S1x128_S10000x128 : S1x128.Broadcasts S10000x128
  scatter_S50000x128_S250000x1_S250000x128_1_0_0_1_wf : ScatterDims.WF S50000x128 S250000x1 S250000x128 [1] [0] [0] 1
  gather_S250000x128_S1000000x1_S1000000x128_1_0_n_n_0_1_1128_wf : GatherDims.WF S250000x128 S1000000x1 S1000000x128 [1] [0] [] [0] [] 1 ![1, 128]
  scatter_S500000x128_S1000000x1_S1000000x128_1_0_0_1_wf : ScatterDims.WF S500000x128 S1000000x1 S1000000x128 [1] [0] [0] 1
  gather_S50000x128_S500000x1_S500000x128_1_0_n_n_0_1_1128_wf : GatherDims.WF S50000x128 S500000x1 S500000x128 [1] [0] [] [0] [] 1 ![1, 128]
  dot_S2000x128_S128x128_S2000x128_1_0_0_1_n_n_wf : DotDims.WF S2000x128 S128x128 S2000x128 [1] [0] [0] [1] [] []
  scatter_S50000x128_S500000x1_S500000x128_1_0_0_1_wf : ScatterDims.WF S50000x128 S500000x1 S500000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S500000x128.size a
  hwx0_0 : ∀ i : grid0.Coords, EltTy.bits .bf16 = 32 ∨ (Rect.block (s := S500000x128) S2000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S500000x128.size a
  hwx0_1 : ∀ i : grid0.Coords, EltTy.bits .bf16 = 32 ∨ (Rect.block (s := S500000x128) S2000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S500000x128.size a
  hwx0_2 : ∀ i : grid0.Coords, EltTy.bits .bf16 = 32 ∨ (Rect.block (s := S500000x128) S2000x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S500000x128.size a
  hwx0_6 : ∀ i : grid0.Coords, EltTy.bits .f32 = 32 ∨ (Rect.block (s := S500000x128) S2000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x128.size a ≤ S16x128.size a
  hwx0_7 : ∀ i : grid0.Coords, EltTy.bits .f32 = 32 ∨ (Rect.block (s := S16x128) S8x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x128.size a ≤ S16x128.size a
  hwx0_8 : ∀ i : grid0.Coords, EltTy.bits .f32 = 32 ∨ (Rect.block (s := S16x128) S8x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S500000x128.size a
  hwx1_0 : ∀ i : grid1.Coords, EltTy.bits .f32 = 32 ∨ (Rect.block (s := S500000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S500000x128.size a
  hwx1_5 : ∀ i : grid1.Coords, EltTy.bits .f32 = 32 ∨ (Rect.block (s := S500000x128) S10000x128.size (cc1_transform_5 i) (hinb1_5 i)).WholeWords (EltTy.packing .f32)

variable [Facts₀]

def scatter_S50000x128_S250000x1_S250000x128_1_0_0_1 : ScatterDims S50000x128 S250000x1 S250000x128 where
  updateWindowDims := [1]
  insertedWindowDims := [0]
  scatterDimsToOperandDims := [0]
  indexVectorDim := 1
  wf := scatter_S50000x128_S250000x1_S250000x128_1_0_0_1_wf
def gather_S250000x128_S1000000x1_S1000000x128_1_0_n_n_0_1_1128 : GatherDims S250000x128 S1000000x1 S1000000x128 where
  offsetDims := [1]
  collapsedSliceDims := [0]
  operandBatchingDims := []
  startIndicesBatchingDims := []
  startIndexMap := [0]
  indexVectorDim := 1
  sliceSizes := ![1, 128]
  wf := gather_S250000x128_S1000000x1_S1000000x128_1_0_n_n_0_1_1128_wf
def scatter_S500000x128_S1000000x1_S1000000x128_1_0_0_1 : ScatterDims S500000x128 S1000000x1 S1000000x128 where
  updateWindowDims := [1]
  insertedWindowDims := [0]
  scatterDimsToOperandDims := [0]
  indexVectorDim := 1
  wf := scatter_S500000x128_S1000000x1_S1000000x128_1_0_0_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v35) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v36_0) S2000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v36_1) S8x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v36_2) S8x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v36_0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v54) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v55) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v56) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S250000x128 : Shape := ⟨2, ![250000, 128]⟩
abbrev S50000x128 : Shape := ⟨2, ![50000, 128]⟩
abbrev S250000 : Shape := ⟨1, ![250000]⟩
abbrev S2x1000000 : Shape := ⟨2, ![2, 1000000]⟩
abbrev S1000000 : Shape := ⟨1, ![1000000]⟩
abbrev S2x500000 : Shape := ⟨2, ![2, 500000]⟩
abbrev S128x128 : Shape := ⟨2, ![128, 128]⟩
abbrev S128 : Shape := ⟨1, ![128]⟩
abbrev S_ : Shape := ⟨0, ![]⟩
abbrev S250000x1 : Shape := ⟨2, ![250000, 1]⟩
abbrev S1x1000000 : Shape := ⟨2, ![1, 1000000]⟩
abbrev S1000000x1 : Shape := ⟨2, ![1000000, 1]⟩
abbrev S1000000x128 : Shape := ⟨2, ![1000000, 128]⟩
abbrev S500000x128 : Shape := ⟨2, ![500000, 128]⟩
abbrev S1x500000 : Shape := ⟨2, ![1, 500000]⟩
abbrev S500000 : Shape := ⟨1, ![500000]⟩
abbrev S500000x1 : Shape := ⟨2, ![500000, 1]⟩
abbrev S1x128 : Shape := ⟨2, ![1, 128]⟩

abbrev nBuf : Space → Nat
  | .hbm => 113
  | .vmem => 0
  | .smem => 0
  | _ => 0

abbrev bufTy : (tb : Table) → Fin (tcTables nBuf tb) → BufTy
  | .hbm, ⟨0, _⟩ => ⟨S250000x128, .f32⟩
  | .hbm, ⟨1, _⟩ => ⟨S50000x128, .f32⟩
  | .hbm, ⟨2, _⟩ => ⟨S250000, .i32⟩
  | .hbm, ⟨3, _⟩ => ⟨S2x1000000, .i32⟩
  | .hbm, ⟨4, _⟩ => ⟨S1000000, .i32⟩
  | .hbm, ⟨5, _⟩ => ⟨S2x500000, .i32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S_, .f32⟩
  | .hbm, ⟨12, _⟩ => ⟨S50000x128, .f32⟩
  | .hbm, ⟨13, _⟩ => ⟨S250000x1, .i32⟩
  | .hbm, ⟨14, _⟩ => ⟨S50000x128, .f32⟩
  | .hbm, ⟨15, _⟩ => ⟨S128x128, .f32⟩
  | .hbm, ⟨16, _⟩ => ⟨S50000x128, .f32⟩
  | .hbm, ⟨17, _⟩ => ⟨S1x1000000, .i32⟩
  | .hbm, ⟨18, _⟩ => ⟨S1000000, .i32⟩
  | .hbm, ⟨19, _⟩ => ⟨S_, .i32⟩
  | .hbm, ⟨20, _⟩ => ⟨S1000000, .i32⟩
  | .hbm, ⟨21, _⟩ => ⟨S1000000, .i1⟩
  | .hbm, ⟨22, _⟩ => ⟨S_, .i32⟩
  | .hbm, ⟨23, _⟩ => ⟨S1000000, .i32⟩
  | .hbm, ⟨24, _⟩ => ⟨S1000000, .i32⟩
  | .hbm, ⟨25, _⟩ => ⟨S1000000, .i32⟩
  | .hbm, ⟨26, _⟩ => ⟨S1000000x1, .i32⟩
  | .hbm, ⟨27, _⟩ => ⟨S1000000x128, .f32⟩
  | .hbm, ⟨28, _⟩ => ⟨S_, .f32⟩
  | .hbm, ⟨29, _⟩ => ⟨S500000x128, .f32⟩
  | .hbm, ⟨30, _⟩ => ⟨S1000000x1, .i32⟩
  | .hbm, ⟨31, _⟩ => ⟨S500000x128, .f32⟩
  | .hbm, ⟨32, _⟩ => ⟨S128x128, .f32⟩
  | .hbm, ⟨33, _⟩ => ⟨S500000x128, .f32⟩
  | .hbm, ⟨34, _⟩ => ⟨S1x500000, .i32⟩
  | .hbm, ⟨35, _⟩ => ⟨S500000, .i32⟩
  | .hbm, ⟨36, _⟩ => ⟨S_, .i32⟩
  | .hbm, ⟨37, _⟩ => ⟨S500000, .i32⟩
  | .hbm, ⟨38, _⟩ => ⟨S500000, .i1⟩
  | .hbm, ⟨39, _⟩ => ⟨S_, .i32⟩
  | .hbm, ⟨40, _⟩ => ⟨S500000, .i32⟩
  | .hbm, ⟨41, _⟩ => ⟨S500000, .i32⟩
  | .hbm, ⟨42, _⟩ => ⟨S500000, .i32⟩
  | .hbm, ⟨43, _⟩ => ⟨S500000x1, .i32⟩
  | .hbm, ⟨44, _⟩ => ⟨S500000x128, .f32⟩
  | .hbm, ⟨45, _⟩ => ⟨S500000x128, .f32⟩
  | .hbm, ⟨46, _⟩ => ⟨S1x500000, .i32⟩
  | .hbm, ⟨47, _⟩ => ⟨S500000, .i32⟩
  | .hbm, ⟨48, _⟩ => ⟨S_, .i32⟩
  | .hbm, ⟨49, _⟩ => ⟨S500000, .i32⟩
  | .hbm, ⟨50, _⟩ => ⟨S500000, .i1⟩
  | .hbm, ⟨51, _⟩ => ⟨S_, .i32⟩
  | .hbm, ⟨52, _⟩ => ⟨S500000, .i32⟩
  | .hbm, ⟨53, _⟩ => ⟨S500000, .i32⟩
  | .hbm, ⟨54, _⟩ => ⟨S500000, .i32⟩
  | .hbm, ⟨55, _⟩ => ⟨S500000x1, .i32⟩
  | .hbm, ⟨56, _⟩ => ⟨S500000x128, .f32⟩
  | .hbm, ⟨57, _⟩ => ⟨S128x128, .f32⟩
  | .hbm, ⟨58, _⟩ => ⟨S500000x128, .f32⟩
  | .hbm, ⟨59, _⟩ => ⟨S500000x128, .f32⟩
  | .hbm, ⟨60, _⟩ => ⟨S_, .f32⟩
  | .hbm, ⟨61, _⟩ => ⟨S128, .f32⟩
  | .hbm, ⟨62, _⟩ => ⟨S_, .f32⟩
  | .hbm, ⟨63, _⟩ => ⟨S128, .f32⟩
  | .hbm, ⟨64, _⟩ => ⟨S128, .f32⟩
  | .hbm, ⟨65, _⟩ => ⟨S_, .i32⟩
  | .hbm, ⟨66, _⟩ => ⟨S_, .f32⟩
  | .hbm, ⟨67, _⟩ => ⟨S128, .f32⟩
  | .hbm, ⟨68, _⟩ => ⟨S1x128, .f32⟩
  | .hbm, ⟨69, _⟩ => ⟨S_, .f32⟩
  | .hbm, ⟨70, _⟩ => ⟨S1x128, .f32⟩
  | .hbm, ⟨71, _⟩ => ⟨S1x128, .f32⟩
  | .hbm, ⟨72, _⟩ => ⟨S500000x128, .f32⟩
  | .hbm, ⟨73, _⟩ => ⟨S500000x128, .f32⟩
  | .hbm, ⟨74, _⟩ => ⟨S500000x128, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S128, .f32⟩
  | .hbm, ⟨80, _⟩ => ⟨S128, .f32⟩
  | .hbm, ⟨81, _⟩ => ⟨S128, .f32⟩
  | .hbm, ⟨82, _⟩ => ⟨S_, .f32⟩
  | .hbm, ⟨83, _⟩ => ⟨S_, .i1⟩
  | .hbm, ⟨84, _⟩ => ⟨S_, .f32⟩
  | .hbm, ⟨85, _⟩ => ⟨S_, .f32⟩
  | .hbm, ⟨86, _⟩ => ⟨S128, .f32⟩
  | .hbm, ⟨87, _⟩ => ⟨S128, .f32⟩
  | .hbm, ⟨88, _⟩ => ⟨S1x128, .f32⟩
  | .hbm, ⟨89, _⟩ => ⟨S500000x128, .f32⟩
  | .hbm, ⟨90, _⟩ => ⟨S500000x128, .f32⟩
  | .hbm, ⟨91, _⟩ => ⟨S_, .f32⟩
  | .hbm, ⟨92, _⟩ => ⟨S128, .f32⟩
  | .hbm, ⟨93, _⟩ => ⟨S128, .f32⟩
  | .hbm, ⟨94, _⟩ => ⟨S128, .f32⟩
  | .hbm, ⟨95, _⟩ => ⟨S1x128, .f32⟩
  | .hbm, ⟨96, _⟩ => ⟨S500000x128, .f32⟩
  | .hbm, ⟨97, _⟩ => ⟨S500000x128, .f32⟩
  | .hbm, ⟨98, _⟩ => ⟨S1x128, .f32⟩
  | .hbm, ⟨99, _⟩ => ⟨S500000x128, .f32⟩
  | .hbm, ⟨100, _⟩ => ⟨S500000x128, .f32⟩
  | .hbm, ⟨101, _⟩ => ⟨S1x128, .f32⟩
  | .hbm, ⟨102, _⟩ => ⟨S500000x128, .f32⟩
  | .hbm, ⟨103, _⟩ => ⟨S500000x128, .f32⟩
  | .hbm, ⟨104, _⟩ => ⟨S_, .f32⟩
  | .hbm, ⟨105, _⟩ => ⟨S500000x128, .f32⟩
  | .hbm, ⟨106, _⟩ => ⟨S500000x128, .f32⟩
  | .hbm, ⟨107, _⟩ => ⟨S1x500000, .i32⟩
  | .hbm, ⟨108, _⟩ => ⟨S500000, .i32⟩
  | .hbm, ⟨109, _⟩ => ⟨S_, .f32⟩
  | .hbm, ⟨110, _⟩ => ⟨S50000x128, .f32⟩
  | .hbm, ⟨111, _⟩ => ⟨S500000x1, .i32⟩
  | .hbm, ⟨112, _⟩ => ⟨S50000x128, .f32⟩
  | _, _ => ⟨S250000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_v8 : Ref sig .tc := ⟨.hbm, 21, rfl⟩
abbrev main_c_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_2 : Ref sig .tc := ⟨.hbm, 36, rfl⟩
abbrev main_v21 : Ref sig .tc := ⟨.hbm, 37, rfl⟩
abbrev main_v22 : Ref sig .tc := ⟨.hbm, 38, rfl⟩
abbrev main_c_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_4 : Ref sig .tc := ⟨.hbm, 48, rfl⟩
abbrev main_v31 : Ref sig .tc := ⟨.hbm, 49, rfl⟩
abbrev main_v32 : Ref sig .tc := ⟨.hbm, 50, rfl⟩
abbrev main_c_5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_cst_7 : Ref sig .tc := ⟨.hbm, 62, rfl⟩
abbrev main_v42 : Ref sig .tc := ⟨.hbm, 63, rfl⟩
abbrev main_v43 : Ref sig .tc := ⟨.hbm, 64, rfl⟩
abbrev main_c_8 : Ref sig .tc := ⟨.hbm, 65, rfl⟩
abbrev main_call0_cst : Ref sig .tc := ⟨.hbm, 66, rfl⟩
abbrev main_call0_v0 : Ref sig .tc := ⟨.hbm, 67, rfl⟩
abbrev main_call0_v1 : Ref sig .tc := ⟨.hbm, 68, rfl⟩
abbrev main_call0_cst_0 : Ref sig .tc := ⟨.hbm, 69, rfl⟩
abbrev main_call0_v2 : Ref sig .tc := ⟨.hbm, 70, rfl⟩
abbrev main_call0_v3 : Ref sig .tc := ⟨.hbm, 71, rfl⟩
abbrev main_call0_v4 : Ref sig .tc := ⟨.hbm, 72, rfl⟩
abbrev main_call0_v5 : Ref sig .tc := ⟨.hbm, 73, rfl⟩
abbrev main_call0_v6 : Ref sig .tc := ⟨.hbm, 74, rfl⟩
abbrev main_call0_v7 : Ref sig .tc := ⟨.hbm, 75, rfl⟩
abbrev main_call0_cst_1 : Ref sig .tc := ⟨.hbm, 76, rfl⟩
abbrev main_call0_v8 : Ref sig .tc := ⟨.hbm, 77, rfl⟩
abbrev main_call0_cst_2 : Ref sig .tc := ⟨.hbm, 78, rfl⟩
abbrev main_call0_v9 : Ref sig .tc := ⟨.hbm, 79, rfl⟩
abbrev main_call0_v10 : Ref sig .tc := ⟨.hbm, 80, rfl⟩
abbrev main_call0_v11 : Ref sig .tc := ⟨.hbm, 81, rfl⟩
abbrev main_call0_cst_3 : Ref sig .tc := ⟨.hbm, 82, rfl⟩
abbrev main_call0_v12 : Ref sig .tc := ⟨.hbm, 83, rfl⟩
abbrev main_call0_cst_4 : Ref sig .tc := ⟨.hbm, 84, rfl⟩
abbrev main_call0_call0_v0 : Ref sig .tc := ⟨.hbm, 85, rfl⟩
abbrev main_call0_call0_v1 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_cst_9 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_call1_cst : Ref sig .tc := ⟨.hbm, 104, rfl⟩
abbrev main_call1_v0 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_cst_10 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩

abbrev nD : Nat := 1
abbrev τ : Topo := Topo.v7x

variable {F : FTy → Type} [FloatOps F]

class Facts₀ : Prop where
  bcast_S_S50000x128 : S_.BroadcastsInDim S50000x128 (![] : Fin 0 → Fin S50000x128.rank)
  bcast_S250000_S250000x1_0 : S250000.BroadcastsInDim S250000x1 (![0] : Fin 1 → Fin S250000x1.rank)
  transposes_S128x128_S128x128_1_0 : S128x128.Transposes [1, 0] S128x128
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S500000x128 : S_.BroadcastsInDim S500000x128 (![] : Fin 0 → Fin S500000x128.rank)
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  reducesTo_S500000x128_S128_d0 : S500000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S500000x128_0_1 : S1x128.BroadcastsInDim S500000x128 (![0, 1] : Fin 2 → Fin S500000x128.rank)
  scatter_S50000x128_S250000x1_S250000x128_1_0_0_1_wf : ScatterDims.WF S50000x128 S250000x1 S250000x128 [1] [0] [0] 1
  dot_S50000x128_S128x128_S50000x128_1_0_0_1_n_n_wf : DotDims.WF S50000x128 S128x128 S50000x128 [1] [0] [0] [1] [] []
  gather_S250000x128_S1000000x1_S1000000x128_1_0_n_n_0_1_1128_wf : GatherDims.WF S250000x128 S1000000x1 S1000000x128 [1] [0] [] [0] [] 1 ![1, 128]
  scatter_S500000x128_S1000000x1_S1000000x128_1_0_0_1_wf : ScatterDims.WF S500000x128 S1000000x1 S1000000x128 [1] [0] [0] 1
  dot_S500000x128_S128x128_S500000x128_1_0_0_1_n_n_wf : DotDims.WF S500000x128 S128x128 S500000x128 [1] [0] [0] [1] [] []
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1

variable [Facts₀]

def scatter_S50000x128_S250000x1_S250000x128_1_0_0_1 : ScatterDims S50000x128 S250000x1 S250000x128 where
  updateWindowDims := [1]
  insertedWindowDims := [0]
  scatterDimsToOperandDims := [0]
  indexVectorDim := 1
  wf := scatter_S50000x128_S250000x1_S250000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S250000x128_S1000000x1_S1000000x128_1_0_n_n_0_1_1128 : GatherDims S250000x128 S1000000x1 S1000000x128 where
  offsetDims := [1]
  collapsedSliceDims := [0]
  operandBatchingDims := []
  startIndicesBatchingDims := []
  startIndexMap := [0]
  indexVectorDim := 1
  sliceSizes := ![1, 128]
  wf := gather_S250000x128_S1000000x1_S1000000x128_1_0_n_n_0_1_1128_wf
def scatter_S500000x128_S1000000x1_S1000000x128_1_0_0_1 : ScatterDims S500000x128 S1000000x1 S1000000x128 where
  updateWindowDims := [1]
  insertedWindowDims := [0]
  scatterDimsToOperandDims := [0]
  indexVectorDim := 1
  wf := scatter_S500000x128_S1000000x1_S1000000x128_1_0_0_1_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf

class Facts : Prop extends Facts₀ where

variable [Facts]
-- ==== Proof.KernelRun.lean ====
/-
  The run of the idealized program with its result kept.

  Every weakly fair execution of the program from a memory with zero counters terminates without a fault;
  the final memory holds, at the result buffer, the value the fold of boundary contents assigns to it (the
  last stretch of host operations applied to what the second region leaves), and every argument array is as
  it was launched.
-/
import proofs.«117741_j73332271612004_2_alg».proof.Proof.Gen.KernelIdeal.Frame
import Idealize.ShloMosaic.PureOps.Ideal

set_option maxRecDepth 16384

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run with the result kept: the final memory at the result buffer is the last boundary valuation's
    value there, and the eleven argument arrays are unchanged. -/
theorem run_result : θ_run defs (onTc (τ := τ) (main (F := Ideal))) ⟨m, fun _ => 0, ρ⟩ (fun r => ∀ c : Dev nD,
      r.2.mem ((c.tc : Thread nD τ).loc main_v61) = Gen.W5 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v61 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c)⟩)

end Cert.KernelIdeal.KValue

end
-- ==== Proof.FusedPieces.lean ====
/-
  What one grid point of the fused projection kernel leaves in its three output blocks.

  The body stores the tile's 2000×128 message block whole; it zeroes the two 8×128 statistics blocks at the first tile
  of each half of the grid, then adds the tile's column sums (of the messages, and of their squares) into row 0 of each.
  Only row 0 of a statistics block is ever read afterwards, so that is the row described here.
-/
import proofs.«117741_j73332271612004_2_alg».proof.Proof.Gen.KernelIdeal.Frame
import Idealize.ShloMosaic.Lib.Pipeline.Value
import Idealize.ShloMosaic.Lib.WritesUnit
import Idealize.ShloMosaic.Lib.Tactic
import Idealize.ShloMosaic.Lib.ValueIdx

set_option maxRecDepth 16384

noncomputable section
open Idealize.ShloMosaic Idealize.ShloMosaic.TcCoe Idealize.SL.Sem Idealize.ShloMosaic.ValueIdx
open Idealize.ShloMosaic.Pipeline (Dat)
namespace Cert.KernelIdeal.Fused
open Cert.KernelIdeal Cert.KernelIdeal.Gen

variable {F : FTy → Type} [FloatOps F]

/-- The zero offsets of a whole-block access, however they are spelt. -/
theorem hz : (![0, 0] : Fin 2 → Nat) = fun _ => 0 := funext fun a => by fin_cases a <;> rfl

/-- Row 0 of an 8×128 block, as the 1×128 row the body loads before it adds a tile's column sums to it. -/
def row0 (X : Vec F S8x128 .f32) : Vec F S1x128 .f32 :=
  View.ld X (Rect.unit (s := S8x128) ![0, 0] ![1, 128] inb_S8x128_S1x128_0_0)

theorem row0_apply (X : Vec F S8x128 .f32) (j : Fin 128) : row0 X (ix2 0 j) = X (ix2 0 j) := by
  show X ((Rect.unit (s := S8x128) ![0, 0] ![1, 128] inb_S8x128_S1x128_0_0).emb (ix2 0 j)) = _
  refine congrArg X (funext fun a => Fin.ext ?_)
  match a with
  | ⟨0, _⟩ => rfl
  | ⟨1, _⟩ => show 0 + 1 * j.val = j.val; omega

/-- The one whole-block store of the zero block covers the block. -/
theorem cover_zero (P : Vec F S8x128 .f32) (y : S8x128.Idx) :
    ∃ p ∈ [(⟨Rect.unit (s := S8x128) ![0, 0] S8x128.size inb_S8x128_S8x128_0_0, P⟩ : View.Piece (Elt F) S8x128 .f32)], y ∈ p.1.set :=
  ⟨_, List.mem_singleton_self _, View.mem_set_unit_zero hz inb_S8x128_S8x128_0_0 y⟩

/-- At a tile that opens a half of the grid the message block the body stores is the tile's three products added. -/
theorem msg_open (c : Dev nD) (i : grid0.Coords) (a2 : Memref sig .tc .vmem S2000x128 .bf16) (h2 : a2.IsWhole) (a3 : Memref sig .tc .vmem S2000x128 .bf16) (h3 : a3.IsWhole) (a4 : Memref sig .tc .vmem S2000x128 .bf16) (h4 : a4.IsWhole) (a5 : Memref sig .tc .vmem S128x128 .f32) (h5 : a5.IsWhole) (a6 : Memref sig .tc .vmem S128x128 .f32) (h6 : a6.IsWhole) (a7 : Memref sig .tc .vmem S128x128 .f32) (h7 : a7.IsWhole) (a8 : Memref sig .tc .vmem S2000x128 .f32) (h8 : a8.IsWhole) (a9 : Memref sig .tc .vmem S8x128 .f32) (h9 : a9.IsWhole) (a10 : Memref sig .tc .vmem S8x128 .f32) (h10 : a10.IsWhole) (hc : cond0_0 i) (x0 x1 x2 : Vec F S2000x128 .bf16) (x3 x4 x5 : Vec F S128x128 .f32) :
    out0_A_6 c i a2 h2 a3 h3 a4 h4 a5 h5 a6 h6 a7 h7 a8 h8 a9 h9 a10 h10 hc x0 x1 x2 x3 x4 x5 = k0_pay4 x3 x4 x5 x0 x1 x2 := by
  unfold out0_A_6
  rw [View.read_writes_eq_canon _ _ _ (cover0_A_6 c i a2 h2 a3 h3 a4 h4 a5 h5 a6 h6 a7 h7 a8 h8 a9 h9 a10 h10 hc x0 x1 x2 x3 x4 x5)]
  unfold kernelRun0_A
  dsimp only
  rw [View.canon_unit_zero hz]
  simp only [View.readAt_eq_ld, h2.read_unread, h3.read_unread, h4.read_unread, h5.read_unread, h6.read_unread, h7.read_unread, h8.read_unread, h9.read_unread, h10.read_unread, View.ld_unit_zero (S := S2000x128) hz, View.ld_unit_zero (S := S128x128) hz]

/-- At every other tile too. -/
theorem msg_next (c : Dev nD) (i : grid0.Coords) (a2 : Memref sig .tc .vmem S2000x128 .bf16) (h2 : a2.IsWhole) (a3 : Memref sig .tc .vmem S2000x128 .bf16) (h3 : a3.IsWhole) (a4 : Memref sig .tc .vmem S2000x128 .bf16) (h4 : a4.IsWhole) (a5 : Memref sig .tc .vmem S128x128 .f32) (h5 : a5.IsWhole) (a6 : Memref sig .tc .vmem S128x128 .f32) (h6 : a6.IsWhole) (a7 : Memref sig .tc .vmem S128x128 .f32) (h7 : a7.IsWhole) (a8 : Memref sig .tc .vmem S2000x128 .f32) (h8 : a8.IsWhole) (a9 : Memref sig .tc .vmem S8x128 .f32) (h9 : a9.IsWhole) (a10 : Memref sig .tc .vmem S8x128 .f32) (h10 : a10.IsWhole) (hc : ¬cond0_0 i) (x0 x1 x2 : Vec F S2000x128 .bf16) (x3 x4 x5 : Vec F S128x128 .f32) (xo7 xo8 : Vec F S8x128 .f32) :
    out0_B_6 c i a2 h2 a3 h3 a4 h4 a5 h5 a6 h6 a7 h7 a8 h8 a9 h9 a10 h10 hc x0 x1 x2 x3 x4 x5 xo7 xo8 = k0_pay4 x3 x4 x5 x0 x1 x2 := by
  unfold out0_B_6
  rw [View.read_writes_eq_canon _ _ _ (cover0_B_6 c i a2 h2 a3 h3 a4 h4 a5 h5 a6 h6 a7 h7 a8 h8 a9 h9 a10 h10 hc x0 x1 x2 x3 x4 x5 xo7 xo8)]
  unfold kernelRun0_B
  dsimp only
  rw [View.canon_unit_zero hz]
  simp only [View.readAt_eq_ld, h2.read_unread, h3.read_unread, h4.read_unread, h5.read_unread, h6.read_unread, h7.read_unread, h8.read_unread, h9.read_unread, h10.read_unread, View.ld_unit_zero (S := S2000x128) hz, View.ld_unit_zero (S := S128x128) hz]

/-- Row 0 of the running column sums after a tile that opens a half: the zero block's row 0 plus the tile's column sums. -/
theorem sum_open (c : Dev nD) (i : grid0.Coords) (a2 : Memref sig .tc .vmem S2000x128 .bf16) (h2 : a2.IsWhole) (a3 : Memref sig .tc .vmem S2000x128 .bf16) (h3 : a3.IsWhole) (a4 : Memref sig .tc .vmem S2000x128 .bf16) (h4 : a4.IsWhole) (a5 : Memref sig .tc .vmem S128x128 .f32) (h5 : a5.IsWhole) (a6 : Memref sig .tc .vmem S128x128 .f32) (h6 : a6.IsWhole) (a7 : Memref sig .tc .vmem S128x128 .f32) (h7 : a7.IsWhole) (a8 : Memref sig .tc .vmem S2000x128 .f32) (h8 : a8.IsWhole) (a9 : Memref sig .tc .vmem S8x128 .f32) (h9 : a9.IsWhole) (a10 : Memref sig .tc .vmem S8x128 .f32) (h10 : a10.IsWhole) (hc : cond0_0 i) (x0 x1 x2 : Vec F S2000x128 .bf16) (x3 x4 x5 : Vec F S128x128 .f32) (j : Fin 128) :
    out0_A_7 c i a2 h2 a3 h3 a4 h4 a5 h5 a6 h6 a7 h7 a8 h8 a9 h9 a10 h10 hc x0 x1 x2 x3 x4 x5 (ix2 0 j) = k0_pay5 x3 x4 x5 x0 x1 x2 (row0 k0_pay2) (ix2 0 j) := by
  unfold out0_A_7
  unfold kernelRun0_A
  dsimp only
  sl_unfold_words
  refine (View.read_writes_cons_rows_of_mem (o := 0) VO0_7 VO0_7.junk inb_S8x128_S1x128_0_0 _ _ (ix2 0 j) (ix2 0 j) rfl rfl rfl).trans ?_
  rw [View.readCov_eq_canon_ld _ _ _ (cover_zero _), View.canon_unit_zero (S := S8x128) hz]
  simp only [View.readAt_eq_ld, h2.read_unread, h3.read_unread, h4.read_unread, h5.read_unread, h6.read_unread, h7.read_unread, h8.read_unread, h9.read_unread, h10.read_unread, View.ld_unit_zero (S := S2000x128) hz, View.ld_unit_zero (S := S128x128) hz]
  rfl

/-- Row 0 of the running column sums after any other tile: what the tile before left there plus the tile's column sums. -/
theorem sum_next (c : Dev nD) (i : grid0.Coords) (a2 : Memref sig .tc .vmem S2000x128 .bf16) (h2 : a2.IsWhole) (a3 : Memref sig .tc .vmem S2000x128 .bf16) (h3 : a3.IsWhole) (a4 : Memref sig .tc .vmem S2000x128 .bf16) (h4 : a4.IsWhole) (a5 : Memref sig .tc .vmem S128x128 .f32) (h5 : a5.IsWhole) (a6 : Memref sig .tc .vmem S128x128 .f32) (h6 : a6.IsWhole) (a7 : Memref sig .tc .vmem S128x128 .f32) (h7 : a7.IsWhole) (a8 : Memref sig .tc .vmem S2000x128 .f32) (h8 : a8.IsWhole) (a9 : Memref sig .tc .vmem S8x128 .f32) (h9 : a9.IsWhole) (a10 : Memref sig .tc .vmem S8x128 .f32) (h10 : a10.IsWhole) (hc : ¬cond0_0 i) (x0 x1 x2 : Vec F S2000x128 .bf16) (x3 x4 x5 : Vec F S128x128 .f32) (xo7 xo8 : Vec F S8x128 .f32) (j : Fin 128) :
    out0_B_7 c i a2 h2 a3 h3 a4 h4 a5 h5 a6 h6 a7 h7 a8 h8 a9 h9 a10 h10 hc x0 x1 x2 x3 x4 x5 xo7 xo8 (ix2 0 j) = k0_pay5 x3 x4 x5 x0 x1 x2 (row0 xo7) (ix2 0 j) := by
  unfold out0_B_7
  unfold kernelRun0_B
  dsimp only
  refine (View.read_writes_cons_rows_of_mem (o := 0) a9.view (h9.unread xo7) inb_S8x128_S1x128_0_0 _ [] (ix2 0 j) (ix2 0 j) rfl rfl rfl).trans ?_
  simp only [View.readAt_eq_ld, h2.read_unread, h3.read_unread, h4.read_unread, h5.read_unread, h6.read_unread, h7.read_unread, h8.read_unread, h9.read_unread, h10.read_unread, View.ld_unit_zero (S := S2000x128) hz, View.ld_unit_zero (S := S128x128) hz]
  rfl

/-- Row 0 of the running column sums of squares after a tile that opens a half. -/
theorem sq_open (c : Dev nD) (i : grid0.Coords) (a2 : Memref sig .tc .vmem S2000x128 .bf16) (h2 : a2.IsWhole) (a3 : Memref sig .tc .vmem S2000x128 .bf16) (h3 : a3.IsWhole) (a4 : Memref sig .tc .vmem S2000x128 .bf16) (h4 : a4.IsWhole) (a5 : Memref sig .tc .vmem S128x128 .f32) (h5 : a5.IsWhole) (a6 : Memref sig .tc .vmem S128x128 .f32) (h6 : a6.IsWhole) (a7 : Memref sig .tc .vmem S128x128 .f32) (h7 : a7.IsWhole) (a8 : Memref sig .tc .vmem S2000x128 .f32) (h8 : a8.IsWhole) (a9 : Memref sig .tc .vmem S8x128 .f32) (h9 : a9.IsWhole) (a10 : Memref sig .tc .vmem S8x128 .f32) (h10 : a10.IsWhole) (hc : cond0_0 i) (x0 x1 x2 : Vec F S2000x128 .bf16) (x3 x4 x5 : Vec F S128x128 .f32) (j : Fin 128) :
    out0_A_8 c i a2 h2 a3 h3 a4 h4 a5 h5 a6 h6 a7 h7 a8 h8 a9 h9 a10 h10 hc x0 x1 x2 x3 x4 x5 (ix2 0 j) = k0_pay1 (k0_pay4 x3 x4 x5 x0 x1 x2) (row0 k0_pay3) (ix2 0 j) := by
  unfold out0_A_8
  unfold kernelRun0_A
  dsimp only
  sl_unfold_words
  refine (View.read_writes_cons_rows_of_mem (o := 0) VO0_8 VO0_8.junk inb_S8x128_S1x128_0_0 _ _ (ix2 0 j) (ix2 0 j) rfl rfl rfl).trans ?_
  rw [View.readCov_eq_canon_ld _ _ _ (cover_zero _), View.canon_unit_zero (S := S8x128) hz]
  simp only [View.readAt_eq_ld, h2.read_unread, h3.read_unread, h4.read_unread, h5.read_unread, h6.read_unread, h7.read_unread, h8.read_unread, h9.read_unread, h10.read_unread, View.ld_unit_zero (S := S2000x128) hz, View.ld_unit_zero (S := S128x128) hz]
  rfl

/-- Row 0 of the running column sums of squares after any other tile. -/
theorem sq_next (c : Dev nD) (i : grid0.Coords) (a2 : Memref sig .tc .vmem S2000x128 .bf16) (h2 : a2.IsWhole) (a3 : Memref sig .tc .vmem S2000x128 .bf16) (h3 : a3.IsWhole) (a4 : Memref sig .tc .vmem S2000x128 .bf16) (h4 : a4.IsWhole) (a5 : Memref sig .tc .vmem S128x128 .f32) (h5 : a5.IsWhole) (a6 : Memref sig .tc .vmem S128x128 .f32) (h6 : a6.IsWhole) (a7 : Memref sig .tc .vmem S128x128 .f32) (h7 : a7.IsWhole) (a8 : Memref sig .tc .vmem S2000x128 .f32) (h8 : a8.IsWhole) (a9 : Memref sig .tc .vmem S8x128 .f32) (h9 : a9.IsWhole) (a10 : Memref sig .tc .vmem S8x128 .f32) (h10 : a10.IsWhole) (hc : ¬cond0_0 i) (x0 x1 x2 : Vec F S2000x128 .bf16) (x3 x4 x5 : Vec F S128x128 .f32) (xo7 xo8 : Vec F S8x128 .f32) (j : Fin 128) :
    out0_B_8 c i a2 h2 a3 h3 a4 h4 a5 h5 a6 h6 a7 h7 a8 h8 a9 h9 a10 h10 hc x0 x1 x2 x3 x4 x5 xo7 xo8 (ix2 0 j) = k0_pay1 (k0_pay4 x3 x4 x5 x0 x1 x2) (row0 xo8) (ix2 0 j) := by
  unfold out0_B_8
  unfold kernelRun0_B
  dsimp only
  sl_unfold_words
  refine (View.read_writes_cons_rows_of_mem (o := 0) a10.view (h10.unread xo8) inb_S8x128_S1x128_0_0 _ [] (ix2 0 j) (ix2 0 j) rfl rfl rfl).trans ?_
  simp only [View.readAt_eq_ld, h2.read_unread, h3.read_unread, h4.read_unread, h5.read_unread, h6.read_unread, h7.read_unread, h8.read_unread, h9.read_unread, h10.read_unread, View.ld_unit_zero (S := S2000x128) hz, View.ld_unit_zero (S := S128x128) hz]
  rfl

end Cert.KernelIdeal.Fused
end
-- ==== Proof.LibMatmulRows.lean ====
/-
  A matrix product into a zero accumulator, read at one row and one column.

  For an `M × K` matrix `l` and a `K × N` matrix `r` contracted along the one shared axis, the entry of
  `l · r` at row `p` and column `j` is `∑ k, l[p,k] · r[k,j]`.  At the exact values the product unit's result
  is the accumulator plus the sum over the contraction index of the operands' products; the accumulator is
  the zero word, and the contraction index — a one-axis multi-index — is identified with its one
  coordinate `k : Fin K`.  The dimension numbers enter only through four coordinate facts (which axis of
  each operand is the output's and which is the contracted one), so the lemma serves every plain
  row-by-column product whatever the name of its dimension record.
-/
import Idealize.ShloMosaic.PureOps.Ideal.Laws
import Idealize.ShloMosaic.Lib.ValueIdx

noncomputable section

open scoped BigOperators

namespace Cert.LibMatmulRows

open Idealize.ShloMosaic Idealize.ShloMosaic.ValueIdx

/-- `(l · r)[p, j] = ∑ k, l[p,k] · r[k,j]` for a product into the zero accumulator whose left operand index at
    output `i` and contraction position `q` is `(i 0, q)` and whose right operand index is `(q, i 1)`. -/
theorem matmul_zero_apply {M K N : ℕ} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision) (l : FVec Ideal ⟨2, ![M, K]⟩ φ₁) (r : FVec Ideal ⟨2, ![K, N]⟩ φ₂)
    (p : Fin M) (j : Fin N) :
    matmul D prec l r (constant (F := Ideal) ⟨2, ![M, N]⟩ .f32 0x00000000#32) (ix2 p j)
      = ∑ k : Fin K, l (ix2 p k) * r (ix2 k j) := by
  show FloatOps.matmul D prec l r (constant (F := Ideal) ⟨2, ![M, N]⟩ .f32 0x00000000#32) (ix2 p j) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.LibMatmulRows

end
-- ==== Proof.FusedTile.lean ====
/-
  The arithmetic of one tile of the fused projection kernel at the exact values.

  A tile holds 2000 rows of each of the three gathered inputs. Its message block is, entry by entry, three dot products
  against rows of the weights, added left to right; its contribution to the statistics is the sum of each column of
  that block, and of the squares of its entries, added into row 0 of the running blocks.
-/
import proofs.«117741_j73332271612004_2_alg».proof.Proof.Gen.KernelIdeal.Frame
import Idealize.ShloMosaic.Lib.Pipeline.Value
import Idealize.ShloMosaic.Lib.WritesUnit
import Idealize.ShloMosaic.Lib.Tactic
import Idealize.ShloMosaic.Lib.ValueIdx
import Idealize.ShloMosaic.PureOps.Ideal.Laws
import Idealize.ShloMosaic.Lib.ValueLayout
import proofs.«117741_j73332271612004_2_alg».proof.Proof.LibMatmulRows

set_option maxRecDepth 16384

noncomputable section
open Idealize.ShloMosaic Idealize.ShloMosaic.TcCoe Idealize.SL.Sem Idealize.ShloMosaic.ValueIdx
open Idealize.ShloMosaic.Pipeline (Dat)
namespace Cert.KernelIdeal.Fused
open Cert.KernelIdeal Cert.KernelIdeal.Gen

open Cert.KernelIdeal.Gen

local notation "D₀" => dot_S2000x128_S128x128_S2000x128_1_0_0_1_n_n

/-- A tile's rows against a weight's rows: entry `(q, j)` of `l · wᵀ` is `∑ k, l[q,k] · w[j,k]` (the narrowing of the
    weight to half precision changes nothing at the exact values, and the product accumulates from zero). -/
theorem weight_dot (l : FVec Ideal S2000x128 .bf16) (w : FVec Ideal S128x128 .f32) (q : Fin 2000) (j : Fin 128) :
    matmul dot_S2000x128_S128x128_S2000x128_1_0_0_1_n_n none l
      (transpose S128x128 [1, 0] (truncf .bf16 w bitsLt_bf16_f32) transposes_S128x128_p1_0_S128x128)
      (constant (F := Ideal) S2000x128 .f32 0x00000000#32) (ix2 q j) = ∑ k : Fin 128, l (ix2 q k) * w (ix2 j k) := by
  refine (Cert.LibMatmulRows.matmul_zero_apply dot_S2000x128_S128x128_S2000x128_1_0_0_1_n_n rfl rfl
    (fun i p => ?_) (fun i p => ?_) (fun i p => ?_) (fun i p => ?_) none l _ q j).trans ?_
  · rfl
  · exact DotDims.lhsIdx_val_of_single _ (cl := 1) rfl i p
  · exact DotDims.rhsIdx_val_of_single _ (cr := 0) rfl i p
  · rfl
  · refine Finset.sum_congr rfl fun k _ => ?_
    rw [transpose_ix2_apply]
    rfl

/-- Entry `(q, j)` of a tile's message block: the three products added left to right. -/
theorem tile_apply (x0 x1 x2 : FVec Ideal S2000x128 .bf16) (x3 x4 x5 : FVec Ideal S128x128 .f32) (q : Fin 2000) (j : Fin 128) :
    k0_pay4 (F := Ideal) x3 x4 x5 x0 x1 x2 (ix2 q j)
      = (∑ k : Fin 128, x0 (ix2 q k) * x3 (ix2 j k) + ∑ k : Fin 128, x1 (ix2 q k) * x4 (ix2 j k))
        + ∑ k : Fin 128, x2 (ix2 q k) * x5 (ix2 j k) := by
  unfold k0_pay4
  simp only [shapeCast_self]
  exact congrArg₂ (· + ·) (congrArg₂ (· + ·) (weight_dot x0 x3 q j) (weight_dot x1 x4 q j)) (weight_dot x2 x5 q j)

/-- The index a sum over the rows of a tile inserts: row `q` above column `j`. -/
theorem lift_rows (j : Fin 128) (q : Fin 2000) :
    reduces_S2000x128_S128.lift (ix1 j) q = ix2 q j := by
  funext a
  match a with
  | ⟨0, _⟩ => rfl
  | ⟨1, _⟩ => rfl

/-- A tile's column sums, viewed as one row, at column `j`. -/
theorem colsum_row (v : FVec Ideal S2000x128 .f32) (j : Fin 128) :
    shapeCast S1x128 (multiReduction .add [0] S128 v 0x00000000#32 reduces_S2000x128_S128 (.inl rfl) rfl) shapeCasts_S128_S1x128 (ix2 0 j)
      = ∑ q : Fin 2000, v (ix2 q j) := by
  refine (shapeCast_addUnit_apply ![128] _ shapeCasts_S128_S1x128 (ix2 0 j)).trans ?_
  have e : (fun a : Fin 1 => (ix2 (0 : Fin 1) j : S1x128.Idx) a.succ) = ix1 j := funext fun a => by
    match a with
    | ⟨0, _⟩ => rfl
  rw [e]
  refine (Ideal.multiReduction_add_single v _ reduces_S2000x128_S128 _ _ (ix1 j)).trans ?_
  exact Finset.sum_congr rfl fun q _ => congrArg v (lift_rows j q)

/-- Row 0 of the running column sums after a tile: what was there plus the tile's column sums of its message block. -/
theorem colsum_apply (x0 x1 x2 : FVec Ideal S2000x128 .bf16) (x3 x4 x5 : FVec Ideal S128x128 .f32) (v24 : Vec Ideal S1x128 .f32) (j : Fin 128) :
    k0_pay5 (F := Ideal) x3 x4 x5 x0 x1 x2 v24 (ix2 0 j)
      = v24 (ix2 0 j) + ∑ q : Fin 2000, k0_pay4 (F := Ideal) x3 x4 x5 x0 x1 x2 (ix2 q j) := by
  unfold k0_pay5
  simp only [shapeCast_self]
  exact congrArg (v24 (ix2 0 j) + ·) (colsum_row _ j)

/-- Row 0 of the running column sums of squares after a tile: what was there plus the tile's column sums of squares. -/
theorem colsq_apply (v22 : FVec Ideal S2000x128 .f32) (v30 : Vec Ideal S1x128 .f32) (j : Fin 128) :
    k0_pay1 (F := Ideal) v22 v30 (ix2 0 j) = v30 (ix2 0 j) + ∑ q : Fin 2000, v22 (ix2 q j) * v22 (ix2 q j) := by
  unfold k0_pay1
  simp only [shapeCast_self]
  exact congrArg (v30 (ix2 0 j) + ·) (colsum_row _ j)

/-- The block the body stores at the first tile of a half is zero. -/
theorem zero_sum_apply (y : S8x128.Idx) : k0_pay2 (F := Ideal) y = 0 := Ideal.ofBits_zero_f32
theorem zero_sq_apply (y : S8x128.Idx) : k0_pay3 (F := Ideal) y = 0 := Ideal.ofBits_zero_f32

end Cert.KernelIdeal.Fused
end
-- ==== Proof.LibBlockSum.lean ====
/-
  Sums over a merged contraction axis.

  A contraction over `n * d` consecutive indices, that is `n` blocks of length `d` laid side by side, is the
  sum, block by block, of the `n` contractions over `d`.  Blocks whose terms all vanish may be left out.  A
  left-to-right accumulation from a starting value is that value plus the sum of what was added.  All of it is
  stated over an arbitrary commutative additive monoid: only commutativity and associativity of `+` are used,
  never cancellation or distributivity, so every statement holds on the extended reals as it stands, with no
  finiteness hypothesis.
-/
import Mathlib.Algebra.BigOperators.Fin
import Mathlib.Data.Fintype.BigOperators
import Mathlib.Logic.Equiv.Fin.Basic

namespace Cert.BlockSum

open Finset

variable {M : Type*} [AddCommMonoid M]

/-- Entry `c` of block `t` on the merged axis sits at position `c + d * t`. -/
def merged {n d : ℕ} (t : Fin n) (c : Fin d) : Fin (n * d) := finProdFinEquiv (t, c)

@[simp] theorem merged_val {n d : ℕ} (t : Fin n) (c : Fin d) : ((merged t c : Fin (n * d)) : ℕ) = c.val + d * t.val := rfl

/-- The block a merged position lies in. -/
theorem merged_div {n d : ℕ} (t : Fin n) (c : Fin d) : ((merged t c : Fin (n * d)) : ℕ) / d = t.val := by
  have hd : 0 < d := Nat.pos_of_ne_zero fun h => by subst h; exact c.elim0
  rw [merged_val, Nat.add_mul_div_left _ _ hd, Nat.div_eq_of_lt c.isLt, Nat.zero_add]

/-- The place of a merged position inside its block. -/
theorem merged_mod {n d : ℕ} (t : Fin n) (c : Fin d) : ((merged t c : Fin (n * d)) : ℕ) % d = c.val := by
  rw [merged_val, Nat.add_mul_mod_self_left, Nat.mod_eq_of_lt c.isLt]

/-- A sum over the merged axis is the sum over the blocks of the sums inside each block. -/
theorem sum_merged {n d : ℕ} (f : Fin (n * d) → M) :
    ∑ k, f k = ∑ t : Fin n, ∑ c : Fin d, f (merged t c) := by
  rw [← Equiv.sum_comp finProdFinEquiv f, Fintype.sum_prod_type]
  rfl

/-- The same when the merged term is known block by block. -/
theorem sum_merged_of {n d : ℕ} (f : Fin (n * d) → M) (g : Fin n → Fin d → M)
    (h : ∀ t c, f (merged t c) = g t c) : ∑ k, f k = ∑ t, ∑ c, g t c := by
  rw [sum_merged]
  exact Finset.sum_congr rfl fun t _ => Finset.sum_congr rfl fun c _ => h t c

/-- Terms that vanish outside `p` may be left out of a sum. -/
theorem sum_drop_zero {ι : Type*} [Fintype ι] (F : ι → M) (p : ι → Prop) [DecidablePred p]
    (h : ∀ t, ¬ p t → F t = 0) : ∑ t, F t = ∑ t ∈ univ.filter p, F t := by
  rw [Finset.sum_filter]
  refine Finset.sum_congr rfl fun t _ => ?_
  split_ifs with hp
  · rfl
  · exact h t hp

/-- Adding the entries of a list one after the other onto `z` gives `z` plus their sum. -/
theorem foldl_add_list (l : List M) (z : M) : l.foldl (· + ·) z = z + l.sum := by
  induction l generalizing z with
  | nil => simp
  | cons a l ih => rw [List.foldl_cons, ih, List.sum_cons, add_assoc]

/-- Accumulating `a 0, a 1, …` in order onto `z` gives `z` plus the sum of the `a t`. -/
theorem foldl_add_ofFn {n : ℕ} (a : Fin n → M) (z : M) : (List.ofFn a).foldl (· + ·) z = z + ∑ t, a t := by
  rw [foldl_add_list, List.sum_ofFn]

/-- Nine contributions added one after the other onto zero. -/
theorem acc_nine (a : Fin 9 → M) :
    0 + a 0 + a 1 + a 2 + a 3 + a 4 + a 5 + a 6 + a 7 + a 8 = ∑ t, a t := by
  simp only [Fin.sum_univ_succ, Fin.sum_univ_zero, zero_add, add_zero]
  simp only [add_assoc]
  rfl

/-- Four contributions added one after the other onto zero. -/
theorem acc_four (a : Fin 4 → M) : 0 + a 0 + a 1 + a 2 + a 3 = ∑ t, a t := by
  simp only [Fin.sum_univ_succ, Fin.sum_univ_zero, zero_add, add_zero]
  simp only [add_assoc]
  rfl

end Cert.BlockSum
-- ==== Proof.FusedArrays.lean ====
/-
  The three output arrays of the fused projection kernel after its 250 grid points, at the exact values.

  Tile `t` holds rows `2000·t … 2000·t + 1999` of the three gathered inputs and the three weights whole. So the message
  array ends holding, at row `r` and column `j`, the three dot products of row `r` of the inputs against row `j` of the
  weights; and row 0 of each half's statistics block ends holding that half's column sums (of the messages, and of their
  squares), accumulated tile after tile from zero.
-/
import proofs.«117741_j73332271612004_2_alg».proof.Proof.Gen.KernelIdeal.Frame
import Idealize.ShloMosaic.Lib.Pipeline.Value
import Idealize.ShloMosaic.Lib.WritesUnit
import Idealize.ShloMosaic.Lib.Tactic
import Idealize.ShloMosaic.Lib.ValueIdx
import Idealize.ShloMosaic.PureOps.Ideal.Laws
import proofs.«117741_j73332271612004_2_alg».proof.Proof.FusedPieces
import proofs.«117741_j73332271612004_2_alg».proof.Proof.FusedTile
import proofs.«117741_j73332271612004_2_alg».proof.Proof.LibBlockSum

set_option maxRecDepth 16384

noncomputable section
open Idealize.ShloMosaic Idealize.ShloMosaic.TcCoe Idealize.SL.Sem Idealize.ShloMosaic.ValueIdx
open Idealize.ShloMosaic.Pipeline (Dat)
namespace Cert.KernelIdeal.Fused
open Cert.KernelIdeal Cert.KernelIdeal.Gen

variable (V : (c : Dev nD) → (b : Ref sig .tc) → Buf (Elt Ideal) ((c : Thread nD τ).loc b)) (c : Dev nD)

/-- The region's six input arrays as it finds them: the three gathered inputs and the three weights. -/
abbrev inA : S500000x128.Idx → EReal := V c main_v24
abbrev inB : S500000x128.Idx → EReal := V c main_v25
abbrev inY : S500000x128.Idx → EReal := V c main_v35
abbrev wA : S128x128.Idx → EReal := V c main_arg6
abbrev wB : S128x128.Idx → EReal := V c main_arg7
abbrev wY : S128x128.Idx → EReal := V c main_arg8

/-- Entry `(r, j)` of the message matrix, from the region's six input arrays: three dot products added left to right. -/
def Mg (r : Fin 500000) (j : Fin 128) : EReal :=
  (∑ k : Fin 128, inA V c (ix2 r k) * wA V c (ix2 j k) + ∑ k : Fin 128, inB V c (ix2 r k) * wB V c (ix2 j k))
    + ∑ k : Fin 128, inY V c (ix2 r k) * wY V c (ix2 j k)

/-- The message matrix as an array. -/
def MgArr : S500000x128.Idx → EReal := fun i => Mg V c (i 0) (i 1)

/-- Row `q` of tile `t` is row `2000·t + q` of the arrays. -/
def rowOf (t : Fin cfg0.N) (q : Fin 2000) : Fin 500000 :=
  ⟨2000 * t.val + q.val, by have h : t.val < 250 := Nat.lt_of_lt_of_eq t.isLt N_0; have := q.isLt; omega⟩

/-- Where each window's block sits at point `t`, decided once over the grid: the row-tiled windows at block row `t`,
    the weights at their one block, the statistics at the block of the half `t` lies in. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val / 125 ∧ win0_7.index t (1 : Fin 2) = 0
    ∧ win0_8.index t (0 : Fin 2) = t.val / 125 ∧ win0_8.index t (1 : Fin 2) = 0 :=
  (by decide +kernel : ∀ t : Fin grid0.N, _)

/-- The three row-tiled input blocks at point `t`, entry by entry. -/
theorem blk0 (t : Fin cfg0.N) (q : Fin 2000) (k : Fin 128) :
    iblk0 V c 0 t (ix2 q k) = inA V c (ix2 (rowOf t q) k) := by
  show V c (Pipeline.arrRef spec0 0) (((cfg0.win 0).blk t).view.emb (ix2 q k)) = _
  refine congrArg (inA V c) (funext fun a => Fin.ext ?_)
  obtain ⟨e0, e1, -⟩ := idx_facts t
  match a with
  | ⟨0, _⟩ => show win0_0.index t (0 : Fin 2) * 2000 + 1 * q.val = 2000 * t.val + q.val; rw [e0]; omega
  | ⟨1, _⟩ => show win0_0.index t (1 : Fin 2) * 128 + 1 * k.val = k.val; rw [e1]; omega

theorem blk1 (t : Fin cfg0.N) (q : Fin 2000) (k : Fin 128) :
    iblk0 V c 1 t (ix2 q k) = inB V c (ix2 (rowOf t q) k) := by
  show V c (Pipeline.arrRef spec0 1) (((cfg0.win 1).blk t).view.emb (ix2 q k)) = _
  refine congrArg (inB V c) (funext fun a => Fin.ext ?_)
  obtain ⟨-, -, e0, e1, -⟩ := idx_facts t
  match a with
  | ⟨0, _⟩ => show win0_1.index t (0 : Fin 2) * 2000 + 1 * q.val = 2000 * t.val + q.val; rw [e0]; omega
  | ⟨1, _⟩ => show win0_1.index t (1 : Fin 2) * 128 + 1 * k.val = k.val; rw [e1]; omega

theorem blk2 (t : Fin cfg0.N) (q : Fin 2000) (k : Fin 128) :
    iblk0 V c 2 t (ix2 q k) = inY V c (ix2 (rowOf t q) k) := by
  show V c (Pipeline.arrRef spec0 2) (((cfg0.win 2).blk t).view.emb (ix2 q k)) = _
  refine congrArg (inY V c) (funext fun a => Fin.ext ?_)
  obtain ⟨-, -, -, -, e0, e1, -⟩ := idx_facts t
  match a with
  | ⟨0, _⟩ => show win0_2.index t (0 : Fin 2) * 2000 + 1 * q.val = 2000 * t.val + q.val; rw [e0]; omega
  | ⟨1, _⟩ => show win0_2.index t (1 : Fin 2) * 128 + 1 * k.val = k.val; rw [e1]; omega

/-- The three weight blocks at any point are the weights whole. -/
theorem blk3 (t : Fin cfg0.N) (j k : Fin 128) : iblk0 V c 3 t (ix2 j k) = wA V c (ix2 j k) := by
  show V c (Pipeline.arrRef spec0 3) (((cfg0.win 3).blk t).view.emb (ix2 j k)) = _
  refine congrArg (wA V c) (funext fun a => Fin.ext ?_)
  obtain ⟨-, -, -, -, -, -, e0, e1, -⟩ := idx_facts t
  match a with
  | ⟨0, _⟩ => show win0_3.index t (0 : Fin 2) * 128 + 1 * j.val = j.val; rw [e0]; omega
  | ⟨1, _⟩ => show win0_3.index t (1 : Fin 2) * 128 + 1 * k.val = k.val; rw [e1]; omega

theorem blk4 (t : Fin cfg0.N) (j k : Fin 128) : iblk0 V c 4 t (ix2 j k) = wB V c (ix2 j k) := by
  show V c (Pipeline.arrRef spec0 4) (((cfg0.win 4).blk t).view.emb (ix2 j k)) = _
  refine congrArg (wB V c) (funext fun a => Fin.ext ?_)
  obtain ⟨-, -, -, -, -, -, -, -, e0, e1, -⟩ := idx_facts t
  match a with
  | ⟨0, _⟩ => show win0_4.index t (0 : Fin 2) * 128 + 1 * j.val = j.val; rw [e0]; omega
  | ⟨1, _⟩ => show win0_4.index t (1 : Fin 2) * 128 + 1 * k.val = k.val; rw [e1]; omega

theorem blk5 (t : Fin cfg0.N) (j k : Fin 128) : iblk0 V c 5 t (ix2 j k) = wY V c (ix2 j k) := by
  show V c (Pipeline.arrRef spec0 5) (((cfg0.win 5).blk t).view.emb (ix2 j k)) = _
  refine congrArg (wY V c) (funext fun a => Fin.ext ?_)
  obtain ⟨-, -, -, -, -, -, -, -, -, -, e0, e1, -⟩ := idx_facts t
  match a with
  | ⟨0, _⟩ => show win0_5.index t (0 : Fin 2) * 128 + 1 * j.val = j.val; rw [e0]; omega
  | ⟨1, _⟩ => show win0_5.index t (1 : Fin 2) * 128 + 1 * k.val = k.val; rw [e1]; omega

/-- The tile's message block at point `t`: the body's arithmetic of the point's input blocks. -/
def tileMsg (t : Fin cfg0.N) : FVec Ideal S2000x128 .f32 :=
  k0_pay4 (F := Ideal) (iblk0 V c 3 t) (iblk0 V c 4 t) (iblk0 V c 5 t) (iblk0 V c 0 t) (iblk0 V c 1 t) (iblk0 V c 2 t)

/-- Entry `(q, j)` of tile `t`'s message block is entry `(2000·t + q, j)` of the message matrix. -/
theorem tileMsg_apply (t : Fin cfg0.N) (q : Fin 2000) (j : Fin 128) : tileMsg V c t (ix2 q j) = Mg V c (rowOf t q) j := by
  unfold tileMsg Mg
  refine (tile_apply (iblk0 V c 0 t) (iblk0 V c 1 t) (iblk0 V c 2 t) (iblk0 V c 3 t) (iblk0 V c 4 t) (iblk0 V c 5 t) q j).trans ?_
  simp only [blk0, blk1, blk2, blk3, blk4, blk5]

/-- After any point `t` the message output's staging buffer holds the tile's message block. -/
theorem outs_msg (t : Fin cfg0.N) : (outsAt0 V c t.val t.isLt).1 = tileMsg V c t := by
  by_cases h0 : t.val % 125 = 0
  · rw [outsAt0_A V c t h0]
    dsimp only
    exact msg_open (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t)
  · rw [outsAt0_B V c t h0]
    dsimp only
    exact msg_next (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2

/-- What point `t` writes back to the message array is block `t` of the message matrix. -/
theorem flushed_msg (t : Fin cfg0.N) :
    (dat0 V c).flushed 6 t = ((cfg0.win 6).blk t).view.read (Elt Ideal) (MgArr V c) := by
  show (cfg0.win 6).cut (grid0.coords t) ((dat0 V c).after 6 t) = _
  rw [after0_6, outs_msg]
  funext y
  obtain ⟨q, j, rfl⟩ : ∃ (q : Fin 2000) (j : Fin 128), y = ix2 q j := ⟨y 0, y 1, eq_ix2 y⟩
  show tileMsg V c t (ix2 q j) = MgArr V c (((cfg0.win 6).blk t).view.emb (ix2 q j))
  rw [tileMsg_apply]
  obtain ⟨-, -, -, -, -, -, -, -, -, -, -, -, e0, e1, -⟩ := idx_facts t
  unfold MgArr
  congr 1
  · refine Fin.ext ?_
    show 2000 * t.val + q.val = win0_6.index t (0 : Fin 2) * 2000 + 1 * q.val
    rw [e0]; omega
  · refine Fin.ext ?_
    show j.val = win0_6.index t (1 : Fin 2) * 128 + 1 * j.val
    rw [e1]; omega

/-- An index of the message array is in point `t`'s block iff each coordinate is in the block's range. -/
theorem mem_blk_msg (t : Fin cfg0.N) (i : S500000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v36_0).slice (win0_6.rect t)).set ↔ _
  rw [View.set_slice_whole, Rect.mem_set_unit]
  exact Iff.rfl

/-- Row `r` of the message array lies in the block of tile `r / 2000`. -/
theorem cover_msg (i : S500000x128.Idx) :
    ∃ t : Fin cfg0.N, (cfg0.win 6).flush t = true ∧ i ∈ ((cfg0.win 6).blk t).view.set := by
  have hi0 : (i 0).val < 500000 := (i 0).isLt
  have hi1 : (i 1).val < 128 := (i 1).isLt
  have hN : cfg0.N = 250 := N_0
  refine ⟨⟨(i 0).val / 2000, by rw [hN]; omega⟩, flush0_6 _, ?_⟩
  rw [mem_blk_msg]
  obtain ⟨-, -, -, -, -, -, -, -, -, -, -, -, e0, e1, -⟩ := idx_facts ⟨(i 0).val / 2000, by rw [hN]; omega⟩
  intro a
  match a with
  | ⟨0, _⟩ =>
    show win0_6.index _ (0 : Fin 2) * 2000 ≤ (i 0).val ∧ (i 0).val < win0_6.index _ (0 : Fin 2) * 2000 + 2000
    rw [e0]; dsimp only; omega
  | ⟨1, _⟩ =>
    show win0_6.index _ (1 : Fin 2) * 128 ≤ (i 1).val ∧ (i 1).val < win0_6.index _ (1 : Fin 2) * 128 + 128
    rw [e1]; omega

/-- The message array after the run is the message matrix. -/
theorem final_msg : (dat0 V c).arrAt 6 cfg0.N = MgArr V c :=
  (dat0 V c).arrAt_eq_of_cover 6 (MgArr V c) (fun t _ => flushed_msg V c t) cover_msg

/-! ## The statistics: row 0 of each half's block, tile after tile -/

/-- Tile `n`'s column sums of its message block, and of the squares of its entries (zero past the grid). -/
def tileSum (n : ℕ) (j : Fin 128) : EReal :=
  if h : n < cfg0.N then ∑ q : Fin 2000, tileMsg V c ⟨n, h⟩ (ix2 q j) else 0
def tileSq (n : ℕ) (j : Fin 128) : EReal :=
  if h : n < cfg0.N then ∑ q : Fin 2000, tileMsg V c ⟨n, h⟩ (ix2 q j) * tileMsg V c ⟨n, h⟩ (ix2 q j) else 0

/-- Row 0 of the two statistics staging buffers after point `n`. -/
def runSum (n : ℕ) (h : n < cfg0.N) : Fin 128 → EReal := fun j => (outsAt0 V c n h).2.1 (ix2 0 j)
def runSq (n : ℕ) (h : n < cfg0.N) : Fin 128 → EReal := fun j => (outsAt0 V c n h).2.2 (ix2 0 j)

/-- At the first tile of a half the running sums restart from zero. -/
theorem runSum_open (t : Fin cfg0.N) (h0 : t.val % 125 = 0) (j : Fin 128) :
    runSum V c t.val t.isLt j = 0 + tileSum V c t.val j := by
  unfold runSum
  rw [outsAt0_A V c t h0]
  dsimp only
  refine (sum_open (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t) j).trans ?_
  refine (colsum_apply (iblk0 V c 0 t) (iblk0 V c 1 t) (iblk0 V c 2 t) (iblk0 V c 3 t) (iblk0 V c 4 t) (iblk0 V c 5 t) (row0 (k0_pay2 (F := Ideal))) j).trans ?_
  rw [row0_apply, zero_sum_apply]
  unfold tileSum
  rw [dif_pos t.isLt]
  rfl

theorem runSq_open (t : Fin cfg0.N) (h0 : t.val % 125 = 0) (j : Fin 128) :
    runSq V c t.val t.isLt j = 0 + tileSq V c t.val j := by
  unfold runSq
  rw [outsAt0_A V c t h0]
  dsimp only
  refine (sq_open (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t) j).trans ?_
  refine (colsq_apply (k0_pay4 (F := Ideal) (iblk0 V c 3 t) (iblk0 V c 4 t) (iblk0 V c 5 t) (iblk0 V c 0 t) (iblk0 V c 1 t) (iblk0 V c 2 t)) (row0 (k0_pay3 (F := Ideal))) j).trans ?_
  rw [row0_apply, zero_sq_apply]
  unfold tileSq
  rw [dif_pos t.isLt]
  rfl

/-- At every other tile they add the tile's to what the tile before left. -/
theorem runSum_next (n : ℕ) (h : n + 1 < cfg0.N) (h0 : ¬(n + 1) % 125 = 0) (j : Fin 128) :
    runSum V c (n + 1) h j = runSum V c n (Nat.lt_of_succ_lt h) j + tileSum V c (n + 1) j := by
  unfold runSum
  rw [outsAt0_B V c ⟨n + 1, h⟩ h0]
  dsimp only
  refine (sum_next (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (fun hh => h0 ((hcond0_0 ⟨n + 1, h⟩).mp hh)) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (outsAt0 V c ((⟨n + 1, h⟩ : Fin cfg0.N).val - 1) (Nat.lt_of_le_of_lt (Nat.sub_le _ _) (⟨n + 1, h⟩ : Fin cfg0.N).isLt)).2.1 (outsAt0 V c ((⟨n + 1, h⟩ : Fin cfg0.N).val - 1) (Nat.lt_of_le_of_lt (Nat.sub_le _ _) (⟨n + 1, h⟩ : Fin cfg0.N).isLt)).2.2 j).trans ?_
  refine (colsum_apply (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (row0 (outsAt0 V c ((⟨n + 1, h⟩ : Fin cfg0.N).val - 1) (Nat.lt_of_le_of_lt (Nat.sub_le _ _) (⟨n + 1, h⟩ : Fin cfg0.N).isLt)).2.1) j).trans ?_
  rw [row0_apply]
  unfold tileSum
  rw [dif_pos h]
  rfl

theorem runSq_next (n : ℕ) (h : n + 1 < cfg0.N) (h0 : ¬(n + 1) % 125 = 0) (j : Fin 128) :
    runSq V c (n + 1) h j = runSq V c n (Nat.lt_of_succ_lt h) j + tileSq V c (n + 1) j := by
  unfold runSq
  rw [outsAt0_B V c ⟨n + 1, h⟩ h0]
  dsimp only
  refine (sq_next (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (fun hh => h0 ((hcond0_0 ⟨n + 1, h⟩).mp hh)) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (outsAt0 V c ((⟨n + 1, h⟩ : Fin cfg0.N).val - 1) (Nat.lt_of_le_of_lt (Nat.sub_le _ _) (⟨n + 1, h⟩ : Fin cfg0.N).isLt)).2.1 (outsAt0 V c ((⟨n + 1, h⟩ : Fin cfg0.N).val - 1) (Nat.lt_of_le_of_lt (Nat.sub_le _ _) (⟨n + 1, h⟩ : Fin cfg0.N).isLt)).2.2 j).trans ?_
  refine (colsq_apply (k0_pay4 (F := Ideal) (iblk0 V c 3 ⟨n + 1, h⟩) (iblk0 V c 4 ⟨n + 1, h⟩) (iblk0 V c 5 ⟨n + 1, h⟩) (iblk0 V c 0 ⟨n + 1, h⟩) (iblk0 V c 1 ⟨n + 1, h⟩) (iblk0 V c 2 ⟨n + 1, h⟩)) (row0 (outsAt0 V c ((⟨n + 1, h⟩ : Fin cfg0.N).val - 1) (Nat.lt_of_le_of_lt (Nat.sub_le _ _) (⟨n + 1, h⟩ : Fin cfg0.N).isLt)).2.2) j).trans ?_
  rw [row0_apply]
  unfold tileSq
  rw [dif_pos h]
  rfl

/-- Row 0 after point `t`: zero plus the tiles' contributions from the first tile of `t`'s half up to `t`. -/
theorem runSum_fold (t : Fin cfg0.N) (j : Fin 128) :
    runSum V c t.val t.isLt j = 0 + ∑ s ∈ Finset.range (t.val % 125 + 1), tileSum V c (125 * (t.val / 125) + s) j := by
  have h' : 125 * (t.val / 125) + t.val % 125 < cfg0.N := by rw [Nat.div_add_mod]; exact t.isLt
  rw [Pipeline.eq_accAt_of_mod (runSum V c) 125 (fun n _ j => 0 + tileSum V c n j) (fun n _ acc j => acc j + tileSum V c n j)
    (fun n h hn => funext fun j => runSum_open V c ⟨n, h⟩ hn j) (fun n h hn => funext fun j => runSum_next V c n h hn j)
    (by decide) t.val t.isLt h']
  exact Pipeline.accAt_add_apply _ _ (fun _ => 0) (tileSum V c) (125 * (t.val / 125)) 124 (fun _ _ => rfl)
    (fun _ _ _ _ _ _ => rfl) (t.val % 125) (by omega) h' j

/-- Row 0 after point `t`: zero plus the tiles' contributions from the first tile of `t`'s half up to `t`. -/
theorem runSq_fold (t : Fin cfg0.N) (j : Fin 128) :
    runSq V c t.val t.isLt j = 0 + ∑ s ∈ Finset.range (t.val % 125 + 1), tileSq V c (125 * (t.val / 125) + s) j := by
  have h' : 125 * (t.val / 125) + t.val % 125 < cfg0.N := by rw [Nat.div_add_mod]; exact t.isLt
  rw [Pipeline.eq_accAt_of_mod (runSq V c) 125 (fun n _ j => 0 + tileSq V c n j) (fun n _ acc j => acc j + tileSq V c n j)
    (fun n h hn => funext fun j => runSq_open V c ⟨n, h⟩ hn j) (fun n h hn => funext fun j => runSq_next V c n h hn j)
    (by decide) t.val t.isLt h']
  exact Pipeline.accAt_add_apply _ _ (fun _ => 0) (tileSq V c) (125 * (t.val / 125)) 124 (fun _ _ => rfl)
    (fun _ _ _ _ _ _ => rfl) (t.val % 125) (by omega) h' j

/-- An index of the array is in point `t`'s block iff each coordinate is in the block's range. -/
theorem mem_blk_sum (t : Fin cfg0.N) (i : S16x128.Idx) :
    i ∈ ((cfg0.win 7).blk t).view.set ↔ ∀ a : Fin 2, win0_7.index t a * S8x128.size a ≤ (i a).val ∧ (i a).val < win0_7.index t a * S8x128.size a + S8x128.size a := by
  show i ∈ ((View.whole main_v36_1).slice (win0_7.rect t)).set ↔ _
  rw [View.set_slice_whole, Rect.mem_set_unit]
  exact Iff.rfl

/-- The two points that write a half's block back write different blocks. -/
theorem disj_sum : ∀ t t' : Fin cfg0.N, (cfg0.win 7).flush t = true → (cfg0.win 7).flush t' = true → t ≠ t' →
    Disjoint ((cfg0.win 7).blk t).view.set ((cfg0.win 7).blk t').view.set := by
  intro t t' hf hf' hne
  rw [Finset.disjoint_left]
  intro i hi hi'
  rw [mem_blk_sum] at hi hi'
  have a : win0_7.index t (0 : Fin 2) * 8 ≤ (i 0).val ∧ (i 0).val < win0_7.index t (0 : Fin 2) * 8 + 8 := hi 0
  have b : win0_7.index t' (0 : Fin 2) * 8 ≤ (i 0).val ∧ (i 0).val < win0_7.index t' (0 : Fin 2) * 8 + 8 := hi' 0
  have e := (idx_facts t).2.2.2.2.2.2.2.2.2.2.2.2.2.2.1
  have e' := (idx_facts t').2.2.2.2.2.2.2.2.2.2.2.2.2.2.1
  have m := (flush0_7 t).mp hf
  have m' := (flush0_7 t').mp hf'
  rw [e] at a
  rw [e'] at b
  exact hne (Fin.ext (by omega))

/-- Row 0 of half `h`'s block of the final array: zero plus the half's 125 tiles' contributions. -/
theorem sum_row (h : Fin 2) (j : Fin 128) :
    ((dat0 V c).arrAt 7 cfg0.N : S16x128.Idx → EReal) (ix2 ⟨8 * h.val, by omega⟩ j)
      = 0 + ∑ s ∈ Finset.range 125, tileSum V c (125 * h.val + s) j := by
  have hN : cfg0.N = 250 := N_0
  have ht : 125 * h.val + 124 < cfg0.N := by rw [hN]; omega
  have hf : (cfg0.win 7).flush ⟨125 * h.val + 124, ht⟩ = true := (flush0_7 _).mpr (by show (125 * h.val + 124) % 125 = 124; omega)
  have key := congrFun ((dat0 V c).read_blk_arrAt_eq_flushed 7 disj_sum cfg0.N ⟨125 * h.val + 124, ht⟩ ht hf) (ix2 0 j)
  have e0 := (idx_facts ⟨125 * h.val + 124, ht⟩).2.2.2.2.2.2.2.2.2.2.2.2.2.2.1
  have e1 := (idx_facts ⟨125 * h.val + 124, ht⟩).2.2.2.2.2.2.2.2.2.2.2.2.2.2.2.1
  have hemb : ((cfg0.win 7).blk ⟨125 * h.val + 124, ht⟩).view.emb (ix2 (0 : Fin 8) j) = (ix2 ⟨8 * h.val, by omega⟩ j : S16x128.Idx) :=
    funext fun a => Fin.ext (by
      match a with
      | ⟨0, _⟩ => show win0_7.index _ (0 : Fin 2) * 8 + 1 * 0 = 8 * h.val; rw [e0]; dsimp only; omega
      | ⟨1, _⟩ => show win0_7.index _ (1 : Fin 2) * 128 + 1 * j.val = j.val; rw [e1]; omega)
  have lhs : ((cfg0.win 7).blk ⟨125 * h.val + 124, ht⟩).view.read (Elt Ideal) ((dat0 V c).arrAt 7 cfg0.N) (ix2 0 j)
      = ((dat0 V c).arrAt 7 cfg0.N : S16x128.Idx → EReal) (ix2 ⟨8 * h.val, by omega⟩ j) := by
    show ((dat0 V c).arrAt 7 cfg0.N : S16x128.Idx → EReal) (((cfg0.win 7).blk ⟨125 * h.val + 124, ht⟩).view.emb (ix2 0 j)) = _
    rw [hemb]
  rw [← lhs, key]
  show (cfg0.win 7).cut (grid0.coords ⟨125 * h.val + 124, ht⟩) ((dat0 V c).after 7 ⟨125 * h.val + 124, ht⟩) (ix2 0 j) = _
  rw [after0_7]
  have fold := runSum_fold V c ⟨125 * h.val + 124, ht⟩ j
  have m1 : (125 * h.val + 124) % 125 = 124 := by omega
  have m2 : (125 * h.val + 124) / 125 = h.val := by omega
  dsimp only at fold
  rw [m1, m2] at fold
  exact fold

/-- An index of the array is in point `t`'s block iff each coordinate is in the block's range. -/
theorem mem_blk_sq (t : Fin cfg0.N) (i : S16x128.Idx) :
    i ∈ ((cfg0.win 8).blk t).view.set ↔ ∀ a : Fin 2, win0_8.index t a * S8x128.size a ≤ (i a).val ∧ (i a).val < win0_8.index t a * S8x128.size a + S8x128.size a := by
  show i ∈ ((View.whole main_v36_2).slice (win0_8.rect t)).set ↔ _
  rw [View.set_slice_whole, Rect.mem_set_unit]
  exact Iff.rfl

/-- The two points that write a half's block back write different blocks. -/
theorem disj_sq : ∀ t t' : Fin cfg0.N, (cfg0.win 8).flush t = true → (cfg0.win 8).flush t' = true → t ≠ t' →
    Disjoint ((cfg0.win 8).blk t).view.set ((cfg0.win 8).blk t').view.set := by
  intro t t' hf hf' hne
  rw [Finset.disjoint_left]
  intro i hi hi'
  rw [mem_blk_sq] at hi hi'
  have a : win0_8.index t (0 : Fin 2) * 8 ≤ (i 0).val ∧ (i 0).val < win0_8.index t (0 : Fin 2) * 8 + 8 := hi 0
  have b : win0_8.index t' (0 : Fin 2) * 8 ≤ (i 0).val ∧ (i 0).val < win0_8.index t' (0 : Fin 2) * 8 + 8 := hi' 0
  have e := (idx_facts t).2.2.2.2.2.2.2.2.2.2.2.2.2.2.2.2.1
  have e' := (idx_facts t').2.2.2.2.2.2.2.2.2.2.2.2.2.2.2.2.1
  have m := (flush0_8 t).mp hf
  have m' := (flush0_8 t').mp hf'
  rw [e] at a
  rw [e'] at b
  exact hne (Fin.ext (by omega))

/-- Row 0 of half `h`'s block of the final array: zero plus the half's 125 tiles' contributions. -/
theorem sq_row (h : Fin 2) (j : Fin 128) :
    ((dat0 V c).arrAt 8 cfg0.N : S16x128.Idx → EReal) (ix2 ⟨8 * h.val, by omega⟩ j)
      = 0 + ∑ s ∈ Finset.range 125, tileSq V c (125 * h.val + s) j := by
  have hN : cfg0.N = 250 := N_0
  have ht : 125 * h.val + 124 < cfg0.N := by rw [hN]; omega
  have hf : (cfg0.win 8).flush ⟨125 * h.val + 124, ht⟩ = true := (flush0_8 _).mpr (by show (125 * h.val + 124) % 125 = 124; omega)
  have key := congrFun ((dat0 V c).read_blk_arrAt_eq_flushed 8 disj_sq cfg0.N ⟨125 * h.val + 124, ht⟩ ht hf) (ix2 0 j)
  have e0 := (idx_facts ⟨125 * h.val + 124, ht⟩).2.2.2.2.2.2.2.2.2.2.2.2.2.2.2.2.1
  have e1 := (idx_facts ⟨125 * h.val + 124, ht⟩).2.2.2.2.2.2.2.2.2.2.2.2.2.2.2.2.2
  have hemb : ((cfg0.win 8).blk ⟨125 * h.val + 124, ht⟩).view.emb (ix2 (0 : Fin 8) j) = (ix2 ⟨8 * h.val, by omega⟩ j : S16x128.Idx) :=
    funext fun a => Fin.ext (by
      match a with
      | ⟨0, _⟩ => show win0_8.index _ (0 : Fin 2) * 8 + 1 * 0 = 8 * h.val; rw [e0]; dsimp only; omega
      | ⟨1, _⟩ => show win0_8.index _ (1 : Fin 2) * 128 + 1 * j.val = j.val; rw [e1]; omega)
  have lhs : ((cfg0.win 8).blk ⟨125 * h.val + 124, ht⟩).view.read (Elt Ideal) ((dat0 V c).arrAt 8 cfg0.N) (ix2 0 j)
      = ((dat0 V c).arrAt 8 cfg0.N : S16x128.Idx → EReal) (ix2 ⟨8 * h.val, by omega⟩ j) := by
    show ((dat0 V c).arrAt 8 cfg0.N : S16x128.Idx → EReal) (((cfg0.win 8).blk ⟨125 * h.val + 124, ht⟩).view.emb (ix2 0 j)) = _
    rw [hemb]
  rw [← lhs, key]
  show (cfg0.win 8).cut (grid0.coords ⟨125 * h.val + 124, ht⟩) ((dat0 V c).after 8 ⟨125 * h.val + 124, ht⟩) (ix2 0 j) = _
  rw [after0_8]
  have fold := runSq_fold V c ⟨125 * h.val + 124, ht⟩ j
  have m1 : (125 * h.val + 124) % 125 = 124 := by omega
  have m2 : (125 * h.val + 124) / 125 = h.val := by omega
  dsimp only at fold
  rw [m1, m2] at fold
  exact fold

/-! ## The column totals: the two halves' rows added are the sums over all 500000 rows -/

/-- A sum over the rows of the message matrix, regrouped tile by tile, half by half. -/
theorem sum_rows_regroup (f : Fin 500000 → EReal) (g : ℕ → EReal)
    (hg : ∀ (n : ℕ) (h : n < cfg0.N), g n = ∑ q : Fin 2000, f (rowOf ⟨n, h⟩ q)) :
    (0 + ∑ s ∈ Finset.range 125, g (125 * 0 + s)) + (0 + ∑ s ∈ Finset.range 125, g (125 * 1 + s)) = ∑ r : Fin 500000, f r := by
  have hN : cfg0.N = 250 := N_0
  have e1 : ∑ r : Fin 500000, f r = ∑ t : Fin 250, ∑ q : Fin 2000, f (Cert.BlockSum.merged t q) :=
    Cert.BlockSum.sum_merged (n := 250) (d := 2000) f
  have e2 : ∀ t : Fin 250, ∑ q : Fin 2000, f (Cert.BlockSum.merged t q) = g t.val := fun t => by
    rw [hg t.val (by rw [hN]; exact t.isLt)]
    refine Finset.sum_congr rfl fun q _ => congrArg f (Fin.ext ?_)
    show q.val + 2000 * t.val = 2000 * t.val + q.val
    omega
  rw [e1, Finset.sum_congr rfl (fun t _ => e2 t), Fin.sum_univ_eq_sum_range g 250,
    show (250 : ℕ) = 125 + 125 from rfl, Finset.sum_range_add]
  simp only [zero_add, Nat.mul_zero, Nat.mul_one]

/-- The two statistics arrays after the run. -/
def sumArr : S16x128.Idx → EReal := (dat0 V c).arrAt 7 cfg0.N
def sqArr : S16x128.Idx → EReal := (dat0 V c).arrAt 8 cfg0.N

/-- Rows 0 and 8 of the final sums array add up to the column sums of the message matrix. -/
theorem sum_total (j : Fin 128) :
    sumArr V c (ix2 0 j) + sumArr V c (ix2 8 j) = ∑ r : Fin 500000, Mg V c r j := by
  have r0 := sum_row V c 0 j
  have r1 := sum_row V c 1 j
  refine Eq.trans (congrArg₂ (· + ·) r0 r1) ?_
  refine sum_rows_regroup (fun r => Mg V c r j) (fun n => tileSum V c n j) fun n h => ?_
  show tileSum V c n j = _
  unfold tileSum
  rw [dif_pos h]
  exact Finset.sum_congr rfl fun q _ => tileMsg_apply V c ⟨n, h⟩ q j

/-- Rows 0 and 8 of the final sums-of-squares array add up to the column sums of the squared messages. -/
theorem sq_total (j : Fin 128) :
    sqArr V c (ix2 0 j) + sqArr V c (ix2 8 j) = ∑ r : Fin 500000, Mg V c r j * Mg V c r j := by
  have r0 := sq_row V c 0 j
  have r1 := sq_row V c 1 j
  refine Eq.trans (congrArg₂ (· + ·) r0 r1) ?_
  refine sum_rows_regroup (fun r => Mg V c r j * Mg V c r j) (fun n => tileSq V c n j) fun n h => ?_
  show tileSq V c n j = _
  unfold tileSq
  rw [dif_pos h]
  exact Finset.sum_congr rfl fun q _ => by rw [tileMsg_apply V c ⟨n, h⟩ q j]

end Cert.KernelIdeal.Fused
end
-- ==== Proof.KernelNorm.lean ====
/-
  The second region, read as one array.

  The region walks the 500000-row message matrix in 50 blocks of 10000 rows. At each block it subtracts the
  mean row, multiplies by the reciprocal-standard-deviation row and by the scale row, adds the shift row, and
  clamps below at zero, each row being broadcast over the block's rows. Since the blocks tile the matrix and
  every one is written back, the output array ends as that one function of the five arrays the region was
  entered with, entry by entry.
-/
import proofs.«117741_j73332271612004_2_alg».proof.Proof.Gen.KernelIdeal.Frame
import Idealize.ShloMosaic.PureOps.Ideal
import Idealize.ShloMosaic.Lib.Pipeline.Value
import Idealize.ShloMosaic.Lib.ValueIdx
import Idealize.ShloMosaic.Lib.ValueLayout
import Idealize.ShloMosaic.Lib.IdealHost
import Idealize.ShloMosaic.Lib.Tactic

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

/-- The zero offset of a whole-block access, as a constant function. -/
theorem hz2 : (![0, 0] : Fin 2 → Nat) = fun _ => 0 := funext fun a => by fin_cases a <;> rfl

/-- The normalised, scaled, shifted and clamped matrix: entry `(r, j)` is
    `max ((M r j - mu j) * inv j * g j + b j) 0`, the four rows read at their one row. -/
def normOf (M : S500000x128.Idx → EReal) (mu inv g b : S1x128.Idx → EReal) : S500000x128.Idx → EReal :=
  fun i => max ((M i - mu (ix2 0 (i 1))) * inv (ix2 0 (i 1)) * g (ix2 0 (i 1)) + b (ix2 0 (i 1))) 0

/-- The second region's arithmetic at an entry `(p, q)` of a block: the block's entry less the mean row's
    entry `q`, times the three other rows' entries `q` in turn (the last one added), clamped below at zero. -/
theorem pay_apply (x0 : Vec Ideal S10000x128 .f32) (x1 x2 x3 x4 : Vec Ideal S1x128 .f32) (p : Fin 10000) (q : Fin 128) :
    k1_pay1 x0 x1 x2 x3 x4 (ix2 p q)
      = max ((x0 (ix2 p q) - x1 (ix2 0 q)) * x2 (ix2 0 q) * x3 (ix2 0 q) + x4 (ix2 0 q)) 0 := by
  unfold k1_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply,
    Ideal.ofBits_def, Ideal.ofBits_zero_f32]

/-- The printed index maps over the 50 grid points: the matrix windows (input 0, output 5) move one block of
    10000 rows per point, the four row windows stay at their only block. -/
theorem idx_facts : ∀ t : Fin cfg1.N,
    win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

variable (V : (c : Dev nD) → (b : Ref sig .tc) → Buf (Elt Ideal) ((c : Thread nD τ).loc b))

/-- The matrix window's block at point `t` is rows `10000 t … 10000 t + 9999` of the message matrix. -/
theorem iblk1_0_apply (c : Dev nD) (t : Fin cfg1.N) (x : S10000x128.Idx) (k : S500000x128.Idx)
    (hk0 : (k 0).val = 10000 * t.val + (x 0).val) (hk1 : (k 1).val = (x 1).val) :
    (iblk1 V c 0 t : Vec Ideal S10000x128 .f32) x = (V c main_v36_0 : S500000x128.Idx → EReal) k := by
  obtain ⟨e0, e1, -⟩ := idx_facts t
  unfold iblk1
  rw [View.read_apply]
  show V c main_v36_0 _ = V c main_v36_0 _
  congr 1
  funext a
  apply Fin.ext
  match a with
  | ⟨0, _⟩ => show win1_0.index t 0 * 10000 + 1 * (x 0).val = (k 0).val; rw [e0, hk0]; omega
  | ⟨1, _⟩ => show win1_0.index t 1 * 128 + 1 * (x 1).val = (k 1).val; rw [e1, hk1]; omega

/-- Each row window's block, at every point, is its whole one-row array. -/
theorem iblk1_1_apply (c : Dev nD) (t : Fin cfg1.N) (x : S1x128.Idx) :
    (iblk1 V c 1 t : Vec Ideal S1x128 .f32) x = (V c main_v44 : S1x128.Idx → EReal) x := by
  obtain ⟨-, -, -, -, e0, e1, -⟩ := idx_facts t
  unfold iblk1
  rw [View.read_apply]
  show V c main_v44 _ = V c main_v44 _
  congr 1
  funext a
  apply Fin.ext
  match a with
  | ⟨0, _⟩ => show win1_1.index t 0 * 1 + 1 * (x 0).val = (x 0).val; rw [e0]; omega
  | ⟨1, _⟩ => show win1_1.index t 1 * 128 + 1 * (x 1).val = (x 1).val; rw [e1]; omega

theorem iblk1_2_apply (c : Dev nD) (t : Fin cfg1.N) (x : S1x128.Idx) :
    (iblk1 V c 2 t : Vec Ideal S1x128 .f32) x = (V c main_v53 : S1x128.Idx → EReal) x := by
  obtain ⟨-, -, -, -, -, -, e0, e1, -⟩ := idx_facts t
  unfold iblk1
  rw [View.read_apply]
  show V c main_v53 _ = V c main_v53 _
  congr 1
  funext a
  apply Fin.ext
  match a with
  | ⟨0, _⟩ => show win1_2.index t 0 * 1 + 1 * (x 0).val = (x 0).val; rw [e0]; omega
  | ⟨1, _⟩ => show win1_2.index t 1 * 128 + 1 * (x 1).val = (x 1).val; rw [e1]; omega

theorem iblk1_3_apply (c : Dev nD) (t : Fin cfg1.N) (x : S1x128.Idx) :
    (iblk1 V c 3 t : Vec Ideal S1x128 .f32) x = (V c main_v54 : S1x128.Idx → EReal) x := by
  obtain ⟨-, -, -, -, -, -, -, -, e0, e1, -⟩ := idx_facts t
  unfold iblk1
  rw [View.read_apply]
  show V c main_v54 _ = V c main_v54 _
  congr 1
  funext a
  apply Fin.ext
  match a with
  | ⟨0, _⟩ => show win1_3.index t 0 * 1 + 1 * (x 0).val = (x 0).val; rw [e0]; omega
  | ⟨1, _⟩ => show win1_3.index t 1 * 128 + 1 * (x 1).val = (x 1).val; rw [e1]; omega

theorem iblk1_4_apply (c : Dev nD) (t : Fin cfg1.N) (x : S1x128.Idx) :
    (iblk1 V c 4 t : Vec Ideal S1x128 .f32) x = (V c main_v55 : S1x128.Idx → EReal) x := by
  obtain ⟨-, -, -, -, -, -, -, -, -, -, e0, e1⟩ := idx_facts t
  unfold iblk1
  rw [View.read_apply]
  show V c main_v55 _ = V c main_v55 _
  congr 1
  funext a
  apply Fin.ext
  match a with
  | ⟨0, _⟩ => show win1_4.index t 0 * 1 + 1 * (x 0).val = (x 0).val; rw [e0]; omega
  | ⟨1, _⟩ => show win1_4.index t 1 * 128 + 1 * (x 1).val = (x 1).val; rw [e1]; omega

/-- What point `t` writes back is block `t` of the normalised matrix built from the arrays the region finds. -/
theorem flushed5_eq (c : Dev nD) (t : Fin cfg1.N) :
    (dat1 V c).flushed 5 t = ((cfg1.win 5).blk t).view.read (Elt Ideal)
      (normOf (V c main_v36_0) (V c main_v44) (V c main_v53) (V c main_v54) (V c main_v55)) := by
  show (cfg1.win 5).cut (grid1.coords t) ((dat1 V c).after 5 t) = _
  rw [after1_5]
  unfold out1_5
  rw [View.canon_unit_zero hz2]
  simp only [View.ld_unit_zero (S := S10000x128) hz2, View.ld_unit_zero (S := S1x128) hz2]
  obtain ⟨-, -, e0, e1, -⟩ := idx_facts t
  funext j
  obtain ⟨p, q, rfl⟩ : ∃ (p : Fin 10000) (q : Fin 128), j = ix2 p q := ⟨j 0, j 1, eq_ix2 j⟩
  show k1_pay1 (iblk1 V c 0 t) (iblk1 V c 1 t) (iblk1 V c 2 t) (iblk1 V c 3 t) (iblk1 V c 4 t) (ix2 p q)
    = normOf (V c main_v36_0) (V c main_v44) (V c main_v53) (V c main_v54) (V c main_v55) (((cfg1.win 5).blk t).view.emb (ix2 p q))
  refine (pay_apply _ _ _ _ _ p q).trans ?_
  have hq : (((cfg1.win 5).blk t).view.emb (ix2 p q)) 1 = q := by
    apply Fin.ext
    show win1_5.index t 1 * 128 + 1 * q.val = q.val
    rw [e1]; omega
  unfold normOf
  rw [hq, iblk1_1_apply V c t, iblk1_2_apply V c t, iblk1_3_apply V c t, iblk1_4_apply V c t,
    iblk1_0_apply V c t (ix2 p q) (((cfg1.win 5).blk t).view.emb (ix2 p q))
      (by show win1_5.index t 0 * 10000 + 1 * p.val = 10000 * t.val + p.val; rw [e0]; omega)
      (by show win1_5.index t 1 * 128 + 1 * q.val = q.val; rw [e1]; omega)]

/-- An index of the matrix is in point `t`'s block iff each coordinate is in the block's range on its axis. -/
theorem mem_blk5 (t : Fin cfg1.N) (i : S500000x128.Idx) :
    i ∈ ((cfg1.win 5).blk t).view.set ↔ ∀ a : Fin 2, win1_5.index t a * S10000x128.size a ≤ (i a).val
      ∧ (i a).val < win1_5.index t a * S10000x128.size a + S10000x128.size a := by
  show i ∈ ((View.whole main_v56).slice (win1_5.rect t)).set ↔ _
  rw [View.set_slice_whole, Rect.mem_set_unit]
  exact Iff.rfl

/-- Row `r` of the matrix lies in the block of point `r / 10000`, which writes back. -/
theorem cover5 (i : S500000x128.Idx) :
    ∃ t : Fin cfg1.N, (cfg1.win 5).flush t = true ∧ i ∈ ((cfg1.win 5).blk t).view.set := by
  have hi0 : (i 0).val < 500000 := (i 0).isLt
  have hi1 : (i 1).val < 128 := (i 1).isLt
  have hN : cfg1.N = 50 := N_1
  refine ⟨⟨(i 0).val / 10000, by rw [hN]; omega⟩, flush1_5 _, ?_⟩
  rw [mem_blk5]
  obtain ⟨-, -, e0, e1, -⟩ := idx_facts ⟨(i 0).val / 10000, by rw [hN]; omega⟩
  intro a
  match a with
  | ⟨0, _⟩ =>
    show win1_5.index _ (0 : Fin 2) * 10000 ≤ (i 0).val ∧ (i 0).val < win1_5.index _ (0 : Fin 2) * 10000 + 10000
    rw [e0]; show (i 0).val / 10000 * 10000 ≤ (i 0).val ∧ (i 0).val < (i 0).val / 10000 * 10000 + 10000; omega
  | ⟨1, _⟩ =>
    show win1_5.index _ (1 : Fin 2) * 128 ≤ (i 1).val ∧ (i 1).val < win1_5.index _ (1 : Fin 2) * 128 + 128
    rw [e1]; omega

/-- The second region leaves its output array at the normalised matrix of the arrays it was entered with. -/
theorem norm_final (c : Dev nD) : (dat1 V c).arrAt 5 cfg1.N
    = normOf (V c main_v36_0) (V c main_v44) (V c main_v53) (V c main_v54) (V c main_v55) :=
  (dat1 V c).arrAt_eq_of_cover 5 _ (fun t _ => flushed5_eq V c t) cover5

end Cert.KernelIdeal.KValue

end
-- ==== Proof.Spec.lean ====
/-
  The mathematics of this certificate, with no program in sight.

  A message matrix `M` of 500000 rows and 128 columns is built row by row from three projections: row `r` is
  `A[g0 r] · W6ᵀ + B[r] · W7ᵀ + Y[g1 r] · W8ᵀ`, where `A`, `Y` have 50000 rows and `g0`, `g1` select a row of them for
  each message. Each column of `M` is then normalised by its mean and its (biased) variance, scaled, shifted and
  clamped below at zero. The two programs differ only in how they obtain the variance of a column: one as the
  mean of the squares minus the square of the mean, clamped at zero; the other as the mean of the squared
  deviations. On finite entries the two agree.
-/
import Idealize.ShloMosaic.PureOps.Ideal
import Idealize.ShloMosaic.Lib.ValueIdx

noncomputable section

namespace Cert.MsgNorm

open Idealize.ShloMosaic Idealize.ShloMosaic.ValueIdx

/-- The message matrix's shape, the node tables' shape, a weight's shape. -/
abbrev Rows : Shape := ⟨2, ![500000, 128]⟩
abbrev Nodes : Shape := ⟨2, ![50000, 128]⟩
abbrev Sq : Shape := ⟨2, ![128, 128]⟩

/-- The number of message rows and the variance guard, as the words both programs print. -/
def nRows : EReal := Ideal.ofBits .f32 0x48F42400#32
def eps : EReal := Ideal.ofBits .f32 0x3727C5AC#32

/-- Entry `(r, j)` of the message matrix: three dot products against row `j` of each weight, added left to right. -/
def msg (A : Nodes.Idx → EReal) (B : Rows.Idx → EReal) (Y : Nodes.Idx → EReal) (g0 g1 : Fin 500000 → Fin 50000)
    (W6 W7 W8 : Sq.Idx → EReal) (r : Fin 500000) (j : Fin 128) : EReal :=
  (∑ k : Fin 128, A (ix2 (g0 r) k) * W6 (ix2 j k) + ∑ k : Fin 128, B (ix2 r k) * W7 (ix2 j k))
    + ∑ k : Fin 128, Y (ix2 (g1 r) k) * W8 (ix2 j k)

/-- The sum of column `j`. -/
def colSum (M : Fin 500000 → Fin 128 → EReal) (j : Fin 128) : EReal := ∑ r : Fin 500000, M r j

/-- The mean of column `j`. -/
def mean (M : Fin 500000 → Fin 128 → EReal) (j : Fin 128) : EReal := Ideal.div (colSum M j) nRows

/-- The variance of column `j` in one pass: the mean of the squares minus the square of the mean, clamped at zero. -/
def varOnePass (M : Fin 500000 → Fin 128 → EReal) (j : Fin 128) : EReal :=
  max (Ideal.div (colSum (fun r j => M r j * M r j) j) nRows - mean M j * mean M j) 0

/-- The variance of column `j` in two passes: the mean of the squared deviations from the mean. -/
def varTwoPass (M : Fin 500000 → Fin 128 → EReal) (j : Fin 128) : EReal :=
  Ideal.div (colSum (fun r j => (M r j - mean M j) * (M r j - mean M j)) j) nRows

/-- The reciprocal standard deviation of a column from its variance `v j`. -/
def invStd (v : Fin 128 → EReal) (j : Fin 128) : EReal := Ideal.rsqrt (v j + eps)

/-- Entry `(r, j)` normalised with the column's mean and the variance `v`, scaled by `g`, shifted by `b`, clamped at zero. -/
def normRelu (M : Fin 500000 → Fin 128 → EReal) (v g b : Fin 128 → EReal) (r : Fin 500000) (j : Fin 128) : EReal :=
  max ((M r j - mean M j) * invStd v j * g j + b j) 0

/-- A matrix given by its entries, as a function of the two-coordinate index. -/
def ofEntries (f : Fin 500000 → Fin 128 → EReal) : Rows.Idx → EReal := fun i => f (i 0) (i 1)

theorem ofEntries_ix2 (f : Fin 500000 → Fin 128 → EReal) (r : Fin 500000) (j : Fin 128) :
    ofEntries f (ix2 r j) = f r j := rfl

/-- A length-128 vector's entries by position. -/
def ofVec (a : (⟨1, ![128]⟩ : Shape).Idx → EReal) (j : Fin 128) : EReal := a (ix1 j)

end Cert.MsgNorm

end
-- ==== Proof.KernelTail.lean ====
/-
  From the first region's exit to the result.

  Between the two regions the host turns the two 16-row arrays of partial column sums (rows 0 and 8 hold the
  two halves of each column's sum, and of each column's sum of squares) into a mean row and a
  reciprocal-standard-deviation row: the halves added and divided by the number of rows; the mean of the
  squares less the square of the mean, clamped at zero, the guard added, the reciprocal square root taken.
  The scale and shift vectors are re-laid as one-row matrices. The second region then normalises the message
  matrix with those four rows, and the host adds the rows of the normalised matrix onto a zero array at the
  targets listed in the index array. Here each of these stages is read at an entry and the stages are
  composed: the result buffer is one function of what the first region leaves and of the launched arrays.
-/
import proofs.«117741_j73332271612004_2_alg».proof.Proof.KernelNorm
import proofs.«117741_j73332271612004_2_alg».proof.Proof.Spec

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

/-- The mean row the host computes between the regions: rows 0 and 8 of a 16-row array of partial column
    sums added, divided by the number of message rows. -/
def meanRow (X : S16x128.Idx → EReal) : S1x128.Idx → EReal :=
  Host.divf (F := Ideal)
    (addf (extractStridedSlice S1x128 ![0, 0] X slices_S16x128_S1x128_0_0)
      (extractStridedSlice S1x128 ![8, 0] X slices_S16x128_S1x128_8_0))
    (broadcastInDim S1x128 ![] bcast_S_S1x128 (constant (F := Ideal) S_ .f32 0x48F42400#32))

theorem meanRow_apply (X : S16x128.Idx → EReal) (q : Fin 128) :
    meanRow X (ix2 0 q) = Ideal.div (X (ix2 0 q) + X (ix2 8 q)) Cert.MsgNorm.nRows := by
  unfold meanRow
  rw [hostDivf_apply, addf_apply, slice2_axis0_apply 0 X _ 0 q 0 rfl, slice2_axis0_apply 8 X _ 0 q 8 rfl,
    broadcastInDim_scalar_apply, constant_apply]
  rfl

/-- The reciprocal-standard-deviation row: the mean of the squares less the square of the mean, clamped at
    zero, the guard added, and the reciprocal square root taken. -/
def invRow (X Y : S16x128.Idx → EReal) : S1x128.Idx → EReal :=
  Host.rsqrt (F := Ideal)
    (addf
      (maximumf
        (subf (meanRow Y) (mulf (meanRow X) (meanRow X)))
        (broadcastInDim S1x128 ![] bcast_S_S1x128 (constant (F := Ideal) S_ .f32 0x00000000#32)))
      (broadcastInDim S1x128 ![] bcast_S_S1x128 (constant (F := Ideal) S_ .f32 0x3727C5AC#32)))

theorem invRow_apply (X Y : S16x128.Idx → EReal) (q : Fin 128) :
    invRow X Y (ix2 0 q) = Ideal.rsqrt (max (Ideal.div (Y (ix2 0 q) + Y (ix2 8 q)) Cert.MsgNorm.nRows
      - Ideal.div (X (ix2 0 q) + X (ix2 8 q)) Cert.MsgNorm.nRows * Ideal.div (X (ix2 0 q) + X (ix2 8 q)) Cert.MsgNorm.nRows) 0
      + Cert.MsgNorm.eps) := by
  unfold invRow
  show Ideal.rsqrt (max (meanRow Y (ix2 0 q) - meanRow X (ix2 0 q) * meanRow X (ix2 0 q))
      (broadcastInDim S1x128 ![] bcast_S_S1x128 (constant (F := Ideal) S_ .f32 0x00000000#32) (ix2 0 q))
    + broadcastInDim S1x128 ![] bcast_S_S1x128 (constant (F := Ideal) S_ .f32 0x3727C5AC#32) (ix2 0 q)) = _
  rw [meanRow_apply, meanRow_apply, broadcastInDim_scalar_apply, broadcastInDim_scalar_apply, constant_apply, constant_apply,
    Ideal.ofBits_zero_f32]
  rfl

variable (m : (ℓ : Loc nD τ sig) → Buf (Elt Ideal) ℓ) (ρ : Dev nD → PrngReg)

theorem V3_v44 (c : Dev nD) :
    (V3 m ρ c main_v44 : S1x128.Idx → EReal) = meanRow (W2 m ρ c (Proc.devRef .tc main_v36_1)) := by
  show StableHlo.after hostOps1 (W2 m ρ c) (Proc.devRef .tc main_v44) = _
  after_results
  rfl

theorem V3_v53 (c : Dev nD) :
    (V3 m ρ c main_v53 : S1x128.Idx → EReal)
      = invRow (W2 m ρ c (Proc.devRef .tc main_v36_1)) (W2 m ρ c (Proc.devRef .tc main_v36_2)) := by
  show StableHlo.after hostOps1 (W2 m ρ c) (Proc.devRef .tc main_v53) = _
  after_results
  rfl

theorem V3_v36_0 (c : Dev nD) :
    (V3 m ρ c main_v36_0 : S500000x128.Idx → EReal) = W2 m ρ c (Proc.devRef .tc main_v36_0) := by
  show StableHlo.after hostOps1 (W2 m ρ c) (Proc.devRef .tc main_v36_0) = _
  after_results

theorem V3_v54 (c : Dev nD) :
    (V3 m ρ c main_v54 : S1x128.Idx → EReal)
      = shapeCast S1x128 (W2 m ρ c (Proc.devRef .tc main_arg9)) shapeCasts_S128_S1x128 := by
  show StableHlo.after hostOps1 (W2 m ρ c) (Proc.devRef .tc main_v54) = _
  after_results
  rfl

theorem V3_v55 (c : Dev nD) :
    (V3 m ρ c main_v55 : S1x128.Idx → EReal)
      = shapeCast S1x128 (W2 m ρ c (Proc.devRef .tc main_arg10)) shapeCasts_S128_S1x128 := by
  show StableHlo.after hostOps1 (W2 m ρ c) (Proc.devRef .tc main_v55) = _
  after_results
  rfl

/-- No host operation before the first region and no window of it writes an argument array, so the
    contents at the first region's exit are the launch contents. -/
theorem W2_main_arg9 (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem W2_main_arg10 (c : Dev nD) : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

/-- The index array is still the launched one when the second region exits. -/
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- The host operations after the second region: the rows of `N` added onto a zero 50000-row array at the
    targets listed in row 1 of the index array. -/
def tail (a5 : S2x500000.Idx → BitVec 32) (N : S500000x128.Idx → EReal) : S50000x128.Idx → EReal :=
  Host.scatterAdd (F := Ideal) scatter_S50000x128_S500000x1_S500000x128_1_0_0_1
    (broadcastInDim S50000x128 ![] bcast_S_S50000x128 (constant (F := Ideal) S_ .f32 0x00000000#32))
    (broadcastInDim S500000x1 ![0] bcast_S500000_S500000x1_0
      (shapeCast S500000 (extractStridedSlice S1x500000 ![1, 0] a5 slices_S2x500000_S1x500000_1_0) shapeCasts_S1x500000_S500000))
    N

/-- The result buffer after the last stretch of host operations is `tail` of what the second region leaves. -/
theorem W5_tail (c : Dev nD) :
    (W5 m ρ c (Proc.devRef .tc main_v61) : S50000x128.Idx → EReal)
      = tail (W4 m ρ c (Proc.devRef .tc main_arg5)) (W4 m ρ c (Proc.devRef .tc main_v56)) := by
  show StableHlo.after hostOps2 (W4 m ρ c) (Proc.devRef .tc main_v61) = _
  after_results
  rfl

/-- The mean of column `j` from the 16-row array of partial column sums (rows 0 and 8 hold the two halves). -/
def rowMean (Ssum : S16x128.Idx → EReal) (j : Fin 128) : EReal :=
  Ideal.div (Ssum (ix2 0 j) + Ssum (ix2 8 j)) Cert.MsgNorm.nRows

/-- The reciprocal standard deviation of column `j` from the partial sums and partial sums of squares:
    one-pass variance clamped at zero, the guard added. -/
def rowInv (Ssum Ssq : S16x128.Idx → EReal) (j : Fin 128) : EReal :=
  Ideal.rsqrt (max (Ideal.div (Ssq (ix2 0 j) + Ssq (ix2 8 j)) Cert.MsgNorm.nRows - rowMean Ssum j * rowMean Ssum j) 0
    + Cert.MsgNorm.eps)

/-- THE RESULT as a function of what the first region leaves (the message matrix and the two 16-row arrays of
    partial column sums) and of the launched index, scale and shift arrays. -/
theorem W5_result (c : Dev nD) (Mm : S500000x128.Idx → EReal) (Ssum Ssq : S16x128.Idx → EReal)
    (h6 : (dat0 (V1 m ρ) c).arrAt 6 cfg0.N = Mm) (h7 : (dat0 (V1 m ρ) c).arrAt 7 cfg0.N = Ssum)
    (h8 : (dat0 (V1 m ρ) c).arrAt 8 cfg0.N = Ssq) :
    (W5 m ρ c (Proc.devRef .tc main_v61) : S50000x128.Idx → EReal)
      = tail (m ((c : Thread nD τ).loc main_arg5)) (Cert.MsgNorm.ofEntries fun r j =>
          max ((Mm (ix2 r j) - rowMean Ssum j) * rowInv Ssum Ssq j
              * (m ((c : Thread nD τ).loc main_arg9) : S128.Idx → EReal) (ix1 j)
            + (m ((c : Thread nD τ).loc main_arg10) : S128.Idx → EReal) (ix1 j)) 0) := by
  have e6 : W2 m ρ c (Proc.devRef .tc main_v36_0) = Mm := (W2_arr m ρ c 6).trans h6
  have e7 : W2 m ρ c (Proc.devRef .tc main_v36_1) = Ssum := (W2_arr m ρ c 7).trans h7
  have e8 : W2 m ρ c (Proc.devRef .tc main_v36_2) = Ssq := (W2_arr m ρ c 8).trans h8
  rw [W5_tail, W4_main_arg5]
  refine congrArg (tail (m ((c : Thread nD τ).loc main_arg5))) ?_
  refine ((W4_arr m ρ c 5).trans (norm_final (V3 m ρ) c)).trans ?_
  rw [V3_v36_0, V3_v44, V3_v53, V3_v54, V3_v55, e6, e7, e8, W2_main_arg9, W2_main_arg10]
  funext i
  obtain ⟨r, j, rfl⟩ : ∃ (r : Fin 500000) (j : Fin 128), i = ix2 r j := ⟨i 0, i 1, eq_ix2 i⟩
  show max ((Mm (ix2 r j) - meanRow Ssum (ix2 0 j)) * invRow Ssum Ssq (ix2 0 j)
        * shapeCast S1x128 (m ((c : Thread nD τ).loc main_arg9)) shapeCasts_S128_S1x128 (ix2 0 j)
        + shapeCast S1x128 (m ((c : Thread nD τ).loc main_arg10)) shapeCasts_S128_S1x128 (ix2 0 j)) 0
      = max ((Mm (ix2 r j) - rowMean Ssum j) * rowInv Ssum Ssq j
          * (m ((c : Thread nD τ).loc main_arg9) : S128.Idx → EReal) (ix1 j)
        + (m ((c : Thread nD τ).loc main_arg10) : S128.Idx → EReal) (ix1 j)) 0
  rw [meanRow_apply, invRow_apply, shapeCast_a_1a_apply, shapeCast_a_1a_apply]
  rfl

end Cert.KernelIdeal.KValue

end
-- ==== Proof.KernelValue.lean ====
/-
  The idealized kernel's result as the specification's function of the region's message matrix.

  The host reads rows 0 and 8 of the two statistics arrays, adds them, and divides by the number of rows: that is the
  mean of each column of the message matrix and the mean of its squares, so what it feeds the normalising kernel is the
  column's mean and the reciprocal square root of its one-pass variance plus the guard.
-/
import proofs.«117741_j73332271612004_2_alg».proof.Proof.FusedArrays
import proofs.«117741_j73332271612004_2_alg».proof.Proof.KernelTail
import proofs.«117741_j73332271612004_2_alg».proof.Proof.Spec

set_option maxRecDepth 16384

noncomputable section
open Idealize.ShloMosaic Idealize.ShloMosaic.TcCoe Idealize.SL.Sem Idealize.ShloMosaic.ValueIdx
namespace Cert.KernelIdeal.KValue
open Cert.KernelIdeal Cert.KernelIdeal.Gen Cert.KernelIdeal.Fused Cert.MsgNorm

variable (m : (ℓ : Loc nD τ sig) → Buf (Elt Ideal) ℓ) (ρ : Dev nD → PrngReg)

/-- The two halves' sums added and divided by the row count are the column's mean. -/
theorem rowMean_eq (c : Dev nD) (j : Fin 128) :
    rowMean (sumArr (V1 m ρ) c) j = mean (Mg (V1 m ρ) c) j := by
  unfold rowMean mean colSum
  rw [sum_total]

/-- The host's clamp of the mean of the squares minus the squared mean is the column's one-pass variance. -/
theorem rowInv_eq (c : Dev nD) (j : Fin 128) :
    rowInv (sumArr (V1 m ρ) c) (sqArr (V1 m ρ) c) j = invStd (varOnePass (Mg (V1 m ρ) c)) j := by
  unfold rowInv invStd varOnePass
  rw [rowMean_eq]
  unfold colSum
  rw [sq_total]

/-- The result buffer after the run, as the specification's normalised and clamped message matrix, scattered. -/
theorem kernel_value (c : Dev nD) :
    (W5 m ρ c (Proc.devRef .tc main_v61) : S50000x128.Idx → EReal)
      = tail (m ((c : Thread nD τ).loc main_arg5))
          (ofEntries (normRelu (Mg (V1 m ρ) c) (varOnePass (Mg (V1 m ρ) c))
            (ofVec (m ((c : Thread nD τ).loc main_arg9))) (ofVec (m ((c : Thread nD τ).loc main_arg10))))) := by
  rw [W5_result m ρ c (MgArr (V1 m ρ) c) (sumArr (V1 m ρ) c) (sqArr (V1 m ρ) c) (final_msg (V1 m ρ) c) rfl rfl]
  refine congrArg (tail _) (congrArg ofEntries (funext fun r => funext fun j => ?_))
  unfold normRelu
  rw [rowMean_eq, rowInv_eq]
  rfl

end Cert.KernelIdeal.KValue
end
-- ==== Proof.LibGatherRows.lean ====
/-
  A gather of whole rows, read at an entry.

  `stablehlo.gather` with one start index per result row, the row axis collapsed and the column axis kept whole,
  copies rows of an N×C table: row `r` of the result is the table's row whose number is the start index `idx[r, 0]`,
  read as a signed integer and clamped into `[0, N − 1]` (a gather clamps every start index so that its slice fits).
-/
import Idealize.ShloMosaic.Lib.ValueIdx

noncomputable section

namespace Cert.GatherRows

open Idealize.ShloMosaic Idealize.ShloMosaic.ValueIdx

variable {α : Type}

/-- The dimension numbers of a gather of whole rows of an N×C table, one start index per result row. -/
def rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row that result row `r` copies: its start index read signed and clamped into `[0, N − 1]`. -/
def clampRow (N : Nat) (hN : 0 < N) {R w : Nat} (idx : IVec ⟨2, ![R, 1]⟩ w) (r : Fin R) : Fin N :=
  ⟨min (idx (ix2 r (0 : Fin 1))).toInt.toNat (N - 1), by omega⟩

/-- The row coordinate a gather of rows reads: the clamped start index (no batching, the row axis collapsed). -/
theorem operandIdx_row {N R C w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (k : Fin C) :
    ((rowDims N R C wf).operandIdx (ix2 r k) idx (0 : Fin 2)).val = (clampRow N hN idx r).val := by
  show (rowDims N R C wf).start (ix2 r k) idx 0 + (rowDims N R C wf).batchCoord (ix2 r k) 0
    + (rowDims N R C wf).offCoord (ix2 r k) 0 = _
  rw [GatherDims.batchCoord_eq_zero _ _ _ List.not_mem_nil,
    GatherDims.offCoord_eq_zero _ _ _
      (fun h => ((GatherDims.mem_sKept _ _).mp h).1 (List.mem_singleton.mpr rfl))]
  simp only [Nat.add_zero]
  unfold GatherDims.start
  rw [dif_pos (show (0 : Fin 2) ∈ (rowDims N R C wf).startIndexMap from List.mem_singleton.mpr rfl)]
  have hsi : (rowDims N R C wf).siIdx (ix2 r k) ⟨List.idxOf (0 : Fin 2) (rowDims N R C wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- The column coordinate a gather of rows reads: the result's own column (no start index on that axis). -/
theorem operandIdx_col {N R C w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (k : Fin C) :
    ((rowDims N R C wf).operandIdx (ix2 r k) idx (1 : Fin 2)).val = k.val := by
  show (rowDims N R C wf).start (ix2 r k) idx 1 + (rowDims N R C wf).batchCoord (ix2 r k) 1
    + (rowDims N R C wf).offCoord (ix2 r k) 1 = _
  rw [GatherDims.batchCoord_eq_zero _ _ _ List.not_mem_nil]
  unfold GatherDims.start
  rw [dif_neg (show (1 : Fin 2) ∉ (rowDims N R C wf).startIndexMap from
    fun h => Nat.one_ne_zero (congrArg Fin.val (List.mem_singleton.mp h)))]
  simp only [Nat.add_zero, Nat.zero_add]
  unfold GatherDims.offCoord
  rw [dif_pos (show (1 : Fin 2) ∈ (rowDims N R C wf).sKept from
    (GatherDims.mem_sKept _ _).mpr ⟨fun h => Nat.one_ne_zero (congrArg Fin.val (List.mem_singleton.mp h)), List.not_mem_nil⟩)]
  rfl

/-- Entry `(r, k)` of a gather of rows is entry `k` of the table's row `clampRow idx r`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (rowDims N R C wf) x idx (ix2 r k) = x (ix2 (clampRow N hN idx r) k) := by
  unfold Host.gather
  congr 1
  funext a
  refine Fin.ext ?_
  match a with
  | ⟨0, _⟩ => exact operandIdx_row hN wf idx r k
  | ⟨1, _⟩ => exact operandIdx_col wf idx r k

end Cert.GatherRows

end
-- ==== Proof.KernelGather.lean ====
/-
  The host operations before the first region, read as the six arrays that region is entered with.

  Two node tables are prepared: the per-node sums of the rows of the first input (a scatter-add onto zeros), and
  the second input as launched; a third table holds per-message sums of selected rows of the first input. Start
  indices for the two node tables come from the two rows of an index array, a negative index counted from the
  end. The region's first and third inputs are gathers of whole rows of the two node tables at those indices,
  its second input is the per-message table, each after a change of float format that is the identity on
  extended reals; the three weight matrices are untouched. Hence entry (r, j) of the message matrix the region
  computes from them is the specification's entry, with the gathers' clamped start indices as row selectors.
-/
import proofs.«117741_j73332271612004_2_alg».proof.Proof.Gen.KernelIdeal.Frame
import proofs.«117741_j73332271612004_2_alg».proof.Proof.LibGatherRows
import proofs.«117741_j73332271612004_2_alg».proof.Proof.Spec
import proofs.«117741_j73332271612004_2_alg».proof.Proof.FusedArrays
import Idealize.ShloMosaic.PureOps.Ideal
import Idealize.ShloMosaic.Lib.Pipeline.Value
import Idealize.ShloMosaic.Lib.ValueIdx
import Idealize.ShloMosaic.Lib.Tactic

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx
open Cert.GatherRows

/-- The per-node sums: the rows of `a0` added onto a zero 50000-row array at the targets `a2` lists. -/
def segA (a0 : S250000x128.Idx → EReal) (a2 : S250000.Idx → BitVec 32) : S50000x128.Idx → EReal :=
  Host.scatterAdd (F := Ideal) scatter_S50000x128_S250000x1_S250000x128_1_0_0_1
    (broadcastInDim S50000x128 ![] bcast_S_S50000x128 (constant (F := Ideal) S_ .f32 0x00000000#32))
    (broadcastInDim S250000x1 ![0] bcast_S250000_S250000x1_0 a2) a0

/-- The rows of `a0` selected by row 0 of `a3`, a negative index counted from the end. -/
def gathX (a0 : S250000x128.Idx → EReal) (a3 : S2x1000000.Idx → BitVec 32) : S1000000x128.Idx → EReal :=
  Host.gather gather_S250000x128_S1000000x1_S1000000x128_1_0_n_n_0_1_1128 a0
    (broadcastInDim S1000000x1 ![0] bcast_S1000000_S1000000x1_0
      (select
        (cmpi .slt (shapeCast S1000000 (extractStridedSlice S1x1000000 ![0, 0] a3 slices_S2x1000000_S1x1000000_0_0) shapeCasts_S1x1000000_S1000000)
          (broadcastInDim S1000000 ![] bcast_S_S1000000 (constantI S_ 32 0#32)))
        (addi (shapeCast S1000000 (extractStridedSlice S1x1000000 ![0, 0] a3 slices_S2x1000000_S1x1000000_0_0) shapeCasts_S1x1000000_S1000000)
          (broadcastInDim S1000000 ![] bcast_S_S1000000 (constantI S_ 32 250000#32)))
        (shapeCast S1000000 (extractStridedSlice S1x1000000 ![0, 0] a3 slices_S2x1000000_S1x1000000_0_0) shapeCasts_S1x1000000_S1000000)))

/-- The per-message sums: the selected rows added onto a zero 500000-row array at the targets `a4` lists. -/
def segB (a0 : S250000x128.Idx → EReal) (a3 : S2x1000000.Idx → BitVec 32) (a4 : S1000000.Idx → BitVec 32) :
    S500000x128.Idx → EReal :=
  Host.scatterAdd (F := Ideal) scatter_S500000x128_S1000000x1_S1000000x128_1_0_0_1
    (broadcastInDim S500000x128 ![] bcast_S_S500000x128 (constant (F := Ideal) S_ .f32 0x00000000#32))
    (broadcastInDim S1000000x1 ![0] bcast_S1000000_S1000000x1_0 a4) (gathX a0 a3)

/-- The start indices from row 0 of `a5`, a negative index counted from the end, as a one-column matrix. -/
def idx0 (a5 : S2x500000.Idx → BitVec 32) : S500000x1.Idx → BitVec 32 :=
  broadcastInDim S500000x1 ![0] bcast_S500000_S500000x1_0
    (select
      (cmpi .slt (shapeCast S500000 (extractStridedSlice S1x500000 ![0, 0] a5 slices_S2x500000_S1x500000_0_0) shapeCasts_S1x500000_S500000)
        (broadcastInDim S500000 ![] bcast_S_S500000 (constantI S_ 32 0#32)))
      (addi (shapeCast S500000 (extractStridedSlice S1x500000 ![0, 0] a5 slices_S2x500000_S1x500000_0_0) shapeCasts_S1x500000_S500000)
        (broadcastInDim S500000 ![] bcast_S_S500000 (constantI S_ 32 50000#32)))
      (shapeCast S500000 (extractStridedSlice S1x500000 ![0, 0] a5 slices_S2x500000_S1x500000_0_0) shapeCasts_S1x500000_S500000))

/-- The start indices from row 1 of `a5`, likewise. -/
def idx1 (a5 : S2x500000.Idx → BitVec 32) : S500000x1.Idx → BitVec 32 :=
  broadcastInDim S500000x1 ![0] bcast_S500000_S500000x1_0
    (select
      (cmpi .slt (shapeCast S500000 (extractStridedSlice S1x500000 ![1, 0] a5 slices_S2x500000_S1x500000_1_0) shapeCasts_S1x500000_S500000)
        (broadcastInDim S500000 ![] bcast_S_S500000 (constantI S_ 32 0#32)))
      (addi (shapeCast S500000 (extractStridedSlice S1x500000 ![1, 0] a5 slices_S2x500000_S1x500000_1_0) shapeCasts_S1x500000_S500000)
        (broadcastInDim S500000 ![] bcast_S_S500000 (constantI S_ 32 50000#32)))
      (shapeCast S500000 (extractStridedSlice S1x500000 ![1, 0] a5 slices_S2x500000_S1x500000_1_0) shapeCasts_S1x500000_S500000))

variable (m : (ℓ : Loc nD τ sig) → Buf (Elt Ideal) ℓ) (ρ : Dev nD → PrngReg)

theorem V1_v24 (c : Dev nD) :
    (V1 m ρ c main_v24 : S500000x128.Idx → EReal)
      = Host.gather gather_S50000x128_S500000x1_S500000x128_1_0_n_n_0_1_1128
          (truncf (F := Ideal) .bf16 (segA (m ((c : Thread nD τ).loc main_arg0)) (m ((c : Thread nD τ).loc main_arg2))) bitsLt_bf16_f32)
          (idx0 (m ((c : Thread nD τ).loc main_arg5))) := by
  show StableHlo.after hostOps0 (W0 m ρ c) (Proc.devRef .tc main_v24) = _
  after_results_simp
  rfl

theorem V1_v25 (c : Dev nD) :
    (V1 m ρ c main_v25 : S500000x128.Idx → EReal)
      = truncf (F := Ideal) .bf16 (segB (m ((c : Thread nD τ).loc main_arg0)) (m ((c : Thread nD τ).loc main_arg3)) (m ((c : Thread nD τ).loc main_arg4))) bitsLt_bf16_f32 := by
  show StableHlo.after hostOps0 (W0 m ρ c) (Proc.devRef .tc main_v25) = _
  after_results_simp
  rfl

theorem V1_v35 (c : Dev nD) :
    (V1 m ρ c main_v35 : S500000x128.Idx → EReal)
      = Host.gather gather_S50000x128_S500000x1_S500000x128_1_0_n_n_0_1_1128
          (truncf (F := Ideal) .bf16 (m ((c : Thread nD τ).loc main_arg1)) bitsLt_bf16_f32) (idx1 (m ((c : Thread nD τ).loc main_arg5))) := by
  show StableHlo.after hostOps0 (W0 m ρ c) (Proc.devRef .tc main_v35) = _
  after_results_simp
  rfl

/-- The three weight matrices are still the launched ones when the first region is entered. -/
theorem V1_arg6 (c : Dev nD) : (V1 m ρ c main_arg6 : S128x128.Idx → EReal) = m ((c : Thread nD τ).loc main_arg6) := by
  show StableHlo.after hostOps0 (W0 m ρ c) (Proc.devRef .tc main_arg6) = _
  after_results_simp <;> rfl

theorem V1_arg7 (c : Dev nD) : (V1 m ρ c main_arg7 : S128x128.Idx → EReal) = m ((c : Thread nD τ).loc main_arg7) := by
  show StableHlo.after hostOps0 (W0 m ρ c) (Proc.devRef .tc main_arg7) = _
  after_results_simp <;> rfl

theorem V1_arg8 (c : Dev nD) : (V1 m ρ c main_arg8 : S128x128.Idx → EReal) = m ((c : Thread nD τ).loc main_arg8) := by
  show StableHlo.after hostOps0 (W0 m ρ c) (Proc.devRef .tc main_arg8) = _
  after_results_simp <;> rfl

/-- The printed gather of rows is the gather of whole rows of a 50000-row table, one start index per row. -/
theorem gather_eq_rowDims : gather_S50000x128_S500000x1_S500000x128_1_0_n_n_0_1_1128
    = rowDims 50000 500000 128 Facts₀.gather_S50000x128_S500000x1_S500000x128_1_0_n_n_0_1_1128_wf := rfl

/-- Entry `(r, j)` of the message matrix the first region computes from its six input arrays is the
    specification's entry: the gathers select rows `g0 r` and `g1 r` of the two node tables, and the change
    of float format is the identity on extended reals. -/
theorem msg_entries (c : Dev nD) (r : Fin 500000) (j : Fin 128) :
    Cert.KernelIdeal.Fused.Mg (V1 m ρ) c r j
      = Cert.MsgNorm.msg (segA (m ((c : Thread nD τ).loc main_arg0)) (m ((c : Thread nD τ).loc main_arg2))) (segB (m ((c : Thread nD τ).loc main_arg0)) (m ((c : Thread nD τ).loc main_arg3)) (m ((c : Thread nD τ).loc main_arg4))) (m ((c : Thread nD τ).loc main_arg1))
          (clampRow 50000 (by decide) (idx0 (m ((c : Thread nD τ).loc main_arg5)))) (clampRow 50000 (by decide) (idx1 (m ((c : Thread nD τ).loc main_arg5))))
          (m ((c : Thread nD τ).loc main_arg6)) (m ((c : Thread nD τ).loc main_arg7)) (m ((c : Thread nD τ).loc main_arg8)) r j := by
  unfold Cert.KernelIdeal.Fused.Mg Cert.MsgNorm.msg
  have h24 : Cert.KernelIdeal.Fused.inA (V1 m ρ) c = _ := V1_v24 m ρ c
  have h25 : Cert.KernelIdeal.Fused.inB (V1 m ρ) c = _ := V1_v25 m ρ c
  have h35 : Cert.KernelIdeal.Fused.inY (V1 m ρ) c = _ := V1_v35 m ρ c
  have h6 : Cert.KernelIdeal.Fused.wA (V1 m ρ) c = _ := V1_arg6 m ρ c
  have h7 : Cert.KernelIdeal.Fused.wB (V1 m ρ) c = _ := V1_arg7 m ρ c
  have h8 : Cert.KernelIdeal.Fused.wY (V1 m ρ) c = _ := V1_arg8 m ρ c
  rw [h24, h25, h35, h6, h7, h8, gather_eq_rowDims]
  simp only [gather_rows_apply (show 0 < 50000 by decide)]
  rfl

end Cert.KernelIdeal.KValue

end
-- ==== Proof.RefOps.lean ====
/-
  The reference program's entry point as one straight line of host operations. The printed entry point calls
  three outlined functions (the variance, the selection inside it, and the clamp at zero); here each call is
  replaced by the callee's operations over the call's own buffers, which is what the call unfolds to. The line
  is cut in five consecutive stretches: building the message matrix; its column means and variances;
  centring; scaling, shifting and clamping; the final segment sum.
-/
import proofs.«117741_j73332271612004_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The operations up to the message matrix (the three projected sums added). -/
abbrev P0 : List (HloOp τ sig (Elt F)) :=
  [ nullary main_cst (constant S_ .f32 0x00000000#32),
    unary main_cst main_v0 (broadcastInDim S50000x128 ![] bcast_S_S50000x128 : (⟨S_, .f32⟩ : BufTy).Contents (Elt F) → (⟨S50000x128, .f32⟩ : BufTy).Contents (Elt F)),
    unary main_arg2 main_v1 (broadcastInDim S250000x1 ![0] bcast_S250000_S250000x1_0 : (⟨S250000, .i32⟩ : BufTy).Contents (Elt F) → (⟨S250000x1, .i32⟩ : BufTy).Contents (Elt F)),
    ternary main_v0 main_v1 main_arg0 main_v2 ((fun x i u => Host.scatterAdd scatter_S50000x128_S250000x1_S250000x128_1_0_0_1 x i u) : (⟨S50000x128, .f32⟩ : BufTy).Contents (Elt F) → (⟨S250000x1, .i32⟩ : BufTy).Contents (Elt F) → (⟨S250000x128, .f32⟩ : BufTy).Contents (Elt F) → (⟨S50000x128, .f32⟩ : BufTy).Contents (Elt F)),
    unary main_arg6 main_v3 ((transpose S128x128 [1, 0] · transposes_S128x128_S128x128_1_0) : (⟨S128x128, .f32⟩ : BufTy).Contents (Elt F) → (⟨S128x128, .f32⟩ : BufTy).Contents (Elt F)),
    binary main_v2 main_v3 main_v4 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v5 ((extractStridedSlice S1x1000000 ![0, 0] · slices_S2x1000000_S1x1000000_0_0) : (⟨S2x1000000, .i32⟩ : BufTy).Contents (Elt F) → (⟨S1x1000000, .i32⟩ : BufTy).Contents (Elt F)),
    reshape main_v5 main_v6 rfl shapeCasts_S1x1000000_S1000000,
    nullary main_c (constantI S_ 32 0#32),
    unary main_c main_v7 (broadcastInDim S1000000 ![] bcast_S_S1000000 : (⟨S_, .i32⟩ : BufTy).Contents (Elt F) → (⟨S1000000, .i32⟩ : BufTy).Contents (Elt F)),
    binary main_v6 main_v7 main_v8 (cmpi .slt : (⟨S1000000, .i32⟩ : BufTy).Contents (Elt F) → (⟨S1000000, .i32⟩ : BufTy).Contents (Elt F) → (⟨S1000000, .i1⟩ : BufTy).Contents (Elt F)),
    nullary main_c_0 (constantI S_ 32 250000#32),
    unary main_c_0 main_v9 (broadcastInDim S1000000 ![] bcast_S_S1000000 : (⟨S_, .i32⟩ : BufTy).Contents (Elt F) → (⟨S1000000, .i32⟩ : BufTy).Contents (Elt F)),
    binary main_v6 main_v9 main_v10 (addi : (⟨S1000000, .i32⟩ : BufTy).Contents (Elt F) → (⟨S1000000, .i32⟩ : BufTy).Contents (Elt F) → (⟨S1000000, .i32⟩ : BufTy).Contents (Elt F)),
    ternary main_v8 main_v10 main_v6 main_v11 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v11 main_v12 (broadcastInDim S1000000x1 ![0] bcast_S1000000_S1000000x1_0 : (⟨S1000000, .i32⟩ : BufTy).Contents (Elt F) → (⟨S1000000x1, .i32⟩ : BufTy).Contents (Elt F)),
    binary main_arg0 main_v12 main_v13 ((fun x i => Host.gather gather_S250000x128_S1000000x1_S1000000x128_1_0_n_n_0_1_1128 x i) : (⟨S250000x128, .f32⟩ : BufTy).Contents (Elt F) → (⟨S1000000x1, .i32⟩ : BufTy).Contents (Elt F) → (⟨S1000000x128, .f32⟩ : BufTy).Contents (Elt F)),
    nullary main_cst_1 (constant S_ .f32 0x00000000#32),
    unary main_cst_1 main_v14 (broadcastInDim S500000x128 ![] bcast_S_S500000x128 : (⟨S_, .f32⟩ : BufTy).Contents (Elt F) → (⟨S500000x128, .f32⟩ : BufTy).Contents (Elt F)),
    unary main_arg4 main_v15 (broadcastInDim S1000000x1 ![0] bcast_S1000000_S1000000x1_0 : (⟨S1000000, .i32⟩ : BufTy).Contents (Elt F) → (⟨S1000000x1, .i32⟩ : BufTy).Contents (Elt F)),
    ternary main_v14 main_v15 main_v13 main_v16 ((fun x i u => Host.scatterAdd scatter_S500000x128_S1000000x1_S1000000x128_1_0_0_1 x i u) : (⟨S500000x128, .f32⟩ : BufTy).Contents (Elt F) → (⟨S1000000x1, .i32⟩ : BufTy).Contents (Elt F) → (⟨S1000000x128, .f32⟩ : BufTy).Contents (Elt F) → (⟨S500000x128, .f32⟩ : BufTy).Contents (Elt F)),
    unary main_arg7 main_v17 ((transpose S128x128 [1, 0] · transposes_S128x128_S128x128_1_0) : (⟨S128x128, .f32⟩ : BufTy).Contents (Elt F) → (⟨S128x128, .f32⟩ : BufTy).Contents (Elt F)),
    binary main_v16 main_v17 main_v18 ((fun l r => Host.dotGeneral dot_S500000x128_S128x128_S500000x128_1_0_0_1_n_n none l r) : (⟨S500000x128, .f32⟩ : BufTy).Contents (Elt F) → (⟨S128x128, .f32⟩ : BufTy).Contents (Elt F) → (⟨S500000x128, .f32⟩ : BufTy).Contents (Elt F)),
    unary main_arg5 main_v19 ((extractStridedSlice S1x500000 ![0, 0] · slices_S2x500000_S1x500000_0_0) : (⟨S2x500000, .i32⟩ : BufTy).Contents (Elt F) → (⟨S1x500000, .i32⟩ : BufTy).Contents (Elt F)),
    reshape main_v19 main_v20 rfl shapeCasts_S1x500000_S500000,
    nullary main_c_2 (constantI S_ 32 0#32),
    unary main_c_2 main_v21 (broadcastInDim S500000 ![] bcast_S_S500000 : (⟨S_, .i32⟩ : BufTy).Contents (Elt F) → (⟨S500000, .i32⟩ : BufTy).Contents (Elt F)),
    binary main_v20 main_v21 main_v22 (cmpi .slt : (⟨S500000, .i32⟩ : BufTy).Contents (Elt F) → (⟨S500000, .i32⟩ : BufTy).Contents (Elt F) → (⟨S500000, .i1⟩ : BufTy).Contents (Elt F)),
    nullary main_c_3 (constantI S_ 32 50000#32),
    unary main_c_3 main_v23 (broadcastInDim S500000 ![] bcast_S_S500000 : (⟨S_, .i32⟩ : BufTy).Contents (Elt F) → (⟨S500000, .i32⟩ : BufTy).Contents (Elt F)),
    binary main_v20 main_v23 main_v24 (addi : (⟨S500000, .i32⟩ : BufTy).Contents (Elt F) → (⟨S500000, .i32⟩ : BufTy).Contents (Elt F) → (⟨S500000, .i32⟩ : BufTy).Contents (Elt F)),
    ternary main_v22 main_v24 main_v20 main_v25 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v25 main_v26 (broadcastInDim S500000x1 ![0] bcast_S500000_S500000x1_0 : (⟨S500000, .i32⟩ : BufTy).Contents (Elt F) → (⟨S500000x1, .i32⟩ : BufTy).Contents (Elt F)),
    binary main_v4 main_v26 main_v27 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    binary main_v27 main_v18 main_v28 (addf : (⟨S500000x128, .f32⟩ : BufTy).Contents (Elt F) → (⟨S500000x128, .f32⟩ : BufTy).Contents (Elt F) → (⟨S500000x128, .f32⟩ : BufTy).Contents (Elt F)),
    unary main_arg5 main_v29 ((extractStridedSlice S1x500000 ![1, 0] · slices_S2x500000_S1x500000_1_0) : (⟨S2x500000, .i32⟩ : BufTy).Contents (Elt F) → (⟨S1x500000, .i32⟩ : BufTy).Contents (Elt F)),
    reshape main_v29 main_v30 rfl shapeCasts_S1x500000_S500000,
    nullary main_c_4 (constantI S_ 32 0#32),
    unary main_c_4 main_v31 (broadcastInDim S500000 ![] bcast_S_S500000 : (⟨S_, .i32⟩ : BufTy).Contents (Elt F) → (⟨S500000, .i32⟩ : BufTy).Contents (Elt F)),
    binary main_v30 main_v31 main_v32 (cmpi .slt : (⟨S500000, .i32⟩ : BufTy).Contents (Elt F) → (⟨S500000, .i32⟩ : BufTy).Contents (Elt F) → (⟨S500000, .i1⟩ : BufTy).Contents (Elt F)),
    nullary main_c_5 (constantI S_ 32 50000#32),
    unary main_c_5 main_v33 (broadcastInDim S500000 ![] bcast_S_S500000 : (⟨S_, .i32⟩ : BufTy).Contents (Elt F) → (⟨S500000, .i32⟩ : BufTy).Contents (Elt F)),
    binary main_v30 main_v33 main_v34 (addi : (⟨S500000, .i32⟩ : BufTy).Contents (Elt F) → (⟨S500000, .i32⟩ : BufTy).Contents (Elt F) → (⟨S500000, .i32⟩ : BufTy).Contents (Elt F)),
    ternary main_v32 main_v34 main_v30 main_v35 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v35 main_v36 (broadcastInDim S500000x1 ![0] bcast_S500000_S500000x1_0 : (⟨S500000, .i32⟩ : BufTy).Contents (Elt F) → (⟨S500000x1, .i32⟩ : BufTy).Contents (Elt F)),
    binary main_arg1 main_v36 main_v37 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    unary main_arg8 main_v38 ((transpose S128x128 [1, 0] · transposes_S128x128_S128x128_1_0) : (⟨S128x128, .f32⟩ : BufTy).Contents (Elt F) → (⟨S128x128, .f32⟩ : BufTy).Contents (Elt F)),
    binary main_v37 main_v38 main_v39 ((fun l r => Host.dotGeneral dot_S500000x128_S128x128_S500000x128_1_0_0_1_n_n none l r) : (⟨S500000x128, .f32⟩ : BufTy).Contents (Elt F) → (⟨S128x128, .f32⟩ : BufTy).Contents (Elt F) → (⟨S500000x128, .f32⟩ : BufTy).Contents (Elt F)),
    binary main_v28 main_v39 main_v40 (addf : (⟨S500000x128, .f32⟩ : BufTy).Contents (Elt F) → (⟨S500000x128, .f32⟩ : BufTy).Contents (Elt F) → (⟨S500000x128, .f32⟩ : BufTy).Contents (Elt F)) ]

/-- The column means, then the variance function's operations inlined (the selection it calls included). -/
abbrev P1 : List (HloOp τ sig (Elt F)) :=
  [ nullary main_cst_6 (constant S_ .f32 0x00000000#32),
    binary main_v40 main_cst_6 main_v41 ((fun x v => Host.reduceAdd x v reducesTo_S500000x128_S128_d0 h_S_) : (⟨S500000x128, .f32⟩ : BufTy).Contents (Elt F) → (⟨S_, .f32⟩ : BufTy).Contents (Elt F) → (⟨S128, .f32⟩ : BufTy).Contents (Elt F)),
    nullary main_cst_7 (constant S_ .f32 0x48F42400#32),
    unary main_cst_7 main_v42 (broadcastInDim S128 ![] bcast_S_S128 : (⟨S_, .f32⟩ : BufTy).Contents (Elt F) → (⟨S128, .f32⟩ : BufTy).Contents (Elt F)),
    binary main_v41 main_v42 main_v43 (Host.divf : (⟨S128, .f32⟩ : BufTy).Contents (Elt F) → (⟨S128, .f32⟩ : BufTy).Contents (Elt F) → (⟨S128, .f32⟩ : BufTy).Contents (Elt F)),
    nullary main_c_8 (constantI S_ 32 0#32),
    TRef.nullary main_call0.cst (constant S_ .f32 0x00000000#32),
    TRef.binary (.of main_v40) main_call0.cst main_call0.v0 (fun x v => Host.reduceAdd x v reducesTo_S500000x128_S128_d0 h_S_),
    TRef.unary main_call0.v0 main_call0.v1 (broadcastInDim S1x128 ![1] bcast_S128_S1x128_1),
    TRef.nullary main_call0.cst_0 (constant S_ .f32 0x48F42400#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S500000x128 ![0, 1] bcast_S1x128_S500000x128_0_1),
    TRef.binary (.of main_v40) main_call0.v4 main_call0.v5 subf,
    TRef.binary main_call0.v5 main_call0.v5 main_call0.v6 mulf,
    TRef.unary (.of main_c_8) main_call0.v7 (sitofp .f32),
    TRef.nullary main_call0.cst_1 (constant S_ .f32 0x48F42400#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S500000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b) ]

/-- Centring the matrix at its column means, and the variance guard. -/
abbrev P2 : List (HloOp τ sig (Elt F)) :=
  [ unary main_v43 main_v45 (broadcastInDim S1x128 ![1] bcast_S128_S1x128_1 : (⟨S128, .f32⟩ : BufTy).Contents (Elt F) → (⟨S1x128, .f32⟩ : BufTy).Contents (Elt F)),
    unary main_v45 main_v46 (broadcastInDim S500000x128 ![0, 1] bcast_S1x128_S500000x128_0_1 : (⟨S1x128, .f32⟩ : BufTy).Contents (Elt F) → (⟨S500000x128, .f32⟩ : BufTy).Contents (Elt F)),
    binary main_v40 main_v46 main_v47 (subf : (⟨S500000x128, .f32⟩ : BufTy).Contents (Elt F) → (⟨S500000x128, .f32⟩ : BufTy).Contents (Elt F) → (⟨S500000x128, .f32⟩ : BufTy).Contents (Elt F)),
    nullary main_cst_9 (constant S_ .f32 0x3727C5AC#32) ]

/-- Scaling by the reciprocal standard deviation and the weight, shifting by the bias, and the clamp at zero inlined. -/
abbrev P3 : List (HloOp τ sig (Elt F)) :=
  [ unary main_cst_9 main_v48 (broadcastInDim S128 ![] bcast_S_S128 : (⟨S_, .f32⟩ : BufTy).Contents (Elt F) → (⟨S128, .f32⟩ : BufTy).Contents (Elt F)),
    binary main_v44 main_v48 main_v49 (addf : (⟨S128, .f32⟩ : BufTy).Contents (Elt F) → (⟨S128, .f32⟩ : BufTy).Contents (Elt F) → (⟨S128, .f32⟩ : BufTy).Contents (Elt F)),
    unary main_v49 main_v50 (Host.rsqrt : (⟨S128, .f32⟩ : BufTy).Contents (Elt F) → (⟨S128, .f32⟩ : BufTy).Contents (Elt F)),
    unary main_v50 main_v51 (broadcastInDim S1x128 ![1] bcast_S128_S1x128_1 : (⟨S128, .f32⟩ : BufTy).Contents (Elt F) → (⟨S1x128, .f32⟩ : BufTy).Contents (Elt F)),
    unary main_v51 main_v52 (broadcastInDim S500000x128 ![0, 1] bcast_S1x128_S500000x128_0_1 : (⟨S1x128, .f32⟩ : BufTy).Contents (Elt F) → (⟨S500000x128, .f32⟩ : BufTy).Contents (Elt F)),
    binary main_v47 main_v52 main_v53 (mulf : (⟨S500000x128, .f32⟩ : BufTy).Contents (Elt F) → (⟨S500000x128, .f32⟩ : BufTy).Contents (Elt F) → (⟨S500000x128, .f32⟩ : BufTy).Contents (Elt F)),
    unary main_arg9 main_v54 (broadcastInDim S1x128 ![1] bcast_S128_S1x128_1 : (⟨S128, .f32⟩ : BufTy).Contents (Elt F) → (⟨S1x128, .f32⟩ : BufTy).Contents (Elt F)),
    unary main_v54 main_v55 (broadcastInDim S500000x128 ![0, 1] bcast_S1x128_S500000x128_0_1 : (⟨S1x128, .f32⟩ : BufTy).Contents (Elt F) → (⟨S500000x128, .f32⟩ : BufTy).Contents (Elt F)),
    binary main_v53 main_v55 main_v56 (mulf : (⟨S500000x128, .f32⟩ : BufTy).Contents (Elt F) → (⟨S500000x128, .f32⟩ : BufTy).Contents (Elt F) → (⟨S500000x128, .f32⟩ : BufTy).Contents (Elt F)),
    unary main_arg10 main_v57 (broadcastInDim S1x128 ![1] bcast_S128_S1x128_1 : (⟨S128, .f32⟩ : BufTy).Contents (Elt F) → (⟨S1x128, .f32⟩ : BufTy).Contents (Elt F)),
    unary main_v57 main_v58 (broadcastInDim S500000x128 ![0, 1] bcast_S1x128_S500000x128_0_1 : (⟨S1x128, .f32⟩ : BufTy).Contents (Elt F) → (⟨S500000x128, .f32⟩ : BufTy).Contents (Elt F)),
    binary main_v56 main_v58 main_v59 (addf : (⟨S500000x128, .f32⟩ : BufTy).Contents (Elt F) → (⟨S500000x128, .f32⟩ : BufTy).Contents (Elt F) → (⟨S500000x128, .f32⟩ : BufTy).Contents (Elt F)),
    TRef.nullary main_call1.cst (constant S_ .f32 0x00000000#32),
    TRef.unary main_call1.cst main_call1.v0 (broadcastInDim S500000x128 ![] bcast_S_S500000x128),
    TRef.binary (.of main_v59) main_call1.v0 main_call1.v1 maximumf ]

/-- The segment sum of the rows onto their targets. -/
abbrev P4 : List (HloOp τ sig (Elt F)) :=
  [ unary main_arg5 main_v61 ((extractStridedSlice S1x500000 ![1, 0] · slices_S2x500000_S1x500000_1_0) : (⟨S2x500000, .i32⟩ : BufTy).Contents (Elt F) → (⟨S1x500000, .i32⟩ : BufTy).Contents (Elt F)),
    reshape main_v61 main_v62 rfl shapeCasts_S1x500000_S500000,
    nullary main_cst_10 (constant S_ .f32 0x00000000#32),
    unary main_cst_10 main_v63 (broadcastInDim S50000x128 ![] bcast_S_S50000x128 : (⟨S_, .f32⟩ : BufTy).Contents (Elt F) → (⟨S50000x128, .f32⟩ : BufTy).Contents (Elt F)),
    unary main_v62 main_v64 (broadcastInDim S500000x1 ![0] bcast_S500000_S500000x1_0 : (⟨S500000, .i32⟩ : BufTy).Contents (Elt F) → (⟨S500000x1, .i32⟩ : BufTy).Contents (Elt F)),
    ternary main_v63 main_v64 main_v60 main_v65 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)) ]

/-- The first and the second printed stretch of the entry point, and the whole line. -/
abbrev opsA : List (HloOp τ sig (Elt F)) := P0 ++ (P1 ++ P2)
abbrev opsB : List (HloOp τ sig (Elt F)) := P3 ++ P4
abbrev ops : List (HloOp τ sig (Elt F)) := opsA ++ opsB

set_option maxRecDepth 16384 in
theorem main_part0_eq (c : Dev nD) : main_part0 (F := F) c = seq opsA := rfl

set_option maxRecDepth 16384 in
theorem main_part1_eq (c : Dev nD) : main_part1 (F := F) c = seq opsB := rfl

set_option maxRecDepth 16384 in
theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
theorem P0_sub : (P0 : List (HloOp τ sig (Elt F))).Forall fun op => op.bufs ⊆ tcRefs τ sig :=
  ⟨nullary_bufs_sub .., unary_bufs_sub .., unary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., binary_bufs_sub ..⟩
set_option maxRecDepth 16384 in
theorem P1_sub : (P1 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem P2_sub : (P2 : List (HloOp τ sig (Elt F))).Forall fun op => op.bufs ⊆ tcRefs τ sig :=
  ⟨unary_bufs_sub .., unary_bufs_sub .., binary_bufs_sub .., nullary_bufs_sub ..⟩
theorem P3_sub : (P3 : List (HloOp τ sig (Elt F))).Forall fun op => op.bufs ⊆ tcRefs τ sig :=
  ⟨unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem P4_sub : (P4 : List (HloOp τ sig (Elt F))).Forall fun op => op.bufs ⊆ tcRefs τ sig :=
  ⟨unary_bufs_sub .., reshape_bufs_sub .., nullary_bufs_sub .., unary_bufs_sub .., unary_bufs_sub .., ternary_bufs_sub ..⟩

theorem ops_sub : (ops : List (HloOp τ sig (Elt F))).Forall fun op => op.bufs ⊆ tcRefs τ sig :=
  List.forall_iff_forall_mem.mpr fun op h => by
    simp only [ops, opsA, opsB, List.mem_append] at h
    rcases h with (h | h | h) | h | h
    exacts [List.forall_iff_forall_mem.mp P0_sub op h, List.forall_iff_forall_mem.mp P1_sub op h, List.forall_iff_forall_mem.mp P2_sub op h, List.forall_iff_forall_mem.mp P3_sub op h, List.forall_iff_forall_mem.mp P4_sub op h]

/-- Every weakly fair execution of the entry point terminates, and each buffer ends at what the line of
    operations leaves there, computed from the launch contents. -/
theorem run_line (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.RefValue

end
-- ==== Proof.RefRun.lean ====
/-
  What the reference leaves in its result buffer, as a composed term of named stages of the argument arrays:
  two segment sums and three projections make the message matrix; its column means and the variance function
  give two vectors of 128 entries; the matrix is centred, scaled, shifted and clamped at zero; and the rows are
  summed onto their targets. The line of operations is read stretch by stretch: after each stretch the buffers
  later stretches read are named, and the arguments are seen to be untouched.
-/
import proofs.«117741_j73332271612004_2_alg».proof.Proof.RefOps
import Idealize.ShloMosaic.Lib.Pipeline.Frame

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The stages of the reference, as functions of the argument arrays -/

/-- The segment sum of the node features by their domain: a table of 50000 rows. -/
def segA (a0 : (⟨S250000x128, .f32⟩ : BufTy).Contents (Elt F)) (a2 : (⟨S250000, .i32⟩ : BufTy).Contents (Elt F)) : (⟨S50000x128, .f32⟩ : BufTy).Contents (Elt F) :=
  Host.scatterAdd scatter_S50000x128_S250000x1_S250000x128_1_0_0_1 (broadcastInDim S50000x128 ![] bcast_S_S50000x128 (constant S_ .f32 0x00000000#32)) (broadcastInDim S250000x1 ![0] bcast_S250000_S250000x1_0 a2) a0

/-- That table times the transposed first weight. -/
def projA (a0 : (⟨S250000x128, .f32⟩ : BufTy).Contents (Elt F)) (a2 : (⟨S250000, .i32⟩ : BufTy).Contents (Elt F)) (a6 : (⟨S128x128, .f32⟩ : BufTy).Contents (Elt F)) : (⟨S50000x128, .f32⟩ : BufTy).Contents (Elt F) :=
  Host.dotGeneral dot_S50000x128_S128x128_S50000x128_1_0_0_1_n_n none (segA a0 a2) (transpose S128x128 [1, 0] a6 transposes_S128x128_S128x128_1_0)

/-- Row 0 of the node map, as a vector. -/
def nodeRow (a3 : (⟨S2x1000000, .i32⟩ : BufTy).Contents (Elt F)) : (⟨S1000000, .i32⟩ : BufTy).Contents (Elt F) :=
  shapeCast S1000000 (extractStridedSlice S1x1000000 ![0, 0] a3 slices_S2x1000000_S1x1000000_0_0) shapeCasts_S1x1000000_S1000000

/-- The node indices with a negative one moved up by the table's length, as a column. -/
def nodeIdx (a3 : (⟨S2x1000000, .i32⟩ : BufTy).Contents (Elt F)) : (⟨S1000000x1, .i32⟩ : BufTy).Contents (Elt F) :=
  broadcastInDim S1000000x1 ![0] bcast_S1000000_S1000000x1_0 (select (cmpi .slt (nodeRow a3) (broadcastInDim S1000000 ![] bcast_S_S1000000 (constantI S_ 32 0#32))) (addi (nodeRow a3) (broadcastInDim S1000000 ![] bcast_S_S1000000 (constantI S_ 32 250000#32))) (nodeRow a3))

/-- The node features gathered along the node map's first row. -/
def gathX (a0 : (⟨S250000x128, .f32⟩ : BufTy).Contents (Elt F)) (a3 : (⟨S2x1000000, .i32⟩ : BufTy).Contents (Elt F)) : (⟨S1000000x128, .f32⟩ : BufTy).Contents (Elt F) :=
  Host.gather gather_S250000x128_S1000000x1_S1000000x128_1_0_n_n_0_1_1128 a0 (nodeIdx a3)

/-- The segment sum of the gathered features by their intersection: a table of 500000 rows. -/
def segB (a0 : (⟨S250000x128, .f32⟩ : BufTy).Contents (Elt F)) (a3 : (⟨S2x1000000, .i32⟩ : BufTy).Contents (Elt F)) (a4 : (⟨S1000000, .i32⟩ : BufTy).Contents (Elt F)) : (⟨S500000x128, .f32⟩ : BufTy).Contents (Elt F) :=
  Host.scatterAdd scatter_S500000x128_S1000000x1_S1000000x128_1_0_0_1 (broadcastInDim S500000x128 ![] bcast_S_S500000x128 (constant S_ .f32 0x00000000#32)) (broadcastInDim S1000000x1 ![0] bcast_S1000000_S1000000x1_0 a4) (gathX a0 a3)

/-- That table times the transposed second weight. -/
def projB (a0 : (⟨S250000x128, .f32⟩ : BufTy).Contents (Elt F)) (a3 : (⟨S2x1000000, .i32⟩ : BufTy).Contents (Elt F)) (a4 : (⟨S1000000, .i32⟩ : BufTy).Contents (Elt F)) (a7 : (⟨S128x128, .f32⟩ : BufTy).Contents (Elt F)) : (⟨S500000x128, .f32⟩ : BufTy).Contents (Elt F) :=
  Host.dotGeneral dot_S500000x128_S128x128_S500000x128_1_0_0_1_n_n none (segB a0 a3 a4) (transpose S128x128 [1, 0] a7 transposes_S128x128_S128x128_1_0)

/-- Row 0 and row 1 of the domain map, as vectors. -/
def edgeRow0 (a5 : (⟨S2x500000, .i32⟩ : BufTy).Contents (Elt F)) : (⟨S500000, .i32⟩ : BufTy).Contents (Elt F) :=
  shapeCast S500000 (extractStridedSlice S1x500000 ![0, 0] a5 slices_S2x500000_S1x500000_0_0) shapeCasts_S1x500000_S500000
def edgeRow1 (a5 : (⟨S2x500000, .i32⟩ : BufTy).Contents (Elt F)) : (⟨S500000, .i32⟩ : BufTy).Contents (Elt F) :=
  shapeCast S500000 (extractStridedSlice S1x500000 ![1, 0] a5 slices_S2x500000_S1x500000_1_0) shapeCasts_S1x500000_S500000

/-- A vector of row indices with a negative one moved up by 50000, as a column. -/
def wrapRows (v : (⟨S500000, .i32⟩ : BufTy).Contents (Elt F)) : (⟨S500000x1, .i32⟩ : BufTy).Contents (Elt F) :=
  broadcastInDim S500000x1 ![0] bcast_S500000_S500000x1_0 (select (cmpi .slt v (broadcastInDim S500000 ![] bcast_S_S500000 (constantI S_ 32 0#32))) (addi v (broadcastInDim S500000 ![] bcast_S_S500000 (constantI S_ 32 50000#32))) v)

/-- The row selectors of the two gathers. -/
def idx0 (a5 : (⟨S2x500000, .i32⟩ : BufTy).Contents (Elt F)) : (⟨S500000x1, .i32⟩ : BufTy).Contents (Elt F) := wrapRows (edgeRow0 a5)
def idx1 (a5 : (⟨S2x500000, .i32⟩ : BufTy).Contents (Elt F)) : (⟨S500000x1, .i32⟩ : BufTy).Contents (Elt F) := wrapRows (edgeRow1 a5)

/-- The message matrix: the three projections, gathered where they are per node, added left to right. -/
def msgMat (a0 : (⟨S250000x128, .f32⟩ : BufTy).Contents (Elt F)) (a1 : (⟨S50000x128, .f32⟩ : BufTy).Contents (Elt F)) (a2 : (⟨S250000, .i32⟩ : BufTy).Contents (Elt F)) (a3 : (⟨S2x1000000, .i32⟩ : BufTy).Contents (Elt F)) (a4 : (⟨S1000000, .i32⟩ : BufTy).Contents (Elt F)) (a5 : (⟨S2x500000, .i32⟩ : BufTy).Contents (Elt F)) (a6 : (⟨S128x128, .f32⟩ : BufTy).Contents (Elt F)) (a7 : (⟨S128x128, .f32⟩ : BufTy).Contents (Elt F)) (a8 : (⟨S128x128, .f32⟩ : BufTy).Contents (Elt F)) : (⟨S500000x128, .f32⟩ : BufTy).Contents (Elt F) :=
  addf (addf (Host.gather gather_S50000x128_S500000x1_S500000x128_1_0_n_n_0_1_1128 (projA a0 a2 a6) (idx0 a5)) (projB a0 a3 a4 a7))
    (Host.dotGeneral dot_S500000x128_S128x128_S500000x128_1_0_0_1_n_n none (Host.gather gather_S50000x128_S500000x1_S500000x128_1_0_n_n_0_1_1128 a1 (idx1 a5)) (transpose S128x128 [1, 0] a8 transposes_S128x128_S128x128_1_0))

/-- The column sums of a matrix, and its column means. -/
def colSums (M : (⟨S500000x128, .f32⟩ : BufTy).Contents (Elt F)) : (⟨S128, .f32⟩ : BufTy).Contents (Elt F) :=
  Host.reduceAdd M (constant S_ .f32 0x00000000#32) reducesTo_S500000x128_S128_d0 h_S_
def meanVec (M : (⟨S500000x128, .f32⟩ : BufTy).Contents (Elt F)) : (⟨S128, .f32⟩ : BufTy).Contents (Elt F) :=
  Host.divf (colSums M) (broadcastInDim S128 ![] bcast_S_S128 (constant S_ .f32 0x48F42400#32))

/-- A vector of 128 entries repeated on every row. -/
def bcastRows (v : (⟨S128, .f32⟩ : BufTy).Contents (Elt F)) : (⟨S500000x128, .f32⟩ : BufTy).Contents (Elt F) :=
  broadcastInDim S500000x128 ![0, 1] bcast_S1x128_S500000x128_0_1 (broadcastInDim S1x128 ![1] bcast_S128_S1x128_1 v)

/-- Inside the variance function: the column means as one row, the deviations from them, the divisor (the row
    count minus the correction, which is zero), the mean squared deviation, and the selection on the divisor's sign. -/
def varMeanRow (M : (⟨S500000x128, .f32⟩ : BufTy).Contents (Elt F)) : (⟨S1x128, .f32⟩ : BufTy).Contents (Elt F) :=
  Host.divf (broadcastInDim S1x128 ![1] bcast_S128_S1x128_1 (colSums M)) (broadcastInDim S1x128 ![] bcast_S_S1x128 (constant S_ .f32 0x48F42400#32))
def varDev (M : (⟨S500000x128, .f32⟩ : BufTy).Contents (Elt F)) : (⟨S500000x128, .f32⟩ : BufTy).Contents (Elt F) :=
  subf M (broadcastInDim S500000x128 ![0, 1] bcast_S1x128_S500000x128_0_1 (varMeanRow M))
def varCount : (⟨S_, .f32⟩ : BufTy).Contents (Elt F) :=
  subf (constant S_ .f32 0x48F42400#32) (sitofp .f32 (constantI S_ 32 0#32))
def varRaw (M : (⟨S500000x128, .f32⟩ : BufTy).Contents (Elt F)) : (⟨S128, .f32⟩ : BufTy).Contents (Elt F) :=
  Host.divf (Host.reduceAdd (mulf (varDev M) (varDev M)) (constant S_ .f32 0x00000000#32) reducesTo_S500000x128_S128_d0 h_S_) (broadcastInDim S128 ![] bcast_S_S128 (varCount (F := F)))
def varVec (M : (⟨S500000x128, .f32⟩ : BufTy).Contents (Elt F)) : (⟨S128, .f32⟩ : BufTy).Contents (Elt F) :=
  select (broadcastInDim S128 ![] bcast_S_S128 (cmpf .ogt (varCount (F := F)) (constant S_ .f32 0x00000000#32))) (varRaw M) (broadcastInDim S128 ![] bcast_S_S128 (id (constant S_ .f32 0x7FC00000#32)))

/-- The matrix centred at its column means. -/
def centred (M : (⟨S500000x128, .f32⟩ : BufTy).Contents (Elt F)) : (⟨S500000x128, .f32⟩ : BufTy).Contents (Elt F) := subf M (bcastRows (meanVec M))

/-- The reciprocal standard deviation from a variance vector and the guard. -/
def invStdVec (v : (⟨S128, .f32⟩ : BufTy).Contents (Elt F)) (e : (⟨S_, .f32⟩ : BufTy).Contents (Elt F)) : (⟨S128, .f32⟩ : BufTy).Contents (Elt F) :=
  Host.rsqrt (addf v (broadcastInDim S128 ![] bcast_S_S128 e))

/-- A centred matrix scaled by the reciprocal standard deviation and the weight, shifted by the bias. -/
def scaleShift (D : (⟨S500000x128, .f32⟩ : BufTy).Contents (Elt F)) (v : (⟨S128, .f32⟩ : BufTy).Contents (Elt F)) (e : (⟨S_, .f32⟩ : BufTy).Contents (Elt F)) (g b : (⟨S128, .f32⟩ : BufTy).Contents (Elt F)) : (⟨S500000x128, .f32⟩ : BufTy).Contents (Elt F) :=
  addf (mulf (mulf D (bcastRows (invStdVec v e))) (bcastRows g)) (bcastRows b)

/-- The normalised matrix before the clamp. -/
def normMat (M : (⟨S500000x128, .f32⟩ : BufTy).Contents (Elt F)) (v g b : (⟨S128, .f32⟩ : BufTy).Contents (Elt F)) : (⟨S500000x128, .f32⟩ : BufTy).Contents (Elt F) :=
  scaleShift (centred M) v (constant S_ .f32 0x3727C5AC#32) g b

/-- The clamp at zero. -/
def reluMat (N : (⟨S500000x128, .f32⟩ : BufTy).Contents (Elt F)) : (⟨S500000x128, .f32⟩ : BufTy).Contents (Elt F) :=
  maximumf N (broadcastInDim S500000x128 ![] bcast_S_S500000x128 (constant S_ .f32 0x00000000#32))

/-- The segment sum of a matrix's rows onto the 50000 targets the domain map's second row names. -/
def tail (a5 : (⟨S2x500000, .i32⟩ : BufTy).Contents (Elt F)) (N : (⟨S500000x128, .f32⟩ : BufTy).Contents (Elt F)) : (⟨S50000x128, .f32⟩ : BufTy).Contents (Elt F) :=
  Host.scatterAdd scatter_S50000x128_S500000x1_S500000x128_1_0_0_1 (broadcastInDim S50000x128 ![] bcast_S_S50000x128 (constant S_ .f32 0x00000000#32)) (broadcastInDim S500000x1 ![0] bcast_S500000_S500000x1_0 (edgeRow1 a5)) N

/-! ## The buffers after each stretch -/

def val1 (V0 : Valuation τ sig (Elt F)) : Valuation τ sig (Elt F) := after P0 V0
def val2 (V0 : Valuation τ sig (Elt F)) : Valuation τ sig (Elt F) := after P1 (val1 V0)
def val3 (V0 : Valuation τ sig (Elt F)) : Valuation τ sig (Elt F) := after P2 (val2 V0)
def val4 (V0 : Valuation τ sig (Elt F)) : Valuation τ sig (Elt F) := after P3 (val3 V0)
def val5 (V0 : Valuation τ sig (Elt F)) : Valuation τ sig (Elt F) := after P4 (val4 V0)

theorem after_ops (V0 : Valuation τ sig (Elt F)) : after ops V0 = val5 V0 := by
  simp only [ops, opsA, opsB, after_append]
  rfl

/-! ### After the first stretch: the message matrix -/

theorem val1_main_arg0 (V0 : Valuation τ sig (Elt F)) : val1 V0 (no_index (Proc.devRef .tc main_arg0)) = V0 (Proc.devRef .tc main_arg0) := by
  unfold val1; simp only [P0]; after_results_simp
theorem val1_main_arg1 (V0 : Valuation τ sig (Elt F)) : val1 V0 (no_index (Proc.devRef .tc main_arg1)) = V0 (Proc.devRef .tc main_arg1) := by
  unfold val1; simp only [P0]; after_results_simp
theorem val1_main_arg2 (V0 : Valuation τ sig (Elt F)) : val1 V0 (no_index (Proc.devRef .tc main_arg2)) = V0 (Proc.devRef .tc main_arg2) := by
  unfold val1; simp only [P0]; after_results_simp
theorem val1_main_arg3 (V0 : Valuation τ sig (Elt F)) : val1 V0 (no_index (Proc.devRef .tc main_arg3)) = V0 (Proc.devRef .tc main_arg3) := by
  unfold val1; simp only [P0]; after_results_simp
theorem val1_main_arg4 (V0 : Valuation τ sig (Elt F)) : val1 V0 (no_index (Proc.devRef .tc main_arg4)) = V0 (Proc.devRef .tc main_arg4) := by
  unfold val1; simp only [P0]; after_results_simp
theorem val1_main_arg5 (V0 : Valuation τ sig (Elt F)) : val1 V0 (no_index (Proc.devRef .tc main_arg5)) = V0 (Proc.devRef .tc main_arg5) := by
  unfold val1; simp only [P0]; after_results_simp
theorem val1_main_arg6 (V0 : Valuation τ sig (Elt F)) : val1 V0 (no_index (Proc.devRef .tc main_arg6)) = V0 (Proc.devRef .tc main_arg6) := by
  unfold val1; simp only [P0]; after_results_simp
theorem val1_main_arg7 (V0 : Valuation τ sig (Elt F)) : val1 V0 (no_index (Proc.devRef .tc main_arg7)) = V0 (Proc.devRef .tc main_arg7) := by
  unfold val1; simp only [P0]; after_results_simp
theorem val1_main_arg8 (V0 : Valuation τ sig (Elt F)) : val1 V0 (no_index (Proc.devRef .tc main_arg8)) = V0 (Proc.devRef .tc main_arg8) := by
  unfold val1; simp only [P0]; after_results_simp
theorem val1_main_arg9 (V0 : Valuation τ sig (Elt F)) : val1 V0 (no_index (Proc.devRef .tc main_arg9)) = V0 (Proc.devRef .tc main_arg9) := by
  unfold val1; simp only [P0]; after_results_simp
theorem val1_main_arg10 (V0 : Valuation τ sig (Elt F)) : val1 V0 (no_index (Proc.devRef .tc main_arg10)) = V0 (Proc.devRef .tc main_arg10) := by
  unfold val1; simp only [P0]; after_results_simp
attribute [local irreducible] Host.scatterAdd Host.gather Host.reduceAdd in
set_option maxRecDepth 16384 in
set_option maxHeartbeats 4000000 in
theorem val1_main_v40 (V0 : Valuation τ sig (Elt F)) : val1 V0 (no_index (Proc.devRef .tc main_v40)) = (msgMat (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) := by
  unfold val1
  simp only [P0]
  after_results_simp
  rfl

/-! ### After the second: the column means and the variance -/

theorem val2_main_arg0 (V0 : Valuation τ sig (Elt F)) : val2 V0 (no_index (Proc.devRef .tc main_arg0)) = V0 (Proc.devRef .tc main_arg0) := by
  unfold val2; simp only [P1]; after_results_simp; exact val1_main_arg0 V0
theorem val2_main_arg1 (V0 : Valuation τ sig (Elt F)) : val2 V0 (no_index (Proc.devRef .tc main_arg1)) = V0 (Proc.devRef .tc main_arg1) := by
  unfold val2; simp only [P1]; after_results_simp; exact val1_main_arg1 V0
theorem val2_main_arg2 (V0 : Valuation τ sig (Elt F)) : val2 V0 (no_index (Proc.devRef .tc main_arg2)) = V0 (Proc.devRef .tc main_arg2) := by
  unfold val2; simp only [P1]; after_results_simp; exact val1_main_arg2 V0
theorem val2_main_arg3 (V0 : Valuation τ sig (Elt F)) : val2 V0 (no_index (Proc.devRef .tc main_arg3)) = V0 (Proc.devRef .tc main_arg3) := by
  unfold val2; simp only [P1]; after_results_simp; exact val1_main_arg3 V0
theorem val2_main_arg4 (V0 : Valuation τ sig (Elt F)) : val2 V0 (no_index (Proc.devRef .tc main_arg4)) = V0 (Proc.devRef .tc main_arg4) := by
  unfold val2; simp only [P1]; after_results_simp; exact val1_main_arg4 V0
theorem val2_main_arg5 (V0 : Valuation τ sig (Elt F)) : val2 V0 (no_index (Proc.devRef .tc main_arg5)) = V0 (Proc.devRef .tc main_arg5) := by
  unfold val2; simp only [P1]; after_results_simp; exact val1_main_arg5 V0
theorem val2_main_arg6 (V0 : Valuation τ sig (Elt F)) : val2 V0 (no_index (Proc.devRef .tc main_arg6)) = V0 (Proc.devRef .tc main_arg6) := by
  unfold val2; simp only [P1]; after_results_simp; exact val1_main_arg6 V0
theorem val2_main_arg7 (V0 : Valuation τ sig (Elt F)) : val2 V0 (no_index (Proc.devRef .tc main_arg7)) = V0 (Proc.devRef .tc main_arg7) := by
  unfold val2; simp only [P1]; after_results_simp; exact val1_main_arg7 V0
theorem val2_main_arg8 (V0 : Valuation τ sig (Elt F)) : val2 V0 (no_index (Proc.devRef .tc main_arg8)) = V0 (Proc.devRef .tc main_arg8) := by
  unfold val2; simp only [P1]; after_results_simp; exact val1_main_arg8 V0
theorem val2_main_arg9 (V0 : Valuation τ sig (Elt F)) : val2 V0 (no_index (Proc.devRef .tc main_arg9)) = V0 (Proc.devRef .tc main_arg9) := by
  unfold val2; simp only [P1]; after_results_simp; exact val1_main_arg9 V0
theorem val2_main_arg10 (V0 : Valuation τ sig (Elt F)) : val2 V0 (no_index (Proc.devRef .tc main_arg10)) = V0 (Proc.devRef .tc main_arg10) := by
  unfold val2; simp only [P1]; after_results_simp; exact val1_main_arg10 V0
theorem val2_main_v40 (V0 : Valuation τ sig (Elt F)) : val2 V0 (no_index (Proc.devRef .tc main_v40)) = (msgMat (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) := by
  unfold val2; simp only [P1]; after_results_simp; exact val1_main_v40 V0
attribute [local irreducible] Host.scatterAdd Host.gather Host.reduceAdd in
set_option maxRecDepth 16384 in
set_option maxHeartbeats 4000000 in
theorem val2_main_v43 (V0 : Valuation τ sig (Elt F)) : val2 V0 (no_index (Proc.devRef .tc main_v43)) = meanVec (msgMat (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) := by
  unfold val2
  simp only [P1]
  after_results_simp
  simp only [val1_main_v40] <;> rfl
attribute [local irreducible] Host.scatterAdd Host.gather Host.reduceAdd in
set_option maxRecDepth 16384 in
set_option maxHeartbeats 4000000 in
theorem val2_main_v44 (V0 : Valuation τ sig (Elt F)) : val2 V0 (no_index (Proc.devRef .tc main_v44)) = varVec (msgMat (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) := by
  unfold val2
  simp only [P1]
  after_results_simp
  simp only [val1_main_v40] <;> rfl

/-! ### After the third: the centred matrix and the guard -/

theorem val3_main_arg0 (V0 : Valuation τ sig (Elt F)) : val3 V0 (no_index (Proc.devRef .tc main_arg0)) = V0 (Proc.devRef .tc main_arg0) := by
  unfold val3; simp only [P2]; after_results_simp; exact val2_main_arg0 V0
theorem val3_main_arg1 (V0 : Valuation τ sig (Elt F)) : val3 V0 (no_index (Proc.devRef .tc main_arg1)) = V0 (Proc.devRef .tc main_arg1) := by
  unfold val3; simp only [P2]; after_results_simp; exact val2_main_arg1 V0
theorem val3_main_arg2 (V0 : Valuation τ sig (Elt F)) : val3 V0 (no_index (Proc.devRef .tc main_arg2)) = V0 (Proc.devRef .tc main_arg2) := by
  unfold val3; simp only [P2]; after_results_simp; exact val2_main_arg2 V0
theorem val3_main_arg3 (V0 : Valuation τ sig (Elt F)) : val3 V0 (no_index (Proc.devRef .tc main_arg3)) = V0 (Proc.devRef .tc main_arg3) := by
  unfold val3; simp only [P2]; after_results_simp; exact val2_main_arg3 V0
theorem val3_main_arg4 (V0 : Valuation τ sig (Elt F)) : val3 V0 (no_index (Proc.devRef .tc main_arg4)) = V0 (Proc.devRef .tc main_arg4) := by
  unfold val3; simp only [P2]; after_results_simp; exact val2_main_arg4 V0
theorem val3_main_arg5 (V0 : Valuation τ sig (Elt F)) : val3 V0 (no_index (Proc.devRef .tc main_arg5)) = V0 (Proc.devRef .tc main_arg5) := by
  unfold val3; simp only [P2]; after_results_simp; exact val2_main_arg5 V0
theorem val3_main_arg6 (V0 : Valuation τ sig (Elt F)) : val3 V0 (no_index (Proc.devRef .tc main_arg6)) = V0 (Proc.devRef .tc main_arg6) := by
  unfold val3; simp only [P2]; after_results_simp; exact val2_main_arg6 V0
theorem val3_main_arg7 (V0 : Valuation τ sig (Elt F)) : val3 V0 (no_index (Proc.devRef .tc main_arg7)) = V0 (Proc.devRef .tc main_arg7) := by
  unfold val3; simp only [P2]; after_results_simp; exact val2_main_arg7 V0
theorem val3_main_arg8 (V0 : Valuation τ sig (Elt F)) : val3 V0 (no_index (Proc.devRef .tc main_arg8)) = V0 (Proc.devRef .tc main_arg8) := by
  unfold val3; simp only [P2]; after_results_simp; exact val2_main_arg8 V0
theorem val3_main_arg9 (V0 : Valuation τ sig (Elt F)) : val3 V0 (no_index (Proc.devRef .tc main_arg9)) = V0 (Proc.devRef .tc main_arg9) := by
  unfold val3; simp only [P2]; after_results_simp; exact val2_main_arg9 V0
theorem val3_main_arg10 (V0 : Valuation τ sig (Elt F)) : val3 V0 (no_index (Proc.devRef .tc main_arg10)) = V0 (Proc.devRef .tc main_arg10) := by
  unfold val3; simp only [P2]; after_results_simp; exact val2_main_arg10 V0
theorem val3_main_v44 (V0 : Valuation τ sig (Elt F)) : val3 V0 (no_index (Proc.devRef .tc main_v44)) = varVec (msgMat (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) := by
  unfold val3; simp only [P2]; after_results_simp; exact val2_main_v44 V0
attribute [local irreducible] Host.scatterAdd Host.gather Host.reduceAdd in
set_option maxRecDepth 16384 in
set_option maxHeartbeats 4000000 in
theorem val3_main_v47 (V0 : Valuation τ sig (Elt F)) : val3 V0 (no_index (Proc.devRef .tc main_v47)) = centred (msgMat (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) := by
  unfold val3
  simp only [P2]
  after_results_simp
  simp only [val2_main_v40, val2_main_v43] <;> rfl
set_option maxRecDepth 16384 in
set_option maxHeartbeats 4000000 in
theorem val3_main_cst_9 (V0 : Valuation τ sig (Elt F)) : val3 V0 (no_index (Proc.devRef .tc main_cst_9)) = (constant S_ .f32 0x3727C5AC#32 : (⟨S_, .f32⟩ : BufTy).Contents (Elt F)) := by
  unfold val3
  simp only [P2]
  after_results_simp

/-! ### After the fourth: the normalised, clamped matrix -/

theorem val4_main_arg0 (V0 : Valuation τ sig (Elt F)) : val4 V0 (no_index (Proc.devRef .tc main_arg0)) = V0 (Proc.devRef .tc main_arg0) := by
  unfold val4; simp only [P3]; after_results_simp; exact val3_main_arg0 V0
theorem val4_main_arg1 (V0 : Valuation τ sig (Elt F)) : val4 V0 (no_index (Proc.devRef .tc main_arg1)) = V0 (Proc.devRef .tc main_arg1) := by
  unfold val4; simp only [P3]; after_results_simp; exact val3_main_arg1 V0
theorem val4_main_arg2 (V0 : Valuation τ sig (Elt F)) : val4 V0 (no_index (Proc.devRef .tc main_arg2)) = V0 (Proc.devRef .tc main_arg2) := by
  unfold val4; simp only [P3]; after_results_simp; exact val3_main_arg2 V0
theorem val4_main_arg3 (V0 : Valuation τ sig (Elt F)) : val4 V0 (no_index (Proc.devRef .tc main_arg3)) = V0 (Proc.devRef .tc main_arg3) := by
  unfold val4; simp only [P3]; after_results_simp; exact val3_main_arg3 V0
theorem val4_main_arg4 (V0 : Valuation τ sig (Elt F)) : val4 V0 (no_index (Proc.devRef .tc main_arg4)) = V0 (Proc.devRef .tc main_arg4) := by
  unfold val4; simp only [P3]; after_results_simp; exact val3_main_arg4 V0
theorem val4_main_arg5 (V0 : Valuation τ sig (Elt F)) : val4 V0 (no_index (Proc.devRef .tc main_arg5)) = V0 (Proc.devRef .tc main_arg5) := by
  unfold val4; simp only [P3]; after_results_simp; exact val3_main_arg5 V0
theorem val4_main_arg6 (V0 : Valuation τ sig (Elt F)) : val4 V0 (no_index (Proc.devRef .tc main_arg6)) = V0 (Proc.devRef .tc main_arg6) := by
  unfold val4; simp only [P3]; after_results_simp; exact val3_main_arg6 V0
theorem val4_main_arg7 (V0 : Valuation τ sig (Elt F)) : val4 V0 (no_index (Proc.devRef .tc main_arg7)) = V0 (Proc.devRef .tc main_arg7) := by
  unfold val4; simp only [P3]; after_results_simp; exact val3_main_arg7 V0
theorem val4_main_arg8 (V0 : Valuation τ sig (Elt F)) : val4 V0 (no_index (Proc.devRef .tc main_arg8)) = V0 (Proc.devRef .tc main_arg8) := by
  unfold val4; simp only [P3]; after_results_simp; exact val3_main_arg8 V0
theorem val4_main_arg9 (V0 : Valuation τ sig (Elt F)) : val4 V0 (no_index (Proc.devRef .tc main_arg9)) = V0 (Proc.devRef .tc main_arg9) := by
  unfold val4; simp only [P3]; after_results_simp; exact val3_main_arg9 V0
theorem val4_main_arg10 (V0 : Valuation τ sig (Elt F)) : val4 V0 (no_index (Proc.devRef .tc main_arg10)) = V0 (Proc.devRef .tc main_arg10) := by
  unfold val4; simp only [P3]; after_results_simp; exact val3_main_arg10 V0
attribute [local irreducible] Host.scatterAdd Host.gather Host.reduceAdd in
set_option maxRecDepth 16384 in
set_option maxHeartbeats 4000000 in
theorem val4_main_v60 (V0 : Valuation τ sig (Elt F)) : val4 V0 (no_index (Proc.devRef .tc main_v60)) = reluMat (normMat (msgMat (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (varVec (msgMat (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)))) (V0 (Proc.devRef .tc main_arg9)) (V0 (Proc.devRef .tc main_arg10))) := by
  unfold val4
  simp only [P3]
  after_results_simp
  simp only [val3_main_v47, val3_main_cst_9, val3_main_v44, val3_main_arg9, val3_main_arg10] <;> rfl

/-! ### After the last: the result -/

theorem val5_main_arg0 (V0 : Valuation τ sig (Elt F)) : val5 V0 (no_index (Proc.devRef .tc main_arg0)) = V0 (Proc.devRef .tc main_arg0) := by
  unfold val5; simp only [P4]; after_results_simp; exact val4_main_arg0 V0
theorem val5_main_arg1 (V0 : Valuation τ sig (Elt F)) : val5 V0 (no_index (Proc.devRef .tc main_arg1)) = V0 (Proc.devRef .tc main_arg1) := by
  unfold val5; simp only [P4]; after_results_simp; exact val4_main_arg1 V0
theorem val5_main_arg2 (V0 : Valuation τ sig (Elt F)) : val5 V0 (no_index (Proc.devRef .tc main_arg2)) = V0 (Proc.devRef .tc main_arg2) := by
  unfold val5; simp only [P4]; after_results_simp; exact val4_main_arg2 V0
theorem val5_main_arg3 (V0 : Valuation τ sig (Elt F)) : val5 V0 (no_index (Proc.devRef .tc main_arg3)) = V0 (Proc.devRef .tc main_arg3) := by
  unfold val5; simp only [P4]; after_results_simp; exact val4_main_arg3 V0
theorem val5_main_arg4 (V0 : Valuation τ sig (Elt F)) : val5 V0 (no_index (Proc.devRef .tc main_arg4)) = V0 (Proc.devRef .tc main_arg4) := by
  unfold val5; simp only [P4]; after_results_simp; exact val4_main_arg4 V0
theorem val5_main_arg5 (V0 : Valuation τ sig (Elt F)) : val5 V0 (no_index (Proc.devRef .tc main_arg5)) = V0 (Proc.devRef .tc main_arg5) := by
  unfold val5; simp only [P4]; after_results_simp; exact val4_main_arg5 V0
theorem val5_main_arg6 (V0 : Valuation τ sig (Elt F)) : val5 V0 (no_index (Proc.devRef .tc main_arg6)) = V0 (Proc.devRef .tc main_arg6) := by
  unfold val5; simp only [P4]; after_results_simp; exact val4_main_arg6 V0
theorem val5_main_arg7 (V0 : Valuation τ sig (Elt F)) : val5 V0 (no_index (Proc.devRef .tc main_arg7)) = V0 (Proc.devRef .tc main_arg7) := by
  unfold val5; simp only [P4]; after_results_simp; exact val4_main_arg7 V0
theorem val5_main_arg8 (V0 : Valuation τ sig (Elt F)) : val5 V0 (no_index (Proc.devRef .tc main_arg8)) = V0 (Proc.devRef .tc main_arg8) := by
  unfold val5; simp only [P4]; after_results_simp; exact val4_main_arg8 V0
theorem val5_main_arg9 (V0 : Valuation τ sig (Elt F)) : val5 V0 (no_index (Proc.devRef .tc main_arg9)) = V0 (Proc.devRef .tc main_arg9) := by
  unfold val5; simp only [P4]; after_results_simp; exact val4_main_arg9 V0
theorem val5_main_arg10 (V0 : Valuation τ sig (Elt F)) : val5 V0 (no_index (Proc.devRef .tc main_arg10)) = V0 (Proc.devRef .tc main_arg10) := by
  unfold val5; simp only [P4]; after_results_simp; exact val4_main_arg10 V0
attribute [local irreducible] Host.scatterAdd Host.gather Host.reduceAdd in
set_option maxRecDepth 16384 in
set_option maxHeartbeats 4000000 in
theorem val5_main_v65 (V0 : Valuation τ sig (Elt F)) : val5 V0 (no_index (Proc.devRef .tc main_v65)) = tail (V0 (Proc.devRef .tc main_arg5)) (reluMat (normMat (msgMat (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (varVec (msgMat (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)))) (V0 (Proc.devRef .tc main_arg9)) (V0 (Proc.devRef .tc main_arg10)))) := by
  unfold val5
  simp only [P4]
  after_results_simp
  simp only [val4_main_v60, val4_main_arg5] <;> rfl

/-! ## The run -/

/-- Every weakly fair execution of the reference terminates with its result at the composed term of the stages
    and every argument unchanged. -/
theorem run_stages (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v65) = tail (m ((c.tc : Thread nD τ).loc main_arg5)) (reluMat (normMat (msgMat (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (varVec (msgMat (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))) (m ((c.tc : Thread nD τ).loc main_arg9)) (m ((c.tc : Thread nD τ).loc main_arg10))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v65).trans (by rw [after_ops]; exact val5_main_v65 (launchContents m c)),
      (h c main_arg0).trans (by rw [after_ops]; exact val5_main_arg0 (launchContents m c)),
      (h c main_arg1).trans (by rw [after_ops]; exact val5_main_arg1 (launchContents m c)),
      (h c main_arg2).trans (by rw [after_ops]; exact val5_main_arg2 (launchContents m c)),
      (h c main_arg3).trans (by rw [after_ops]; exact val5_main_arg3 (launchContents m c)),
      (h c main_arg4).trans (by rw [after_ops]; exact val5_main_arg4 (launchContents m c)),
      (h c main_arg5).trans (by rw [after_ops]; exact val5_main_arg5 (launchContents m c)),
      (h c main_arg6).trans (by rw [after_ops]; exact val5_main_arg6 (launchContents m c)),
      (h c main_arg7).trans (by rw [after_ops]; exact val5_main_arg7 (launchContents m c)),
      (h c main_arg8).trans (by rw [after_ops]; exact val5_main_arg8 (launchContents m c)),
      (h c main_arg9).trans (by rw [after_ops]; exact val5_main_arg9 (launchContents m c)),
      (h c main_arg10).trans (by rw [after_ops]; exact val5_main_arg10 (launchContents m c))⟩)
    (run_line m ρ)

end Cert.ReferenceIdeal.RefValue

end
-- ==== Proof.LibHostRows.lean ====
/-
  Host-side row operations read at one entry, at the exact values.

  * A `dot_general` of an `M × K` by a `K × N` matrix along the one shared axis: entry `(p, j)` is
    `∑ k, l[p,k] · r[k,j]` — at the exact values the host's product has no accumulator, no rounding and no order.
  * A vector of length `C` viewed as one row and that row spread over `R` rows: entry `(p, k)` is the vector's `k`.
  * A vector of length `C` re-laid as a `1 × C` block: entry `(0, k)` is the vector's `k`.
-/
import Idealize.ShloMosaic.PureOps.Ideal.Laws
import Idealize.ShloMosaic.Lib.ValueIdx
import Idealize.ShloMosaic.Lib.Pipeline.Value

noncomputable section

open scoped BigOperators

namespace Cert.LibHostRows

open Idealize.ShloMosaic Idealize.ShloMosaic.ValueIdx

/-- `(l · r)[p, j] = ∑ k, l[p,k] · r[k,j]` for the host's product whose left operand index at output `i` and
    contraction position `q` is `(i 0, q)` and whose right operand index is `(q, i 1)`. -/
theorem hostDot_apply {M K N : ℕ} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision) (l : FVec Ideal ⟨2, ![M, K]⟩ φ₁) (r : FVec Ideal ⟨2, ![K, N]⟩ φ₂)
    (p : Fin M) (j : Fin N) :
    Host.dotGeneral (F := Ideal) D prec l r (ix2 p j) = ∑ k : Fin K, l (ix2 p k) * r (ix2 k j) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

/-- A vector viewed as one row, the row spread over `R` rows: entry `(p, k)` is the vector's entry `k`. -/
theorem rowOfVec_spread_apply {α : Type} {R C : ℕ} (hC : C ≠ 1) (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![R, C]⟩ ![0, 1]) (p : Fin R) (k : Fin C) :
    broadcastInDim ⟨2, ![R, C]⟩ ![0, 1] h2 (broadcastInDim ⟨2, ![1, C]⟩ ![1] h1 b) (ix2 p k) = b (ix1 k) := by
  rw [broadcastInDim_apply ![0, 1] h2 _ (ix2 p k) (ix2 (0 : Fin 1) k) (fun a => match a with
    | ⟨0, _⟩ => by show 0 = if (1 : Nat) = 1 then 0 else _; rw [if_pos rfl]
    | ⟨1, _⟩ => by show k.val = if C = 1 then 0 else k.val; rw [if_neg hC])]
  exact broadcastInDim_apply ![1] h1 b (ix2 (0 : Fin 1) k) (ix1 k) (fun a => match a with
    | ⟨0, _⟩ => by show k.val = if C = 1 then 0 else k.val; rw [if_neg hC])

/-- A vector re-laid as a one-row block: entry `(0, k)` is the vector's entry `k` (the same row-major position). -/
theorem rowOfVec_cast_apply {α : Type} {C : ℕ} (b : (⟨1, ![C]⟩ : Shape).Idx → α)
    (h : (⟨1, ![C]⟩ : Shape).ShapeCasts ⟨2, ![1, C]⟩) (k : Fin C) :
    shapeCast ⟨2, ![1, C]⟩ b h (ix2 (0 : Fin 1) k) = b (ix1 k) :=
  shapeCast_apply b h (ix2 (0 : Fin 1) k) (ix1 k) (by
    rw [Shape.rowMajor_val_one, Shape.rowMajor_val_two]
    show k.val = 0 * C + k.val
    omega)

end Cert.LibHostRows

end
-- ==== Proof.RefValue.lean ====
/-
  The reference's result, read entry by entry, is the specification's: the message matrix's entry is three dot
  products against a row of each weight (a product against a transposed weight pairs the weight's own row with
  the operand's row; a gather of rows reads the row its clamped start index names); a column's mean is its sum
  over the row count; the variance function, called with correction zero, divides the sum of squared deviations
  by the row count itself and its guard on the divisor's sign is decided; the normalisation is pointwise.
-/
import proofs.«117741_j73332271612004_2_alg».proof.Proof.RefRun
import proofs.«117741_j73332271612004_2_alg».proof.Proof.Spec
import proofs.«117741_j73332271612004_2_alg».proof.Proof.LibGatherRows
import proofs.«117741_j73332271612004_2_alg».proof.Proof.LibHostRows
import Idealize.ShloMosaic.PureOps.Ideal.Laws
import Idealize.ShloMosaic.Lib.ValueIdx
import Idealize.ShloMosaic.Lib.Pipeline.Value
import Mathlib.Tactic

noncomputable section

open scoped BigOperators

namespace Cert.ReferenceIdeal.RefValue

open Cert.ReferenceIdeal Cert.ReferenceIdeal.Gen Idealize.ShloMosaic Idealize.ShloMosaic.ValueIdx Idealize.ShloMosaic.TcCoe Idealize.SL.Sem

/-! ## Single operations at an entry -/

/-- A scalar spread over any shape reads the scalar everywhere. -/
theorem bcastScalar_apply {α : Type} {t : Shape} (h : S_.BroadcastsInDim t (![] : Fin 0 → Fin t.rank)) (c : S_.Idx → α) (j : t.Idx) :
    broadcastInDim t ![] h c j = c ix0 :=
  broadcastInDim_apply ![] h c j ix0 (fun a => a.elim0)

/-- The host's quotient at an entry is the quotient of the entries. -/
theorem hostDivf_apply {s : Shape} (x y : FVec Ideal s .f32) (i : s.Idx) : Host.divf (F := Ideal) x y i = Ideal.div (x i) (y i) := rfl

/-- A vector of 128 entries repeated on every row reads its entry at the column. -/
theorem bcastRows_apply (v : (⟨S128, .f32⟩ : BufTy).Contents (Elt Ideal)) (r : Fin 500000) (j : Fin 128) : bcastRows (F := Ideal) v (ix2 r j) = v (ix1 j) :=
  LibHostRows.rowOfVec_spread_apply (by decide) v bcast_S128_S1x128_1 bcast_S1x128_S500000x128_0_1 r j

/-- A one-row block repeated on every row reads the block's entry at the column. -/
theorem spreadRow_apply (w : (⟨S1x128, .f32⟩ : BufTy).Contents (Elt Ideal)) (r : Fin 500000) (j : Fin 128) :
    broadcastInDim S500000x128 ![0, 1] bcast_S1x128_S500000x128_0_1 w (ix2 r j) = w (ix2 (0 : Fin 1) j) :=
  broadcastInDim_apply ![0, 1] bcast_S1x128_S500000x128_0_1 w (ix2 r j) (ix2 (0 : Fin 1) j) (fun a => match a with
    | ⟨0, _⟩ => by show 0 = if (1 : Nat) = 1 then 0 else _; rw [if_pos rfl]
    | ⟨1, _⟩ => by show j.val = if (128 : Nat) = 1 then 0 else j.val; rw [if_neg (by decide)])

/-- A vector viewed as a one-row block reads its entry at the column. -/
theorem rowOfVec_apply (v : (⟨S128, .f32⟩ : BufTy).Contents (Elt Ideal)) (j : Fin 128) :
    broadcastInDim S1x128 ![1] bcast_S128_S1x128_1 v (ix2 (0 : Fin 1) j) = v (ix1 j) :=
  broadcastInDim_apply ![1] bcast_S128_S1x128_1 v (ix2 (0 : Fin 1) j) (ix1 j) (fun a => match a with
    | ⟨0, _⟩ => by show j.val = if (128 : Nat) = 1 then 0 else j.val; rw [if_neg (by decide)])

/-- A product against a transposed square weight: entry (p, j) pairs row p of the operand with row j of the weight. -/
theorem dotA_apply (l : (⟨S50000x128, .f32⟩ : BufTy).Contents (Elt Ideal)) (w : (⟨S128x128, .f32⟩ : BufTy).Contents (Elt Ideal)) (p : Fin 50000) (j : Fin 128) :
    Host.dotGeneral (F := Ideal) (φ₁ := .f32) (φ₂ := .f32) dot_S50000x128_S128x128_S50000x128_1_0_0_1_n_n none l (transpose S128x128 [1, 0] w transposes_S128x128_S128x128_1_0) (ix2 p j)
      = ∑ k : Fin 128, l (ix2 p k) * w (ix2 j k) := by
  rw [LibHostRows.hostDot_apply (φ₁ := .f32) (φ₂ := .f32) dot_S50000x128_S128x128_S50000x128_1_0_0_1_n_n rfl rfl (fun _ _ => rfl)
    (fun i q => DotDims.lhsIdx_val_of_single dot_S50000x128_S128x128_S50000x128_1_0_0_1_n_n (cl := 1) rfl i q)
    (fun i q => DotDims.rhsIdx_val_of_single dot_S50000x128_S128x128_S50000x128_1_0_0_1_n_n (cr := 0) rfl i q) (fun _ _ => rfl)]
  exact Finset.sum_congr rfl fun k _ => congrArg (l (ix2 p k) * ·)
    (transpose_apply [1, 0] w transposes_S128x128_S128x128_1_0 (ix2 k j) (ix2 j k) (fun b => match b with | ⟨0, _⟩ => rfl | ⟨1, _⟩ => rfl))

theorem dotB_apply (l : (⟨S500000x128, .f32⟩ : BufTy).Contents (Elt Ideal)) (w : (⟨S128x128, .f32⟩ : BufTy).Contents (Elt Ideal)) (p : Fin 500000) (j : Fin 128) :
    Host.dotGeneral (F := Ideal) (φ₁ := .f32) (φ₂ := .f32) dot_S500000x128_S128x128_S500000x128_1_0_0_1_n_n none l (transpose S128x128 [1, 0] w transposes_S128x128_S128x128_1_0) (ix2 p j)
      = ∑ k : Fin 128, l (ix2 p k) * w (ix2 j k) := by
  rw [LibHostRows.hostDot_apply (φ₁ := .f32) (φ₂ := .f32) dot_S500000x128_S128x128_S500000x128_1_0_0_1_n_n rfl rfl (fun _ _ => rfl)
    (fun i q => DotDims.lhsIdx_val_of_single dot_S500000x128_S128x128_S500000x128_1_0_0_1_n_n (cl := 1) rfl i q)
    (fun i q => DotDims.rhsIdx_val_of_single dot_S500000x128_S128x128_S500000x128_1_0_0_1_n_n (cr := 0) rfl i q) (fun _ _ => rfl)]
  exact Finset.sum_congr rfl fun k _ => congrArg (l (ix2 p k) * ·)
    (transpose_apply [1, 0] w transposes_S128x128_S128x128_1_0 (ix2 k j) (ix2 j k) (fun b => match b with | ⟨0, _⟩ => rfl | ⟨1, _⟩ => rfl))

/-- A gather of rows of a 50000-row table reads the row its clamped start index names. -/
theorem gatherRows_apply (x : (⟨S50000x128, .f32⟩ : BufTy).Contents (Elt Ideal)) (idx : (⟨S500000x1, .i32⟩ : BufTy).Contents (Elt Ideal)) (r : Fin 500000) (k : Fin 128) :
    Host.gather gather_S50000x128_S500000x1_S500000x128_1_0_n_n_0_1_1128 x idx (ix2 r k) = x (ix2 (GatherRows.clampRow 50000 (by decide) idx r) k) :=
  GatherRows.gather_rows_apply (by decide) gather_S50000x128_S500000x1_S500000x128_1_0_n_n_0_1_1128_wf x idx r k

/-- The column sums: the sum down the rows (the initial value is zero). -/
theorem colSums_apply (M : (⟨S500000x128, .f32⟩ : BufTy).Contents (Elt Ideal)) (j : Fin 128) :
    colSums (F := Ideal) M (ix1 j) = ∑ r : Fin 500000, M (ix2 r j) := by
  unfold colSums Host.reduceAdd
  rw [Ideal.hostReduceAdd_def, Ideal.hostReduceAdd_single reducesTo_S500000x128_S128_d0 (by decide : S500000x128.Reduces [0] S128),
    constant_apply, Ideal.ofBits_zero_f32, zero_add]
  exact Finset.sum_congr rfl fun k _ => congrArg M (funext fun a => Fin.ext (by
    match a with
    | ⟨0, _⟩ => rfl
    | ⟨1, _⟩ => rfl))

/-! ## The message matrix -/

theorem msgMat_apply (a0 : (⟨S250000x128, .f32⟩ : BufTy).Contents (Elt Ideal)) (a1 : (⟨S50000x128, .f32⟩ : BufTy).Contents (Elt Ideal)) (a2 : (⟨S250000, .i32⟩ : BufTy).Contents (Elt Ideal)) (a3 : (⟨S2x1000000, .i32⟩ : BufTy).Contents (Elt Ideal)) (a4 : (⟨S1000000, .i32⟩ : BufTy).Contents (Elt Ideal)) (a5 : (⟨S2x500000, .i32⟩ : BufTy).Contents (Elt Ideal)) (a6 : (⟨S128x128, .f32⟩ : BufTy).Contents (Elt Ideal)) (a7 : (⟨S128x128, .f32⟩ : BufTy).Contents (Elt Ideal)) (a8 : (⟨S128x128, .f32⟩ : BufTy).Contents (Elt Ideal)) (r : Fin 500000) (j : Fin 128) :
    msgMat (F := Ideal) a0 a1 a2 a3 a4 a5 a6 a7 a8 (ix2 r j) = (MsgNorm.msg (segA a0 a2) (segB a0 a3 a4) a1 (GatherRows.clampRow 50000 (by decide) (idx0 a5)) (GatherRows.clampRow 50000 (by decide) (idx1 a5)) a6 a7 a8) r j := by
  unfold msgMat MsgNorm.msg projA projB
  rw [addf_apply, addf_apply, gatherRows_apply, dotA_apply, dotB_apply, dotB_apply]
  refine congrArg _ (Finset.sum_congr rfl fun k _ => ?_)
  rw [gatherRows_apply]

/-! ## The row count -/

theorem nRows_real : MsgNorm.nRows = ((500000 : ℝ) : EReal) := by
  unfold MsgNorm.nRows
  simp [Ideal.ofBits, Ideal.ieee, -EReal.coe_mul]; norm_num

theorem nRows_pos : (0 : EReal) < MsgNorm.nRows := by
  rw [nRows_real]; exact EReal.coe_pos.mpr (by norm_num)

/-- The variance function's divisor: the row count minus the correction converted from the integer zero. -/
theorem varCount_eq : varCount (F := Ideal) ix0 = MsgNorm.nRows := by
  show Ideal.ofBits .f32 0x48F42400#32 - (((0#32 : BitVec 32).toInt : ℝ) : EReal) = MsgNorm.nRows
  have h0 : (((0#32 : BitVec 32).toInt : ℝ) : EReal) = 0 := by
    have : (0#32 : BitVec 32).toInt = 0 := by decide
    rw [this]; simp
  rw [h0, sub_zero]; rfl

/-! ## The statistics and the normalisation, against a matrix given by its entries -/

section Entries

variable (M : (⟨S500000x128, .f32⟩ : BufTy).Contents (Elt Ideal)) (E : Fin 500000 → Fin 128 → EReal) (hM : ∀ r j, M (ix2 r j) = E r j)
include hM

theorem colSums_spec (j : Fin 128) : colSums (F := Ideal) M (ix1 j) = MsgNorm.colSum E j := by
  rw [colSums_apply]; exact Finset.sum_congr rfl fun r _ => hM r j

theorem meanVec_spec (j : Fin 128) : meanVec (F := Ideal) M (ix1 j) = MsgNorm.mean E j := by
  unfold meanVec MsgNorm.mean
  show Ideal.div (colSums (F := Ideal) M (ix1 j)) (broadcastInDim S128 ![] bcast_S_S128 (constant (F := Ideal) S_ .f32 0x48F42400#32) (ix1 j)) = _
  rw [colSums_spec M E hM, bcastScalar_apply]; rfl

theorem varMeanRow_spec (j : Fin 128) : varMeanRow (F := Ideal) M (ix2 (0 : Fin 1) j) = MsgNorm.mean E j := by
  unfold varMeanRow MsgNorm.mean
  show Ideal.div (broadcastInDim S1x128 ![1] bcast_S128_S1x128_1 (colSums (F := Ideal) M) (ix2 (0 : Fin 1) j))
    (broadcastInDim S1x128 ![] bcast_S_S1x128 (constant (F := Ideal) S_ .f32 0x48F42400#32) (ix2 (0 : Fin 1) j)) = _
  rw [rowOfVec_apply, colSums_spec M E hM, bcastScalar_apply]; rfl

theorem varDev_spec (r : Fin 500000) (j : Fin 128) : varDev (F := Ideal) M (ix2 r j) = E r j - MsgNorm.mean E j := by
  unfold varDev
  rw [subf_apply, spreadRow_apply, varMeanRow_spec M E hM, hM]

theorem varRaw_spec (j : Fin 128) : varRaw (F := Ideal) M (ix1 j) = MsgNorm.varTwoPass E j := by
  unfold varRaw MsgNorm.varTwoPass
  rw [hostDivf_apply, bcastScalar_apply, varCount_eq]
  exact congrArg (Ideal.div · MsgNorm.nRows)
    (colSums_spec (mulf (F := Ideal) (s := S500000x128) (φ := .f32) (varDev (F := Ideal) M) (varDev (F := Ideal) M)) (fun r j => (E r j - MsgNorm.mean E j) * (E r j - MsgNorm.mean E j))
      (fun r j => by rw [mulf_apply, varDev_spec M E hM]) j)

/-- The variance function's selection takes the quotient: its divisor is positive. -/
theorem varVec_spec (j : Fin 128) : varVec (F := Ideal) M (ix1 j) = MsgNorm.varTwoPass E j := by
  unfold varVec
  rw [select_apply, bcastScalar_apply, cmpf_apply, varCount_eq, constant_apply, Ideal.ofBits_zero_f32]
  have hc : FloatOps.cmpf (F := Ideal) (φ := .f32) .ogt MsgNorm.nRows (0 : EReal) = 1#1 := by
    show Ideal.cmp .ogt MsgNorm.nRows 0 = 1#1
    unfold Ideal.cmp
    simp [nRows_pos]
  rw [hc, select_one, varRaw_spec M E hM]

theorem reluNorm_spec (v : (⟨S128, .f32⟩ : BufTy).Contents (Elt Ideal)) (V : Fin 128 → EReal) (hv : ∀ j, v (ix1 j) = V j)
    (g b : (⟨S128, .f32⟩ : BufTy).Contents (Elt Ideal)) (r : Fin 500000) (j : Fin 128) :
    reluMat (F := Ideal) (normMat (F := Ideal) M v g b) (ix2 r j) = MsgNorm.normRelu E V (MsgNorm.ofVec g) (MsgNorm.ofVec b) r j := by
  unfold reluMat normMat scaleShift centred invStdVec MsgNorm.normRelu MsgNorm.invStd MsgNorm.ofVec
  rw [maximumf_apply, bcastScalar_apply, constant_apply, Ideal.ofBits_zero_f32, addf_apply, mulf_apply, mulf_apply, subf_apply,
    bcastRows_apply, bcastRows_apply, bcastRows_apply, bcastRows_apply, meanVec_spec M E hM, hM]
  show max ((E r j - MsgNorm.mean E j) * Ideal.rsqrt (v (ix1 j) + broadcastInDim S128 ![] bcast_S_S128 (constant (F := Ideal) S_ .f32 0x3727C5AC#32) (ix1 j)) * g (ix1 j) + b (ix1 j)) 0 = _
  rw [bcastScalar_apply, hv]; rfl

end Entries

/-! ## The result -/

/-- The normalised, clamped matrix of the reference is the specification's, given by its entries. -/
theorem stages_eq (a0 : (⟨S250000x128, .f32⟩ : BufTy).Contents (Elt Ideal)) (a1 : (⟨S50000x128, .f32⟩ : BufTy).Contents (Elt Ideal)) (a2 : (⟨S250000, .i32⟩ : BufTy).Contents (Elt Ideal)) (a3 : (⟨S2x1000000, .i32⟩ : BufTy).Contents (Elt Ideal)) (a4 : (⟨S1000000, .i32⟩ : BufTy).Contents (Elt Ideal)) (a5 : (⟨S2x500000, .i32⟩ : BufTy).Contents (Elt Ideal)) (a6 : (⟨S128x128, .f32⟩ : BufTy).Contents (Elt Ideal)) (a7 : (⟨S128x128, .f32⟩ : BufTy).Contents (Elt Ideal)) (a8 : (⟨S128x128, .f32⟩ : BufTy).Contents (Elt Ideal)) (a9 : (⟨S128, .f32⟩ : BufTy).Contents (Elt Ideal)) (a10 : (⟨S128, .f32⟩ : BufTy).Contents (Elt Ideal)) :
    reluMat (F := Ideal) (normMat (msgMat a0 a1 a2 a3 a4 a5 a6 a7 a8) (varVec (msgMat a0 a1 a2 a3 a4 a5 a6 a7 a8)) a9 a10)
      = MsgNorm.ofEntries (MsgNorm.normRelu (MsgNorm.msg (segA a0 a2) (segB a0 a3 a4) a1 (GatherRows.clampRow 50000 (by decide) (idx0 a5)) (GatherRows.clampRow 50000 (by decide) (idx1 a5)) a6 a7 a8) (MsgNorm.varTwoPass (MsgNorm.msg (segA a0 a2) (segB a0 a3 a4) a1 (GatherRows.clampRow 50000 (by decide) (idx0 a5)) (GatherRows.clampRow 50000 (by decide) (idx1 a5)) a6 a7 a8)) (MsgNorm.ofVec a9) (MsgNorm.ofVec a10)) := by
  funext i
  obtain ⟨r, j, rfl⟩ : ∃ (r : Fin 500000) (j : Fin 128), i = ix2 r j := ⟨i 0, i 1, eq_ix2 i⟩
  rw [reluNorm_spec (msgMat a0 a1 a2 a3 a4 a5 a6 a7 a8) (MsgNorm.msg (segA a0 a2) (segB a0 a3 a4) a1 (GatherRows.clampRow 50000 (by decide) (idx0 a5)) (GatherRows.clampRow 50000 (by decide) (idx1 a5)) a6 a7 a8) (msgMat_apply a0 a1 a2 a3 a4 a5 a6 a7 a8) _ (MsgNorm.varTwoPass (MsgNorm.msg (segA a0 a2) (segB a0 a3 a4) a1 (GatherRows.clampRow 50000 (by decide) (idx0 a5)) (GatherRows.clampRow 50000 (by decide) (idx1 a5)) a6 a7 a8))
    (varVec_spec (msgMat a0 a1 a2 a3 a4 a5 a6 a7 a8) (MsgNorm.msg (segA a0 a2) (segB a0 a3 a4) a1 (GatherRows.clampRow 50000 (by decide) (idx0 a5)) (GatherRows.clampRow 50000 (by decide) (idx1 a5)) a6 a7 a8) (msgMat_apply a0 a1 a2 a3 a4 a5 a6 a7 a8)) a9 a10 r j]
  rfl

/-- Every weakly fair execution of the reference terminates with its result the segment sum, onto the targets
    the domain map's second row names, of the specification's normalised matrix, and every argument unchanged. -/
theorem run (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v65)
        = tail (m' ((c.tc : Thread nD τ).loc main_arg5)) (MsgNorm.ofEntries (MsgNorm.normRelu (MsgNorm.msg (segA (m' ((c.tc : Thread nD τ).loc main_arg0)) (m' ((c.tc : Thread nD τ).loc main_arg2))) (segB (m' ((c.tc : Thread nD τ).loc main_arg0)) (m' ((c.tc : Thread nD τ).loc main_arg3)) (m' ((c.tc : Thread nD τ).loc main_arg4))) (m' ((c.tc : Thread nD τ).loc main_arg1)) (GatherRows.clampRow 50000 (by decide) (idx0 (m' ((c.tc : Thread nD τ).loc main_arg5)))) (GatherRows.clampRow 50000 (by decide) (idx1 (m' ((c.tc : Thread nD τ).loc main_arg5)))) (m' ((c.tc : Thread nD τ).loc main_arg6)) (m' ((c.tc : Thread nD τ).loc main_arg7)) (m' ((c.tc : Thread nD τ).loc main_arg8))) (MsgNorm.varTwoPass (MsgNorm.msg (segA (m' ((c.tc : Thread nD τ).loc main_arg0)) (m' ((c.tc : Thread nD τ).loc main_arg2))) (segB (m' ((c.tc : Thread nD τ).loc main_arg0)) (m' ((c.tc : Thread nD τ).loc main_arg3)) (m' ((c.tc : Thread nD τ).loc main_arg4))) (m' ((c.tc : Thread nD τ).loc main_arg1)) (GatherRows.clampRow 50000 (by decide) (idx0 (m' ((c.tc : Thread nD τ).loc main_arg5)))) (GatherRows.clampRow 50000 (by decide) (idx1 (m' ((c.tc : Thread nD τ).loc main_arg5)))) (m' ((c.tc : Thread nD τ).loc main_arg6)) (m' ((c.tc : Thread nD τ).loc main_arg7)) (m' ((c.tc : Thread nD τ).loc main_arg8)))) (MsgNorm.ofVec (m' ((c.tc : Thread nD τ).loc main_arg9))) (MsgNorm.ofVec (m' ((c.tc : Thread nD τ).loc main_arg10)))))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)) :=
  (θ_run (defs (F := Ideal)) _ _).mono (fun _ h c => ⟨(h c).1.trans (congrArg (tail _) (stages_eq (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)))), (h c).2⟩)
    (run_stages (F := Ideal) m' ρ')

end Cert.ReferenceIdeal.RefValue

end
-- ==== Proof.Variance.lean ====
/-
  The law of this certificate: on a column of finitely many real entries, the mean of the squares minus the
  square of the mean equals the mean of the squared deviations from the mean, and is therefore nonnegative, so
  clamping it at zero changes nothing.
-/
import Mathlib.Tactic
import Idealize.ShloMosaic.PureOps.Ideal
import Idealize.ShloMosaic.PureOps.Ideal.Laws
import proofs.«117741_j73332271612004_2_alg».proof.Proof.Spec

noncomputable section

namespace Cert.MsgNorm

open Idealize.ShloMosaic

/-- The word both programs print for the number of rows denotes the real `500000`
    (`500000 = 15625 · 2^5 = (2^23 + 7813632) · 2^(145 - 127 - 23)`). -/
theorem nRows_eq : nRows = ((500000 : ℝ) : EReal) := by
  unfold nRows
  simp [Ideal.ofBits, Ideal.ieee, -EReal.coe_mul]; norm_num

/-- The inclusion of the reals in the extended reals commutes with finite sums. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The sum of squared deviations from any centre `m`, expanded: `∑ (x - m)² = ∑ x² - 2 m ∑ x + N m²`. -/
theorem sum_sq_dev {ι : Type*} [Fintype ι] (x : ι → ℝ) (m : ℝ) :
    ∑ i, (x i - m) * (x i - m)
      = (∑ i, x i * x i) - 2 * m * (∑ i, x i) + (Fintype.card ι : ℝ) * (m * m) := by
  have h : ∀ i, (x i - m) * (x i - m) = x i * x i - 2 * m * x i + m * m := fun i => by ring
  simp only [h]
  rw [Finset.sum_add_distrib, Finset.sum_sub_distrib, ← Finset.mul_sum, Finset.sum_const, Finset.card_univ,
    nsmul_eq_mul]

/-- The variance identity over the reals, with division written as multiplication by the reciprocal: for
    `n` the (nonzero) number of entries and `μ = (∑ x) / n`,
    `(∑ x²) / n - μ² = (∑ (x - μ)²) / n`. -/
theorem real_var_identity {ι : Type*} [Fintype ι] (x : ι → ℝ) (n : ℝ) (hn : n = (Fintype.card ι : ℝ))
    (hn0 : n ≠ 0) :
    (∑ i, x i * x i) * (1 / n) - ((∑ i, x i) * (1 / n)) * ((∑ i, x i) * (1 / n))
      = (∑ i, (x i - (∑ i, x i) * (1 / n)) * (x i - (∑ i, x i) * (1 / n))) * (1 / n) := by
  rw [sum_sq_dev, ← hn]
  field_simp
  ring

/-- A mean of squares is nonnegative. -/
theorem real_var_nonneg {ι : Type*} [Fintype ι] (x : ι → ℝ) (m n : ℝ) (hn : 0 < n) :
    0 ≤ (∑ i, (x i - m) * (x i - m)) * (1 / n) :=
  mul_nonneg (Finset.sum_nonneg fun i _ => mul_self_nonneg _) (by positivity)

/-- The law: on real entries the one-pass variance (clamped at zero) is the two-pass variance. -/
theorem varOnePass_eq_varTwoPass (M : Fin 500000 → Fin 128 → EReal)
    (hM : ∀ r j, ∃ x : ℝ, M r j = (x : EReal)) : varOnePass M = varTwoPass M := by
  choose x hx using hM
  have hMx : M = fun r j => ((x r j : ℝ) : EReal) := by funext r j; exact hx r j
  subst hMx
  funext j
  have h5 : (500000 : ℝ) ≠ 0 := by norm_num
  have hcard : (500000 : ℝ) = (Fintype.card (Fin 500000) : ℝ) := by rw [Fintype.card_fin]; norm_num
  unfold varOnePass varTwoPass mean colSum
  rw [nRows_eq]
  simp only [Ideal.div_coe h5, ← EReal.coe_mul, coe_sum, ← EReal.coe_sub]
  rw [real_var_identity (fun r => x r j) 500000 hcard h5]
  exact max_eq_left (EReal.coe_nonneg.mpr (real_var_nonneg _ _ _ (by norm_num)))

end Cert.MsgNorm

end
-- ==== Proof.Finite.lean ====
/-
  Closure of finiteness: the operations that build the message matrix and scatter it keep every entry a real
  number when every entry they read is a real number.
-/
import Mathlib.Tactic
import Idealize.ShloMosaic.PureOps.Ideal
import Idealize.ShloMosaic.PureOps.Ideal.Laws
import proofs.«117741_j73332271612004_2_alg».proof.Proof.Spec

noncomputable section

namespace Cert.MsgNorm

open Idealize.ShloMosaic Idealize.ShloMosaic.ValueIdx

/-- A finite sum of reals is a real. -/
theorem sum_real {ι : Type*} (s : Finset ι) (f : ι → EReal) (hf : ∀ i ∈ s, ∃ x : ℝ, f i = (x : EReal)) :
    ∃ x : ℝ, ∑ i ∈ s, f i = (x : EReal) := by
  classical
  induction s using Finset.induction_on with
  | empty => exact ⟨0, by simp⟩
  | insert a s ha ih =>
    obtain ⟨y, hy⟩ := ih (fun i hi => hf i (Finset.mem_insert_of_mem hi))
    obtain ⟨x, hx⟩ := hf a (Finset.mem_insert_self a s)
    exact ⟨x + y, by rw [Finset.sum_insert ha, hx, hy, EReal.coe_add]⟩

/-- A product of two reals is a real. -/
theorem mul_real {a b : EReal} (ha : ∃ x : ℝ, a = (x : EReal)) (hb : ∃ x : ℝ, b = (x : EReal)) :
    ∃ x : ℝ, a * b = (x : EReal) := by
  obtain ⟨x, rfl⟩ := ha
  obtain ⟨y, rfl⟩ := hb
  exact ⟨x * y, (EReal.coe_mul x y).symm⟩

/-- A sum of two reals is a real. -/
theorem add_real {a b : EReal} (ha : ∃ x : ℝ, a = (x : EReal)) (hb : ∃ x : ℝ, b = (x : EReal)) :
    ∃ x : ℝ, a + b = (x : EReal) := by
  obtain ⟨x, rfl⟩ := ha
  obtain ⟨y, rfl⟩ := hb
  exact ⟨x + y, (EReal.coe_add x y).symm⟩

/-- Every entry of the message matrix is a real when every entry of the three tables and the three weights is. -/
theorem msg_finite (A : Nodes.Idx → EReal) (B : Rows.Idx → EReal) (Y : Nodes.Idx → EReal)
    (g0 g1 : Fin 500000 → Fin 50000) (W6 W7 W8 : Sq.Idx → EReal)
    (hA : ∀ i, ∃ x : ℝ, A i = (x : EReal)) (hB : ∀ i, ∃ x : ℝ, B i = (x : EReal))
    (hY : ∀ i, ∃ x : ℝ, Y i = (x : EReal)) (h6 : ∀ i, ∃ x : ℝ, W6 i = (x : EReal))
    (h7 : ∀ i, ∃ x : ℝ, W7 i = (x : EReal)) (h8 : ∀ i, ∃ x : ℝ, W8 i = (x : EReal)) :
    ∀ r j, ∃ x : ℝ, msg A B Y g0 g1 W6 W7 W8 r j = (x : EReal) := by
  intro r j
  unfold msg
  exact add_real
    (add_real (sum_real _ _ fun k _ => mul_real (hA _) (h6 _)) (sum_real _ _ fun k _ => mul_real (hB _) (h7 _)))
    (sum_real _ _ fun k _ => mul_real (hY _) (h8 _))

/-- An accumulating scatter of real updates into a real operand has real entries: each entry is the operand's
    plus a finite sum of updates. -/
theorem scatterAdd_finite {s si u : Shape} {w : Nat} (d : ScatterDims s si u) (z : s.Idx → EReal)
    (idx : IVec si w) (upd : u.Idx → EReal)
    (hz : ∀ i, ∃ x : ℝ, z i = (x : EReal)) (hu : ∀ i, ∃ x : ℝ, upd i = (x : EReal)) :
    ∀ i, ∃ x : ℝ, Host.scatterAdd (F := Ideal) (φ := .f32) d z idx upd i = (x : EReal) := by
  intro i
  rw [Host.scatterAdd, Ideal.hostScatterAdd_def]
  unfold Ideal.hostScatterAdd
  exact add_real (hz i) (sum_real _ _ fun j _ => hu j)

/-- A gather reads entries of its operand, so it has real entries when the operand has. -/
theorem gather_finite {s si t : Shape} {w : Nat} (d : GatherDims s si t) (x : s.Idx → EReal) (idx : IVec si w)
    (hx : ∀ i, ∃ y : ℝ, x i = (y : EReal)) :
    ∀ j, ∃ y : ℝ, Host.gather d x idx j = (y : EReal) := by
  intro j
  exact hx _

/-- The zero word broadcast to any shape is the real zero at every entry. -/
theorem bcast_zero_apply {s0 t : Shape} (dims : Fin s0.rank → Fin t.rank) (h : s0.BroadcastsInDim t dims)
    (i : t.Idx) :
    broadcastInDim t dims h (constant (F := Ideal) s0 .f32 0x00000000#32) i = 0 := by
  unfold broadcastInDim
  rw [constant_apply, Ideal.ofBits_zero_f32]

/-- The zero word broadcast to any shape has real entries. -/
theorem bcast_zero_finite {s0 t : Shape} (dims : Fin s0.rank → Fin t.rank) (h : s0.BroadcastsInDim t dims) :
    ∀ i, ∃ x : ℝ, broadcastInDim t dims h (constant (F := Ideal) s0 .f32 0x00000000#32) i = (x : EReal) :=
  fun i => ⟨0, by rw [bcast_zero_apply]; rfl⟩

end Cert.MsgNorm

end
-- ==== Proof.Bridge.lean ====
/-
  The two consequences of the law and of closure of finiteness that the comparison of the two programs uses:
  the normalised, scaled, shifted and clamped matrix is the same with either variance, and the message matrix
  built from real inputs has real entries.
-/
import proofs.«117741_j73332271612004_2_alg».proof.Proof.Spec
import proofs.«117741_j73332271612004_2_alg».proof.Proof.Variance
import proofs.«117741_j73332271612004_2_alg».proof.Proof.Finite

noncomputable section

namespace Cert.MsgNorm

open Idealize.ShloMosaic Idealize.ShloMosaic.ValueIdx

/-- On real entries, normalising with the one-pass variance is normalising with the two-pass variance. -/
theorem normRelu_onePass_eq_twoPass (M : Fin 500000 → Fin 128 → EReal)
    (hM : ∀ r j, ∃ x : ℝ, M r j = (x : EReal)) (g b : Fin 128 → EReal) :
    normRelu M (varOnePass M) g b = normRelu M (varTwoPass M) g b := by
  rw [varOnePass_eq_varTwoPass M hM]

/-- The message matrix whose node table is a scatter of real rows into a real table, and whose per-message
    table is a scatter of gathered real rows into a real table, has real entries when the second node table and
    the three weights are real too. -/
theorem msg_finite_of_inputs {si1 u1 si2 u2 si3 : Shape} {w1 w2 w3 : Nat}
    (d1 : ScatterDims Nodes si1 u1) (d2 : ScatterDims Rows si2 u2) (dg : GatherDims u1 si3 u2)
    (z1 : Nodes.Idx → EReal) (z2 : Rows.Idx → EReal)
    (i1 : IVec si1 w1) (i2 : IVec si2 w2) (i3 : IVec si3 w3)
    (a0 : u1.Idx → EReal) (a1 : Nodes.Idx → EReal) (g0 g1 : Fin 500000 → Fin 50000)
    (a6 a7 a8 : Sq.Idx → EReal)
    (hz1 : ∀ i, ∃ x : ℝ, z1 i = (x : EReal)) (hz2 : ∀ i, ∃ x : ℝ, z2 i = (x : EReal))
    (h0 : ∀ i, ∃ x : ℝ, a0 i = (x : EReal)) (h1 : ∀ i, ∃ x : ℝ, a1 i = (x : EReal))
    (h6 : ∀ i, ∃ x : ℝ, a6 i = (x : EReal)) (h7 : ∀ i, ∃ x : ℝ, a7 i = (x : EReal))
    (h8 : ∀ i, ∃ x : ℝ, a8 i = (x : EReal)) :
    ∀ r j, ∃ x : ℝ,
      msg (Host.scatterAdd (F := Ideal) (φ := .f32) d1 z1 i1 a0)
        (Host.scatterAdd (F := Ideal) (φ := .f32) d2 z2 i2 (Host.gather dg a0 i3)) a1 g0 g1 a6 a7 a8 r j
        = (x : EReal) :=
  msg_finite _ _ _ g0 g1 a6 a7 a8
    (scatterAdd_finite d1 z1 i1 a0 hz1 h0)
    (scatterAdd_finite d2 z2 i2 _ hz2 (gather_finite dg a0 i3 h0))
    h1 h6 h7 h8

end Cert.MsgNorm

end
-- ==== Proof.FiniteInputs.lean ====
/-
  From the precondition to finiteness of the float inputs. The precondition is the conjunction, over the float
  arguments, of "every entry has absolute value below plus infinity"; an extended real whose absolute value
  (the larger of itself and its negative) is below plus infinity is neither infinity, so it is a real.
-/
import Mathlib.Tactic
import Idealize.ShloMosaic.PureOps.Ideal
import Idealize.ShloMosaic.PureOps.Ideal.Laws
import Idealize.ShloMosaic.Lib.ValueIdx
import Idealize.ShloMosaic.Lib.ReduceAll
import proofs.«117741_j73332271612004_2_alg».proof.Pre_finite_inputs
import proofs.«117741_j73332271612004_2_alg».proof.Proof.Gen.Pre_finite_inputs

noncomputable section

namespace Cert.MsgNorm

open Idealize.ShloMosaic Idealize.ShloMosaic.ValueIdx

/-- The word with all exponent bits set and no fraction bit denotes plus infinity. -/
theorem ofBits_inf : Ideal.ofBits .f32 0x7F800000#32 = (⊤ : EReal) := by
  simp [Ideal.ofBits, Ideal.ieee]

/-- An extended real whose absolute value compares below plus infinity is a real. -/
theorem real_of_abs_lt_top (x : EReal) (h : Ideal.cmp .olt (max x (-x)) ⊤ = 1#1) : ∃ r : ℝ, x = (r : EReal) := by
  have h2 : max x (-x) < ⊤ := by
    by_contra hn
    simp [Ideal.cmp, hn] at h
  induction x using EReal.rec with
  | bot => simp at h2
  | coe r => exact ⟨r, rfl⟩
  | top => simp at h2

/-- The shape of rank zero has one index. -/
instance : Subsingleton Cert.Pre_finite_inputs.S_.Idx := ⟨fun a b => funext fun d => d.elim0⟩

/-- One conjunct of the precondition read back: if the reduction by `and` of the entrywise comparison
    `|a| < +∞` is true, every entry of `a` is a real. -/
theorem real_of_all_lt_inf {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (a : FVec Ideal s .f32)
    (h : Host.reduce IntOp.andi
          (cmpf .olt (Host.absf a)
            (broadcastInDim s ![] hb (constant (F := Ideal) Cert.Pre_finite_inputs.S_ .f32 0x7F800000#32)))
          (constantI Cert.Pre_finite_inputs.S_ 1 1#1) hr hu ix0 = 1#1) :
    ∀ i, ∃ x : ℝ, a i = (x : EReal) := by
  intro i
  have hi := Host.reduce_andi_all _ _ hr hu ix0 h i
  have hi' : Ideal.cmp .olt (max (a i) (-(a i))) (Ideal.ofBits .f32 0x7F800000#32) = 1#1 := hi
  rw [ofBits_inf] at hi'
  exact real_of_abs_lt_top _ hi'

open Cert.Pre_finite_inputs in
/-- The precondition makes every entry of every float argument a real. -/
theorem finite_of_pre [Cert.Pre_finite_inputs.Facts]
    (a0 : FVec Ideal S250000x128 .f32) (a1 : FVec Ideal S50000x128 .f32) (a2 : IVec S250000 32)
    (a3 : IVec S2x1000000 32) (a4 : IVec S1000000 32) (a5 : IVec S2x500000 32)
    (a6 : FVec Ideal S128x128 .f32) (a7 : FVec Ideal S128x128 .f32) (a8 : FVec Ideal S128x128 .f32)
    (a9 : FVec Ideal S128 .f32) (a10 : FVec Ideal S128 .f32)
    (h : Cert.Pre_finite_inputs.fn (F := Ideal) a0 a1 a2 a3 a4 a5 a6 a7 a8 a9 a10 = fun _ => 1#1) :
    (∀ i, ∃ x : ℝ, a0 i = (x : EReal)) ∧ (∀ i, ∃ x : ℝ, a1 i = (x : EReal)) ∧
    (∀ i, ∃ x : ℝ, a6 i = (x : EReal)) ∧ (∀ i, ∃ x : ℝ, a7 i = (x : EReal)) ∧
    (∀ i, ∃ x : ℝ, a8 i = (x : EReal)) ∧ (∀ i, ∃ x : ℝ, a9 i = (x : EReal)) ∧
    (∀ i, ∃ x : ℝ, a10 i = (x : EReal)) := by
  have h0 := congrFun h ix0
  dsimp only [Cert.Pre_finite_inputs.fn, Cert.Pre_finite_inputs.fn_part1] at h0
  simp only [andi, IntOp.andi_eq_one] at h0
  obtain ⟨⟨⟨⟨⟨⟨h0', h1'⟩, h6'⟩, h7'⟩, h8'⟩, h9'⟩, h10'⟩ := h0
  exact ⟨real_of_all_lt_inf _ _ _ a0 h0', real_of_all_lt_inf _ _ _ a1 h1', real_of_all_lt_inf _ _ _ a6 h6',
    real_of_all_lt_inf _ _ _ a7 h7', real_of_all_lt_inf _ _ _ a8 h8', real_of_all_lt_inf _ _ _ a9 h9',
    real_of_all_lt_inf _ _ _ a10 h10'⟩

end Cert.MsgNorm

end
-- ==== Proof.Agree.lean ====
/-
  The two idealized programs end with the same result.

  Both build the same segment sums, the same row selectors and the same message matrix from arguments that agree, and end
  with the same scatter of the normalised, clamped matrix; they differ in the variance they normalise by, one pass
  against two, and those agree because every entry of the message matrix is a real number when the inputs are finite.
-/
import proofs.«117741_j73332271612004_2_alg».proof.Defs
import proofs.«117741_j73332271612004_2_alg».proof.Proof.KernelRun
import proofs.«117741_j73332271612004_2_alg».proof.Proof.KernelValue
import proofs.«117741_j73332271612004_2_alg».proof.Proof.KernelGather
import proofs.«117741_j73332271612004_2_alg».proof.Proof.RefValue
import proofs.«117741_j73332271612004_2_alg».proof.Proof.Bridge
import proofs.«117741_j73332271612004_2_alg».proof.Proof.FiniteInputs

noncomputable section
open Idealize.ShloMosaic Idealize.SL.Sem Idealize.ShloMosaic.ValueIdx
namespace Cert.Proof.Parts
open Cert.MsgNorm

/-! ## The shared stages are the same terms in the two programs -/

theorem tail_agree (a5 : (⟨Cert.ReferenceIdeal.S2x500000, .i32⟩ : BufTy).Contents (Elt Ideal)) (N : (⟨Cert.ReferenceIdeal.S500000x128, .f32⟩ : BufTy).Contents (Elt Ideal)) :
    Cert.ReferenceIdeal.RefValue.tail (F := Ideal) a5 N = Cert.KernelIdeal.KValue.tail a5 N := rfl
theorem segA_agree (a0 : (⟨Cert.ReferenceIdeal.S250000x128, .f32⟩ : BufTy).Contents (Elt Ideal)) (a2 : (⟨Cert.ReferenceIdeal.S250000, .i32⟩ : BufTy).Contents (Elt Ideal)) :
    Cert.ReferenceIdeal.RefValue.segA (F := Ideal) a0 a2 = Cert.KernelIdeal.KValue.segA a0 a2 := rfl
theorem segB_agree (a0 : (⟨Cert.ReferenceIdeal.S250000x128, .f32⟩ : BufTy).Contents (Elt Ideal)) (a3 : (⟨Cert.ReferenceIdeal.S2x1000000, .i32⟩ : BufTy).Contents (Elt Ideal)) (a4 : (⟨Cert.ReferenceIdeal.S1000000, .i32⟩ : BufTy).Contents (Elt Ideal)) :
    Cert.ReferenceIdeal.RefValue.segB (F := Ideal) a0 a3 a4 = Cert.KernelIdeal.KValue.segB a0 a3 a4 := rfl
theorem idx0_agree (a5 : (⟨Cert.ReferenceIdeal.S2x500000, .i32⟩ : BufTy).Contents (Elt Ideal)) :
    Cert.ReferenceIdeal.RefValue.idx0 (F := Ideal) a5 = Cert.KernelIdeal.KValue.idx0 a5 := rfl
theorem idx1_agree (a5 : (⟨Cert.ReferenceIdeal.S2x500000, .i32⟩ : BufTy).Contents (Elt Ideal)) :
    Cert.ReferenceIdeal.RefValue.idx1 (F := Ideal) a5 = Cert.KernelIdeal.KValue.idx1 a5 := rfl

/-! ## Finite inputs make every entry of the message matrix a real number -/

theorem msg_real (m : (ℓ : Loc Cert.KernelIdeal.nD Cert.KernelIdeal.τ Cert.KernelIdeal.sig) → Buf (Elt Ideal) ℓ) (hpre : Cert.Pre_KernelIdeal m) (c : Dev Cert.KernelIdeal.nD) :
    ∀ r j, ∃ x : ℝ, (msg (Cert.KernelIdeal.KValue.segA (m ((c.tc : Thread Cert.KernelIdeal.nD Cert.KernelIdeal.τ).loc Cert.KernelIdeal.main_arg0)) (m ((c.tc : Thread Cert.KernelIdeal.nD Cert.KernelIdeal.τ).loc Cert.KernelIdeal.main_arg2))) (Cert.KernelIdeal.KValue.segB (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) (m ((c.tc : Thread Cert.KernelIdeal.nD Cert.KernelIdeal.τ).loc Cert.KernelIdeal.main_arg1)) (Cert.GatherRows.clampRow 50000 (by decide) (Cert.KernelIdeal.KValue.idx0 (m ((c.tc : Thread Cert.KernelIdeal.nD Cert.KernelIdeal.τ).loc Cert.KernelIdeal.main_arg5)))) (Cert.GatherRows.clampRow 50000 (by decide) (Cert.KernelIdeal.KValue.idx1 (m ((c.tc : Thread Cert.KernelIdeal.nD Cert.KernelIdeal.τ).loc Cert.KernelIdeal.main_arg5)))) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) r j = (x : EReal) := by
  obtain ⟨h0, h1, h6, h7, h8, -, -⟩ := Cert.MsgNorm.finite_of_pre _ _ _ _ _ _ _ _ _ _ _ (hpre c)
  unfold Cert.KernelIdeal.KValue.segA Cert.KernelIdeal.KValue.segB Cert.KernelIdeal.KValue.gathX
  exact msg_finite_of_inputs _ _ _ _ _ _ _ _ _ _ _ _ _ _ _ (bcast_zero_finite _ _) (bcast_zero_finite _ _) h0 h1 h6 h7 h8

/-! ## The results agree -/

theorem value_agree (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (hpre : Cert.Pre_KernelIdeal m) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.RefValue.tail (F := Ideal) (m' ((c.tc : Thread Cert.ReferenceIdeal.nD Cert.ReferenceIdeal.τ).loc Cert.ReferenceIdeal.main_arg5)) (ofEntries (normRelu (msg (Cert.ReferenceIdeal.RefValue.segA (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2))) (Cert.ReferenceIdeal.RefValue.segB (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))) (m' ((c.tc : Thread Cert.ReferenceIdeal.nD Cert.ReferenceIdeal.τ).loc Cert.ReferenceIdeal.main_arg1)) (Cert.GatherRows.clampRow 50000 (by decide) (Cert.ReferenceIdeal.RefValue.idx0 (F := Ideal) (m' ((c.tc : Thread Cert.ReferenceIdeal.nD Cert.ReferenceIdeal.τ).loc Cert.ReferenceIdeal.main_arg5)))) (Cert.GatherRows.clampRow 50000 (by decide) (Cert.ReferenceIdeal.RefValue.idx1 (F := Ideal) (m' ((c.tc : Thread Cert.ReferenceIdeal.nD Cert.ReferenceIdeal.τ).loc Cert.ReferenceIdeal.main_arg5)))) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))) (varTwoPass (msg (Cert.ReferenceIdeal.RefValue.segA (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2))) (Cert.ReferenceIdeal.RefValue.segB (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))) (m' ((c.tc : Thread Cert.ReferenceIdeal.nD Cert.ReferenceIdeal.τ).loc Cert.ReferenceIdeal.main_arg1)) (Cert.GatherRows.clampRow 50000 (by decide) (Cert.ReferenceIdeal.RefValue.idx0 (F := Ideal) (m' ((c.tc : Thread Cert.ReferenceIdeal.nD Cert.ReferenceIdeal.τ).loc Cert.ReferenceIdeal.main_arg5)))) (Cert.GatherRows.clampRow 50000 (by decide) (Cert.ReferenceIdeal.RefValue.idx1 (F := Ideal) (m' ((c.tc : Thread Cert.ReferenceIdeal.nD Cert.ReferenceIdeal.τ).loc Cert.ReferenceIdeal.main_arg5)))) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)))) (ofVec (m' ((c.tc : Thread Cert.ReferenceIdeal.nD Cert.ReferenceIdeal.τ).loc Cert.ReferenceIdeal.main_arg9))) (ofVec (m' ((c.tc : Thread Cert.ReferenceIdeal.nD Cert.ReferenceIdeal.τ).loc Cert.ReferenceIdeal.main_arg10)))))
      = Cert.KernelIdeal.Gen.W5 m ρ c (Proc.devRef .tc Cert.KernelIdeal.main_v61) := by
  obtain ⟨e0, e1, e2, e3, e4, e5, e6, e7, e8, e9, e10⟩ := hagree
  rw [e0, e1, e2, e3, e4, e5, e6, e7, e8, e9, e10]
  rw [tail_agree, segA_agree, segB_agree, idx0_agree, idx1_agree]
  refine Eq.trans ?_ (Cert.KernelIdeal.KValue.kernel_value m ρ c).symm
  have hM : Cert.KernelIdeal.Fused.Mg (Cert.KernelIdeal.Gen.V1 m ρ) c = (msg (Cert.KernelIdeal.KValue.segA (m ((c.tc : Thread Cert.KernelIdeal.nD Cert.KernelIdeal.τ).loc Cert.KernelIdeal.main_arg0)) (m ((c.tc : Thread Cert.KernelIdeal.nD Cert.KernelIdeal.τ).loc Cert.KernelIdeal.main_arg2))) (Cert.KernelIdeal.KValue.segB (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) (m ((c.tc : Thread Cert.KernelIdeal.nD Cert.KernelIdeal.τ).loc Cert.KernelIdeal.main_arg1)) (Cert.GatherRows.clampRow 50000 (by decide) (Cert.KernelIdeal.KValue.idx0 (m ((c.tc : Thread Cert.KernelIdeal.nD Cert.KernelIdeal.τ).loc Cert.KernelIdeal.main_arg5)))) (Cert.GatherRows.clampRow 50000 (by decide) (Cert.KernelIdeal.KValue.idx1 (m ((c.tc : Thread Cert.KernelIdeal.nD Cert.KernelIdeal.τ).loc Cert.KernelIdeal.main_arg5)))) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) :=
    funext fun r => funext fun j => Cert.KernelIdeal.KValue.msg_entries m ρ c r j
  rw [hM, normRelu_onePass_eq_twoPass _ (msg_real m hpre c)]

/-- At the exact values the two programs, run from memories agreeing on the arguments, end with equal results. -/
theorem algebraic : Cert.algebraic_KernelIdeal_ReferenceIdeal := by
  intro m ρ m' ρ' hpre hagree
  refine ⟨fun c => Cert.KernelIdeal.Gen.W5 m ρ c (Proc.devRef .tc Cert.KernelIdeal.main_v61), Cert.KernelIdeal.KValue.run_result m ρ, ?_⟩
  exact (θ_run Cert.ReferenceIdeal.defs _ _).mono (fun _ h c => ⟨(h c).1.trans (value_agree m ρ m' hpre c (hagree c)), (h c).2⟩)
    (Cert.ReferenceIdeal.RefValue.run m' ρ')

end Cert.Proof.Parts
end
-- ==== Proof.lean ====
/-
  A message-passing layer of a graph network: segment sums of node features, rows gathered along edges, three linear
  projections added into one message per edge, batch normalisation of the messages with their own column statistics,
  a scale, a shift, a clamp at zero, and a segment sum of the messages onto the target nodes.

  The kernel computes the projections tile by tile and accumulates each column's sum and sum of squares as it goes, then
  normalises with the one-pass variance (the mean of the squares minus the square of the mean, clamped at zero); the
  reference computes everything on whole arrays and normalises with the two-pass variance (the mean of the squared
  deviations). At the exact values a gather of rows commutes with a product taken row by row, a sum may be taken in any
  grouping, and on finite messages the two variances are one number: so the two results are equal, entry by entry.

  The three frames: the two kernels' by their frame certificates, the reference's by its run with the result dropped.
  The idealization rewrote no operation, so there is nothing for it to preserve. The equality of results is
  `Cert.Proof.Parts.algebraic`.
-/
import proofs.«117741_j73332271612004_2_alg».proof.Defs
import proofs.«117741_j73332271612004_2_alg».proof.Proof.Gen.Kernel
import proofs.«117741_j73332271612004_2_alg».proof.Proof.Gen.Kernel.Skeleton
import proofs.«117741_j73332271612004_2_alg».proof.Proof.Gen.Kernel.Launch
import proofs.«117741_j73332271612004_2_alg».proof.Proof.Gen.Kernel.Points
import proofs.«117741_j73332271612004_2_alg».proof.Proof.Gen.Kernel.Frame
import proofs.«117741_j73332271612004_2_alg».proof.Proof.Gen.KernelIdeal
import proofs.«117741_j73332271612004_2_alg».proof.Proof.Gen.KernelIdeal.Skeleton
import proofs.«117741_j73332271612004_2_alg».proof.Proof.Gen.KernelIdeal.Launch
import proofs.«117741_j73332271612004_2_alg».proof.Proof.Gen.KernelIdeal.Points
import proofs.«117741_j73332271612004_2_alg».proof.Proof.Gen.KernelIdeal.Frame
import proofs.«117741_j73332271612004_2_alg».proof.Proof.Gen.ReferenceIdeal
import proofs.«117741_j73332271612004_2_alg».proof.Proof.Gen.Pre_finite_inputs
import proofs.«117741_j73332271612004_2_alg».proof.Proof.Agree
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2)
    (Cert.ReferenceIdeal.RefValue.run_stages (F := Ideal) m ρ),
  trivial,
  Cert.Proof.Parts.algebraic⟩

end Cert.Proof

end
